-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x2 : Shape := ⟨2, ![2, 2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_
  bcast_S_S2x2 : S_.BroadcastsInDim S2x2 (![] : Fin 0 → Fin S2x2.rank)
  reducesTo_S2x2_S_d0_1 : S2x2.ReducesTo [0, 1] S_

variable [Facts]

def fn_part3 {F : FTy → Type} [FloatOps F] (main_arg12 : FVec F S2 .f32) (main_v48 : IVec S_ 1) (main_v49 : FVec F S2x2 .f32) (main_v50 : FVec F S2x2 .f32) : IVec S_ 1 :=
  let main_v51 : IVec S2x2 1 := cmpf .olt main_v49 main_v50
  let main_c_19 : IVec S_ 1 := constantI S_ 1 1#1
  let main_v52 : IVec S_ 1 := (fun x v => Host.reduce IntOp.andi x v reducesTo_S2x2_S_d0_1 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg8 : FVec F S4x2 .f32) (main_arg9 : FVec F S2 .f32) (main_arg10 : FVec F S2 .f32) (main_arg11 : FVec F S2x2 .f32) (main_arg12 : FVec F S2 .f32) (main_v33 : IVec S_ 1) : IVec S_ 1 :=
  let main_v34 : FVec F S4x2 .f32 := Host.absf main_arg8
  let main_cst_12 : FVec F S_ .f32 := constant S_ .f32 0x7F800000#32
  let main_v35 : FVec F S4x2 .f32 := broadcastInDim S4x2 ![] bcast_S_S4x2 main_cst_12
  let main_v36 : IVec S4x2 1 := cmpf .olt main_v34 main_v35
  let main_c_13 : IVec S_ 1 := constantI S_ 1 1#1
  let main_v37 : IVec S_ 1 := (fun x v => Host.reduce IntOp.andi x v reducesTo_S4x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : FVec F S2x2 .f32 := Host.absf main_arg11
  let main_cst_18 : FVec F S_ .f32 := constant S_ .f32 0x7F800000#32
  let main_v50 : FVec F S2x2 .f32 := broadcastInDim S2x2 ![] bcast_S_S2x2 main_cst_18
  fn_part3 (F := F) main_arg12 main_v48 main_v49 main_v50

def fn_part1 {F : FTy → Type} [FloatOps F] (main_arg5 : FVec F S4x4 .f32) (main_arg6 : FVec F S4 .f32) (main_arg7 : FVec F S4 .f32) (main_arg8 : FVec F S4x2 .f32) (main_arg9 : FVec F S2 .f32) (main_arg10 : FVec F S2 .f32) (main_arg11 : FVec F S2x2 .f32) (main_arg12 : FVec F S2 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S4x4 .f32 := Host.absf main_arg5
  let main_cst_6 : FVec F S_ .f32 := constant S_ .f32 0x7F800000#32
  let main_v20 : FVec F S4x4 .f32 := broadcastInDim S4x4 ![] bcast_S_S4x4 main_cst_6
  let main_v21 : IVec S4x4 1 := cmpf .olt main_v19 main_v20
  let main_c_7 : IVec S_ 1 := constantI S_ 1 1#1
  let main_v22 : IVec S_ 1 := (fun x v => Host.reduce IntOp.andi x v reducesTo_S4x4_S_d0_1 h_S_) main_v21 main_c_7
  let main_v23 : IVec S_ 1 := andi main_v18 main_v22
  let main_v24 : FVec F S4 .f32 := Host.absf main_arg6
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x3200000 32) (main_arg2 : FVec F S128x4 .f32) (main_arg3 : FVec F S4 .f32) (main_arg4 : FVec F S4 .f32) (main_arg5 : FVec F S4x4 .f32) (main_arg6 : FVec F S4 .f32) (main_arg7 : FVec F S4 .f32) (main_arg8 : FVec F S4x2 .f32) (main_arg9 : FVec F S2 .f32) (main_arg10 : FVec F S2 .f32) (main_arg11 : FVec F S2x2 .f32) (main_arg12 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x4 .f32 := Host.absf main_arg2
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4 .f32 := Host.absf main_arg4
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x3200000 : Shape := ⟨2, ![2, 3200000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x2 : Shape := ⟨2, ![2, 2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x4 : Shape := ⟨2, ![100000, 4]⟩
abbrev S10000x128 : Shape := ⟨2, ![10000, 128]⟩
abbrev S10000x4 : Shape := ⟨2, ![10000, 4]⟩
abbrev S3300000x4 : Shape := ⟨2, ![3300000, 4]⟩
abbrev S1x4 : Shape := ⟨2, ![1, 4]⟩
abbrev S100000x2 : Shape := ⟨2, ![100000, 2]⟩
abbrev S10000x2 : Shape := ⟨2, ![10000, 2]⟩
abbrev S3300000x2 : Shape := ⟨2, ![3300000, 2]⟩
abbrev S1x2 : Shape := ⟨2, ![1, 2]⟩

abbrev nBuf : Space → Nat
  | .hbm => 113
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x4, .f32⟩
  | .hbm, ⟨3, _⟩ => ⟨S4, .f32⟩
  | .hbm, ⟨4, _⟩ => ⟨S4, .f32⟩
  | .hbm, ⟨5, _⟩ => ⟨S4x4, .f32⟩
  | .hbm, ⟨6, _⟩ => ⟨S4, .f32⟩
  | .hbm, ⟨7, _⟩ => ⟨S4, .f32⟩
  | .hbm, ⟨8, _⟩ => ⟨S4x2, .f32⟩
  | .hbm, ⟨9, _⟩ => ⟨S2, .f32⟩
  | .hbm, ⟨10, _⟩ => ⟨S2, .f32⟩
  | .hbm, ⟨11, _⟩ => ⟨S2x2, .f32⟩
  | .hbm, ⟨12, _⟩ => ⟨S2, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S100000, .i32⟩
  | .hbm, ⟨18, _⟩ => ⟨S3300000, .i32⟩
  | .hbm, ⟨19, _⟩ => ⟨S3300000, .i32⟩
  | .hbm, ⟨20, _⟩ => ⟨S_, .f32⟩
  | .hbm, ⟨21, _⟩ => ⟨S3300000, .f32⟩
  | .hbm, ⟨22, _⟩ => ⟨S_, .f32⟩
  | .hbm, ⟨23, _⟩ => ⟨S100000, .f32⟩
  | .hbm, ⟨24, _⟩ => ⟨S3300000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S3300000x1, .f32⟩
  | .hbm, ⟨54, _⟩ => ⟨S100000x4, .f32⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S3300000x4, .f32⟩
  | .hbm, ⟨64, _⟩ => ⟨S3300000x4, .f32⟩
  | .hbm, ⟨65, _⟩ => ⟨S3300000x4, .f32⟩
  | .hbm, ⟨66, _⟩ => ⟨S_, .f32⟩
  | .hbm, ⟨67, _⟩ => ⟨S100000x4, .f32⟩
  | .hbm, ⟨68, _⟩ => ⟨S3300000x1, .i32⟩
  | .hbm, ⟨69, _⟩ => ⟨S100000x4, .f32⟩
  | .hbm, ⟨70, _⟩ => ⟨S1x4, .f32⟩
  | .hbm, ⟨71, _⟩ => ⟨S1x4, .f32⟩
  | .hbm, ⟨72, _⟩ => ⟨S100000x4, .f32⟩
  | .hbm, ⟨73, _⟩ => ⟨S100000x4, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x4, .f32⟩
  | .hbm, ⟨83, _⟩ => ⟨S3300000x4, .f32⟩
  | .hbm, ⟨84, _⟩ => ⟨S3300000x4, .f32⟩
  | .hbm, ⟨85, _⟩ => ⟨S_, .f32⟩
  | .hbm, ⟨86, _⟩ => ⟨S100000x4, .f32⟩
  | .hbm, ⟨87, _⟩ => ⟨S3300000x1, .i32⟩
  | .hbm, ⟨88, _⟩ => ⟨S100000x4, .f32⟩
  | .hbm, ⟨89, _⟩ => ⟨S1x4, .f32⟩
  | .hbm, ⟨90, _⟩ => ⟨S1x4, .f32⟩
  | .hbm, ⟨91, _⟩ => ⟨S100000x4, .f32⟩
  | .hbm, ⟨92, _⟩ => ⟨S100000x2, .f32⟩
  | .hbm, ⟨93, _⟩ => ⟨S_, .i32⟩
  | .hbm, ⟨94, _⟩ => ⟨S3300000, .i32⟩
  | .hbm, ⟨95, _⟩ => ⟨S3300000, .i1⟩
  | .hbm, ⟨96, _⟩ => ⟨S_, .i32⟩
  | .hbm, ⟨97, _⟩ => ⟨S3300000, .i32⟩
  | .hbm, ⟨98, _⟩ => ⟨S3300000, .i32⟩
  | .hbm, ⟨99, _⟩ => ⟨S3300000, .i32⟩
  | .hbm, ⟨100, _⟩ => ⟨S3300000x1, .i32⟩
  | .hbm, ⟨101, _⟩ => ⟨S3300000x2, .f32⟩
  | .hbm, ⟨102, _⟩ => ⟨S3300000x2, .f32⟩
  | .hbm, ⟨103, _⟩ => ⟨S3300000x2, .f32⟩
  | .hbm, ⟨104, _⟩ => ⟨S_, .f32⟩
  | .hbm, ⟨105, _⟩ => ⟨S100000x2, .f32⟩
  | .hbm, ⟨106, _⟩ => ⟨S3300000x1, .i32⟩
  | .hbm, ⟨107, _⟩ => ⟨S100000x2, .f32⟩
  | .hbm, ⟨108, _⟩ => ⟨S1x2, .f32⟩
  | .hbm, ⟨109, _⟩ => ⟨S1x2, .f32⟩
  | .hbm, ⟨110, _⟩ => ⟨S100000x2, .f32⟩
  | .hbm, ⟨111, _⟩ => ⟨S1x2, .f32⟩
  | .hbm, ⟨112, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x4, .f32⟩
  | .local _ .vmem, ⟨3, _⟩ => ⟨S10000x4, .f32⟩
  | .local _ .vmem, ⟨4, _⟩ => ⟨S10000x4, .f32⟩
  | .local _ .vmem, ⟨5, _⟩ => ⟨S10000x4, .f32⟩
  | .local _ .vmem, ⟨6, _⟩ => ⟨S10000x4, .f32⟩
  | .local _ .vmem, ⟨7, _⟩ => ⟨S1x4, .f32⟩
  | .local _ .vmem, ⟨8, _⟩ => ⟨S1x4, .f32⟩
  | .local _ .vmem, ⟨9, _⟩ => ⟨S10000x4, .f32⟩
  | .local _ .vmem, ⟨10, _⟩ => ⟨S10000x4, .f32⟩
  | .local _ .vmem, ⟨11, _⟩ => ⟨S10000x4, .f32⟩
  | .local _ .vmem, ⟨12, _⟩ => ⟨S10000x4, .f32⟩
  | .local _ .vmem, ⟨13, _⟩ => ⟨S4x4, .f32⟩
  | .local _ .vmem, ⟨14, _⟩ => ⟨S10000x4, .f32⟩
  | .local _ .vmem, ⟨15, _⟩ => ⟨S10000x4, .f32⟩
  | .local _ .vmem, ⟨16, _⟩ => ⟨S10000x4, .f32⟩
  | .local _ .vmem, ⟨17, _⟩ => ⟨S10000x4, .f32⟩
  | .local _ .vmem, ⟨18, _⟩ => ⟨S1x4, .f32⟩
  | .local _ .vmem, ⟨19, _⟩ => ⟨S1x4, .f32⟩
  | .local _ .vmem, ⟨20, _⟩ => ⟨S10000x4, .f32⟩
  | .local _ .vmem, ⟨21, _⟩ => ⟨S10000x4, .f32⟩
  | .local _ .vmem, ⟨22, _⟩ => ⟨S10000x4, .f32⟩
  | .local _ .vmem, ⟨23, _⟩ => ⟨S10000x4, .f32⟩
  | .local _ .vmem, ⟨24, _⟩ => ⟨S4x2, .f32⟩
  | .local _ .vmem, ⟨25, _⟩ => ⟨S10000x2, .f32⟩
  | .local _ .vmem, ⟨26, _⟩ => ⟨S10000x2, .f32⟩
  | .local _ .vmem, ⟨27, _⟩ => ⟨S10000x2, .f32⟩
  | .local _ .vmem, ⟨28, _⟩ => ⟨S10000x2, .f32⟩
  | .local _ .vmem, ⟨29, _⟩ => ⟨S1x2, .f32⟩
  | .local _ .vmem, ⟨30, _⟩ => ⟨S1x2, .f32⟩
  | .local _ .vmem, ⟨31, _⟩ => ⟨S10000x2, .f32⟩
  | .local _ .vmem, ⟨32, _⟩ => ⟨S10000x2, .f32⟩
  | .local _ .vmem, ⟨33, _⟩ => ⟨S10000x2, .f32⟩
  | .local _ .vmem, ⟨34, _⟩ => ⟨S10000x2, .f32⟩
  | .local _ .vmem, ⟨35, _⟩ => ⟨S2x2, .f32⟩
  | .local _ .vmem, ⟨36, _⟩ => ⟨S1x2, .f32⟩
  | .local _ .vmem, ⟨37, _⟩ => ⟨S10000x2, .f32⟩
  | .local _ .vmem, ⟨38, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_9 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_11 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_12 : Ref sig .tc := ⟨.hbm, 93, rfl⟩
abbrev main_v64 : Ref sig .tc := ⟨.hbm, 94, rfl⟩
abbrev main_v65 : Ref sig .tc := ⟨.hbm, 95, rfl⟩
abbrev main_c_13 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg3_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem3_0 : DmaSem sig := 37
abbrev cc6_sem3_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x4 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x4 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x4 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x2 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x2 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x2 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x2 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x4_S128x4_0_0 : ∀ a, (![0, 0] : Fin 2 → Nat) a + S128x4.size a ≤ S128x4.size a
  h_S128x4 : 0 < S128x4.numel
  inb_S10000x4_S10000x4_0_0 : ∀ a, (![0, 0] : Fin 2 → Nat) a + S10000x4.size a ≤ S10000x4.size a
  h_S10000x4 : 0 < S10000x4.numel
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  shapeCasts_S4_S1x4 : S4.ShapeCasts S1x4
  shapeCasts_S10000x4_S10000x4 : S10000x4.ShapeCasts S10000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  inb_S4x4_S4x4_0_0 : ∀ a, (![0, 0] : Fin 2 → Nat) a + S4x4.size a ≤ S4x4.size a
  h_S4x4 : 0 < S4x4.numel
  inb_S4x2_S4x2_0_0 : ∀ a, (![0, 0] : Fin 2 → Nat) a + S4x2.size a ≤ S4x2.size a
  h_S4x2 : 0 < S4x2.numel
  inb_S10000x2_S10000x2_0_0 : ∀ a, (![0, 0] : Fin 2 → Nat) a + S10000x2.size a ≤ S10000x2.size a
  h_S10000x2 : 0 < S10000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S2x2_S2x2_0_0 : ∀ a, (![0, 0] : Fin 2 → Nat) a + S2x2.size a ≤ S2x2.size a
  h_S2x2 : 0 < S2x2.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x4_S10000x4_1_0_0_1_n_n_wf : DotDims.WF S10000x128 S128x4 S10000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  dot_S10000x4_S4x4_S10000x4_1_0_0_1_n_n_wf : DotDims.WF S10000x4 S4x4 S10000x4 [1] [0] [0] [1] [] []
  dot_S10000x4_S4x2_S10000x2_1_0_0_1_n_n_wf : DotDims.WF S10000x4 S4x2 S10000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  dot_S10000x2_S2x2_S10000x2_1_0_0_1_n_n_wf : DotDims.WF S10000x2 S2x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S128x4.size a
  hwx0_1 : ∀ i : grid0.Coords, EltTy.bits .f32 = 32 ∨ (Rect.block (s := S128x4) S128x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x4.size a ≤ S100000x4.size a
  hwx0_2 : ∀ i : grid0.Coords, EltTy.bits .f32 = 32 ∨ (Rect.block (s := S100000x4) S10000x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x4.size a ≤ S100000x4.size a
  hwx1_0 : ∀ i : grid1.Coords, EltTy.bits .f32 = 32 ∨ (Rect.block (s := S100000x4) S10000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4.size a ≤ S1x4.size a
  hwx1_1 : ∀ i : grid1.Coords, EltTy.bits .f32 = 32 ∨ (Rect.block (s := S1x4) S1x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4.size a ≤ S1x4.size a
  hwx1_2 : ∀ i : grid1.Coords, EltTy.bits .f32 = 32 ∨ (Rect.block (s := S1x4) S1x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x4.size a ≤ S100000x4.size a
  hwx1_3 : ∀ i : grid1.Coords, EltTy.bits .f32 = 32 ∨ (Rect.block (s := S100000x4) S10000x4.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x4.size a ≤ S100000x4.size a
  hwx2_0 : ∀ i : grid2.Coords, EltTy.bits .f32 = 32 ∨ (Rect.block (s := S100000x4) S10000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x4.size a ≤ S4x4.size a
  hwx2_1 : ∀ i : grid2.Coords, EltTy.bits .f32 = 32 ∨ (Rect.block (s := S4x4) S4x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x4.size a ≤ S100000x4.size a
  hwx2_2 : ∀ i : grid2.Coords, EltTy.bits .f32 = 32 ∨ (Rect.block (s := S100000x4) S10000x4.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x4.size a ≤ S100000x4.size a
  hwx3_0 : ∀ i : grid3.Coords, EltTy.bits .f32 = 32 ∨ (Rect.block (s := S100000x4) S10000x4.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x4.size a ≤ S1x4.size a
  hwx3_1 : ∀ i : grid3.Coords, EltTy.bits .f32 = 32 ∨ (Rect.block (s := S1x4) S1x4.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x4.size a ≤ S1x4.size a
  hwx3_2 : ∀ i : grid3.Coords, EltTy.bits .f32 = 32 ∨ (Rect.block (s := S1x4) S1x4.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x4.size a ≤ S100000x4.size a
  hwx3_3 : ∀ i : grid3.Coords, EltTy.bits .f32 = 32 ∨ (Rect.block (s := S100000x4) S10000x4.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x4.size a ≤ S100000x4.size a
  hwx4_0 : ∀ i : grid4.Coords, EltTy.bits .f32 = 32 ∨ (Rect.block (s := S100000x4) S10000x4.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S4x2.size a ≤ S4x2.size a
  hwx4_1 : ∀ i : grid4.Coords, EltTy.bits .f32 = 32 ∨ (Rect.block (s := S4x2) S4x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x2.size a ≤ S100000x2.size a
  hwx4_2 : ∀ i : grid4.Coords, EltTy.bits .f32 = 32 ∨ (Rect.block (s := S100000x2) S10000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x2.size a ≤ S100000x2.size a
  hwx5_0 : ∀ i : grid5.Coords, EltTy.bits .f32 = 32 ∨ (Rect.block (s := S100000x2) S10000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x2.size a ≤ S1x2.size a
  hwx5_2 : ∀ i : grid5.Coords, EltTy.bits .f32 = 32 ∨ (Rect.block (s := S1x2) S1x2.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x2.size a ≤ S100000x2.size a
  hwx5_3 : ∀ i : grid5.Coords, EltTy.bits .f32 = 32 ∨ (Rect.block (s := S100000x2) S10000x2.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x2.size a ≤ S100000x2.size a
  hwx6_0 : ∀ i : grid6.Coords, EltTy.bits .f32 = 32 ∨ (Rect.block (s := S100000x2) S10000x2.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2x2.size a ≤ S2x2.size a
  hwx6_1 : ∀ i : grid6.Coords, EltTy.bits .f32 = 32 ∨ (Rect.block (s := S2x2) S2x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x2.size a ≤ S100000x2.size a
  hwx6_3 : ∀ i : grid6.Coords, EltTy.bits .f32 = 32 ∨ (Rect.block (s := S100000x2) S10000x2.size (cc6_transform_3 i) (hinb6_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x4_S10000x4_1_0_0_1_n_n : DotDims S10000x128 S128x4 S10000x4 where
  lhsContracting := [1]
  rhsContracting := [0]
  lhsNonContracting := [0]
  rhsNonContracting := [1]
  lhsBatch := []
  rhsBatch := []
  wf := dot_S10000x128_S128x4_S10000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf
def dot_S10000x4_S4x4_S10000x4_1_0_0_1_n_n : DotDims S10000x4 S4x4 S10000x4 where
  lhsContracting := [1]
  rhsContracting := [0]
  lhsNonContracting := [0]
  rhsNonContracting := [1]
  lhsBatch := []
  rhsBatch := []
  wf := dot_S10000x4_S4x4_S10000x4_1_0_0_1_n_n_wf
def dot_S10000x4_S4x2_S10000x2_1_0_0_1_n_n : DotDims S10000x4 S4x2 S10000x2 where
  lhsContracting := [1]
  rhsContracting := [0]
  lhsNonContracting := [0]
  rhsNonContracting := [1]
  lhsBatch := []
  rhsBatch := []
  wf := dot_S10000x4_S4x2_S10000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf
def dot_S10000x2_S2x2_S10000x2_1_0_0_1_n_n : DotDims S10000x2 S2x2 S10000x2 where
  lhsContracting := [1]
  rhsContracting := [0]
  lhsNonContracting := [0]
  rhsNonContracting := [1]
  lhsBatch := []
  rhsBatch := []
  wf := dot_S10000x2_S2x2_S10000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x4.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S10000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S4x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x4.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x4.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x4.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S10000x4.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v62) S10000x4.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S4x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S10000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S1x2.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v78) S10000x2.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v78) S10000x2.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S2x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v80) S10000x2.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x2 : Shape := ⟨2, ![2, 2]⟩
abbrev S1x3200000 : Shape := ⟨2, ![1, 3200000]⟩
abbrev S3200000 : Shape := ⟨1, ![3200000]⟩
abbrev S100000x4 : Shape := ⟨2, ![100000, 4]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x4 : Shape := ⟨2, ![3300000, 4]⟩
abbrev S1x4 : Shape := ⟨2, ![1, 4]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 210
  | .vmem => 0
  | .smem => 0
  | _ => 0

abbrev hbmTy0_0 (i : Nat) : BufTy := match i % 128 with
  | 0 => ⟨S100000x128, .f32⟩
  | 1 => ⟨S2x3200000, .i32⟩
  | 2 => ⟨S128x4, .f32⟩
  | 3 => ⟨S4, .f32⟩
  | 4 => ⟨S4, .f32⟩
  | 5 => ⟨S4x4, .f32⟩
  | 6 => ⟨S4, .f32⟩
  | 7 => ⟨S4, .f32⟩
  | 8 => ⟨S4x2, .f32⟩
  | 9 => ⟨S2, .f32⟩
  | 10 => ⟨S2, .f32⟩
  | 11 => ⟨S2x2, .f32⟩
  | 12 => ⟨S2, .f32⟩
  | 13 => ⟨S1x3200000, .i32⟩
  | 14 => ⟨S3200000, .i32⟩
  | 15 => ⟨S1x3200000, .i32⟩
  | 16 => ⟨S3200000, .i32⟩
  | 17 => ⟨S100000x4, .f32⟩
  | 18 => ⟨S100000, .i32⟩
  | 19 => ⟨S3300000, .i32⟩
  | 20 => ⟨S3300000, .i32⟩
  | 21 => ⟨S_, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S3300000, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x4, .f32⟩
  | 63 => ⟨S3300000x1, .f32⟩
  | 64 => ⟨S3300000x4, .f32⟩
  | 65 => ⟨S3300000x4, .f32⟩
  | 66 => ⟨S_, .f32⟩
  | 67 => ⟨S100000x4, .f32⟩
  | 68 => ⟨S3300000x1, .i32⟩
  | 69 => ⟨S100000x4, .f32⟩
  | 70 => ⟨S1x4, .f32⟩
  | 71 => ⟨S100000x4, .f32⟩
  | 72 => ⟨S100000x4, .f32⟩
  | 73 => ⟨S_, .f32⟩
  | 74 => ⟨S100000x4, .f32⟩
  | 75 => ⟨S100000x4, .i1⟩
  | 76 => ⟨S1x4, .f32⟩
  | 77 => ⟨S100000x4, .f32⟩
  | 78 => ⟨S100000x4, .f32⟩
  | 79 => ⟨S100000x4, .f32⟩
  | 80 => ⟨S100000x4, .f32⟩
  | 81 => ⟨S100000, .i32⟩
  | 82 => ⟨S3300000, .i32⟩
  | 83 => ⟨S3300000, .i32⟩
  | 84 => ⟨S_, .f32⟩
  | 85 => ⟨S3300000, .f32⟩
  | 86 => ⟨S_, .f32⟩
  | 87 => ⟨S100000, .f32⟩
  | 88 => ⟨S3300000x1, .i32⟩
  | 89 => ⟨S100000, .f32⟩
  | 90 => ⟨S_, .f32⟩
  | 91 => ⟨S100000, .f32⟩
  | 92 => ⟨S100000, .i1⟩
  | 93 => ⟨S100000, .f32⟩
  | 94 => ⟨S_, .f32⟩
  | 95 => ⟨S_, .f32⟩
  | 96 => ⟨S100000, .f32⟩
  | 97 => ⟨S100000, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000, .f32⟩
  | 107 => ⟨S_, .i32⟩
  | 108 => ⟨S3300000, .i32⟩
  | 109 => ⟨S3300000, .i1⟩
  | 110 => ⟨S_, .i32⟩
  | 111 => ⟨S3300000, .i32⟩
  | 112 => ⟨S3300000, .i32⟩
  | 113 => ⟨S3300000, .i32⟩
  | 114 => ⟨S3300000x1, .i32⟩
  | 115 => ⟨S3300000, .f32⟩
  | 116 => ⟨S3300000, .f32⟩
  | 117 => ⟨S_, .i32⟩
  | 118 => ⟨S3300000, .i32⟩
  | 119 => ⟨S3300000, .i1⟩
  | 120 => ⟨S_, .i32⟩
  | 121 => ⟨S3300000, .i32⟩
  | 122 => ⟨S3300000, .i32⟩
  | 123 => ⟨S3300000, .i32⟩
  | 124 => ⟨S3300000x1, .i32⟩
  | 125 => ⟨S3300000x4, .f32⟩
  | 126 => ⟨S3300000x1, .f32⟩
  | 127 => ⟨S3300000x4, .f32⟩
  | _ => ⟨S100000x128, .f32⟩

abbrev hbmTy0_1 (i : Nat) : BufTy := match i % 128 with
  | 0 => ⟨S3300000x4, .f32⟩
  | 1 => ⟨S_, .f32⟩
  | 2 => ⟨S100000x4, .f32⟩
  | 3 => ⟨S3300000x1, .i32⟩
  | 4 => ⟨S100000x4, .f32⟩
  | 5 => ⟨S1x4, .f32⟩
  | 6 => ⟨S100000x4, .f32⟩
  | 7 => ⟨S100000x4, .f32⟩
  | 8 => ⟨S_, .f32⟩
  | 9 => ⟨S100000x4, .f32⟩
  | 10 => ⟨S100000x4, .i1⟩
  | 11 => ⟨S1x4, .f32⟩
  | 12 => ⟨S100000x4, .f32⟩
  | 13 => ⟨S100000x4, .f32⟩
  | 14 => ⟨S100000x4, .f32⟩
  | 15 => ⟨S100000x2, .f32⟩
  | 16 => ⟨S100000, .i32⟩
  | 17 => ⟨S3300000, .i32⟩
  | 18 => ⟨S3300000, .i32⟩
  | 19 => ⟨S_, .f32⟩
  | 20 => ⟨S3300000, .f32⟩
  | 21 => ⟨S_, .f32⟩
  | 22 => ⟨S100000, .f32⟩
  | 23 => ⟨S3300000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S_, .i32⟩
  | 43 => ⟨S3300000, .i32⟩
  | 44 => ⟨S3300000, .i1⟩
  | 45 => ⟨S_, .i32⟩
  | 46 => ⟨S3300000, .i32⟩
  | 47 => ⟨S3300000, .i32⟩
  | 48 => ⟨S3300000, .i32⟩
  | 49 => ⟨S3300000x1, .i32⟩
  | 50 => ⟨S3300000, .f32⟩
  | 51 => ⟨S3300000, .f32⟩
  | 52 => ⟨S_, .i32⟩
  | 53 => ⟨S3300000, .i32⟩
  | 54 => ⟨S3300000, .i1⟩
  | 55 => ⟨S_, .i32⟩
  | 56 => ⟨S3300000, .i32⟩
  | 57 => ⟨S3300000, .i32⟩
  | 58 => ⟨S3300000, .i32⟩
  | 59 => ⟨S3300000x1, .i32⟩
  | 60 => ⟨S3300000x2, .f32⟩
  | 61 => ⟨S3300000x1, .f32⟩
  | 62 => ⟨S3300000x2, .f32⟩
  | 63 => ⟨S3300000x2, .f32⟩
  | 64 => ⟨S_, .f32⟩
  | 65 => ⟨S100000x2, .f32⟩
  | 66 => ⟨S3300000x1, .i32⟩
  | 67 => ⟨S100000x2, .f32⟩
  | 68 => ⟨S1x2, .f32⟩
  | 69 => ⟨S100000x2, .f32⟩
  | 70 => ⟨S100000x2, .f32⟩
  | 71 => ⟨S_, .f32⟩
  | 72 => ⟨S100000x2, .f32⟩
  | 73 => ⟨S100000x2, .i1⟩
  | 74 => ⟨S1x2, .f32⟩
  | 75 => ⟨S100000x2, .f32⟩
  | 76 => ⟨S100000x2, .f32⟩
  | 77 => ⟨S100000x2, .f32⟩
  | 78 => ⟨S100000x2, .f32⟩
  | 79 => ⟨S1x2, .f32⟩
  | 80 => ⟨S100000x2, .f32⟩
  | 81 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_call2_v0 : Ref sig .tc := ⟨.hbm, 95, rfl⟩
abbrev main_call2_v1 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_16 : Ref sig .tc := ⟨.hbm, 107, rfl⟩
abbrev main_v72 : Ref sig .tc := ⟨.hbm, 108, rfl⟩
abbrev main_v73 : Ref sig .tc := ⟨.hbm, 109, rfl⟩
abbrev main_c_17 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_18 : Ref sig .tc := ⟨.hbm, 117, rfl⟩
abbrev main_v80 : Ref sig .tc := ⟨.hbm, 118, rfl⟩
abbrev main_v81 : Ref sig .tc := ⟨.hbm, 119, rfl⟩
abbrev main_c_19 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_20 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_21 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_22 : Ref sig .tc := ⟨.hbm, 147, rfl⟩
abbrev main_v106 : Ref sig .tc := ⟨.hbm, 148, rfl⟩
abbrev main_cst_23 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_24 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_25 : Ref sig .tc := ⟨.hbm, 157, rfl⟩
abbrev main_call4_v0 : Ref sig .tc := ⟨.hbm, 158, rfl⟩
abbrev main_call4_v1 : Ref sig .tc := ⟨.hbm, 159, rfl⟩
abbrev main_v113 : Ref sig .tc := ⟨.hbm, 160, rfl⟩
abbrev main_c_26 : Ref sig .tc := ⟨.hbm, 161, rfl⟩
abbrev main_v114 : Ref sig .tc := ⟨.hbm, 162, rfl⟩
abbrev main_v115 : Ref sig .tc := ⟨.hbm, 163, rfl⟩
abbrev main_c_27 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_c_28 : Ref sig .tc := ⟨.hbm, 170, rfl⟩
abbrev main_v121 : Ref sig .tc := ⟨.hbm, 171, rfl⟩
abbrev main_v122 : Ref sig .tc := ⟨.hbm, 172, rfl⟩
abbrev main_c_29 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_c_30 : Ref sig .tc := ⟨.hbm, 180, rfl⟩
abbrev main_v129 : Ref sig .tc := ⟨.hbm, 181, rfl⟩
abbrev main_v130 : Ref sig .tc := ⟨.hbm, 182, rfl⟩
abbrev main_c_31 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_32 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_cst_33 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x128_S128x4_S100000x4_1_0_0_1_n_n_wf : DotDims.WF S100000x128 S128x4 S100000x4 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  dot_S100000x4_S4x4_S100000x4_1_0_0_1_n_n_wf : DotDims.WF S100000x4 S4x4 S100000x4 [1] [0] [0] [1] [] []
  dot_S100000x4_S4x2_S100000x2_1_0_0_1_n_n_wf : DotDims.WF S100000x4 S4x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  dot_S100000x2_S2x2_S100000x2_1_0_0_1_n_n_wf : DotDims.WF S100000x2 S2x2 S100000x2 [1] [0] [0] [1] [] []

variable [Facts₀]

def dot_S100000x128_S128x4_S100000x4_1_0_0_1_n_n : DotDims S100000x128 S128x4 S100000x4 where
  lhsContracting := [1]
  rhsContracting := [0]
  lhsNonContracting := [0]
  rhsNonContracting := [1]
  lhsBatch := []
  rhsBatch := []
  wf := dot_S100000x128_S128x4_S100000x4_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf
def dot_S100000x4_S4x4_S100000x4_1_0_0_1_n_n : DotDims S100000x4 S4x4 S100000x4 where
  lhsContracting := [1]
  rhsContracting := [0]
  lhsNonContracting := [0]
  rhsNonContracting := [1]
  lhsBatch := []
  rhsBatch := []
  wf := dot_S100000x4_S4x4_S100000x4_1_0_0_1_n_n_wf
def dot_S100000x4_S4x2_S100000x2_1_0_0_1_n_n : DotDims S100000x4 S4x2 S100000x2 where
  lhsContracting := [1]
  rhsContracting := [0]
  lhsNonContracting := [0]
  rhsNonContracting := [1]
  lhsBatch := []
  rhsBatch := []
  wf := dot_S100000x4_S4x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf
def dot_S100000x2_S2x2_S100000x2_1_0_0_1_n_n : DotDims S100000x2 S2x2 S100000x2 where
  lhsContracting := [1]
  rhsContracting := [0]
  lhsNonContracting := [0]
  rhsNonContracting := [1]
  lhsBatch := []
  rhsBatch := []
  wf := dot_S100000x2_S2x2_S100000x2_1_0_0_1_n_n_wf

class Facts : Prop extends Facts₀ where

variable [Facts]
-- ==== Proof.Spec.lean ====
/-
  The graph-convolution network both programs compute, as functions of the argument arrays.

  Nodes are numbered 0 … 99999 and the edge list has two rows of 3200000 node numbers (sources, destinations).
  Both programs append one self-loop per node (3300000 edges in all), count each node's incoming edges into its
  degree, take `dinv = deg^(-1/2)` where the degree is positive and 0 elsewhere, and weight edge `e` by
  `dinv[src e] · dinv[dst e]`.  A layer multiplies the node features by its weight matrix, sends every edge's source
  row times the edge weight to the edge's destination (a gather, a product, a scatter-add into zeros), adds the
  bias and applies PReLU: `t ↦ t` where `t ≥ 0`, `t ↦ a · t` elsewhere.  Three layers (widths 128 → 4 → 4 → 2) and a
  last dense layer with bias (2 → 2) give the two results.

  The sparse steps are written with the host operations both programs print, so that nothing about a gather or a
  scatter has to be opened: the two programs apply THE SAME sparse functions to dense intermediate values, and only
  the dense steps (a matrix product, bias + PReLU) are computed in two different ways.
-/
import proofs.«109522_j30880814859094_1_alg».proof.Proof.Gen.KernelIdeal
import Idealize.ShloMosaic.Lib.ValueIdx
import Idealize.ShloMosaic.PureOps.Ideal

noncomputable section

namespace Cert.Gcn

open Cert.KernelIdeal Cert.KernelIdeal.Facts₀ Idealize.ShloMosaic Idealize.ShloMosaic.TcCoe Idealize.SL.Sem Idealize.ShloMosaic.ValueIdx

variable {F : FTy → Type} [FloatOps F]

/-- An array of the given shape and element type. -/
abbrev Arr (F : FTy → Type) [FloatOps F] (s : Shape) (e : EltTy) : Type := (⟨s, e⟩ : BufTy).Contents (Elt F)

/-! ## The sparse part: edges, degrees, edge weights, aggregation -/

/-- Two index vectors laid end to end. -/
@[reducible] def joinEdges (p : Arr F S3200000 .i32) (q : Arr F S100000 .i32) : Arr F S3300000 .i32 :=
  concatenate S3300000 0 [⟨S3200000, p⟩, ⟨S100000, q⟩] concatenates_S3200000_S100000_S3300000_d0

/-- The sources of all 3300000 edges: row 0 of the edge list, then the self-loops 0 … 99999. -/
def srcs (ei : Arr F S2x3200000 .i32) : Arr F S3300000 .i32 :=
  joinEdges (shapeCast _ (extractStridedSlice S1x3200000 ![0, 0] ei slices_S2x3200000_S1x3200000_0_0) shapeCasts_S1x3200000_S3200000)
    (iotaInDim S100000 32 0)

/-- The destinations of all 3300000 edges: row 1 of the edge list, then the self-loops. -/
def dsts (ei : Arr F S2x3200000 .i32) : Arr F S3300000 .i32 :=
  joinEdges (shapeCast _ (extractStridedSlice S1x3200000 ![1, 0] ei slices_S2x3200000_S1x3200000_1_0) shapeCasts_S1x3200000_S3200000)
    (iotaInDim S100000 32 0)

/-- A node number counted from the end when negative: `n ↦ n + 100000` where `n < 0`. -/
def wrapNeg (s : Arr F S3300000 .i32) : Arr F S3300000 .i32 :=
  select (cmpi .slt s (broadcastInDim S3300000 ![] bcast_S_S3300000 (constantI S_ 32 0#32)))
    (addi s (broadcastInDim S3300000 ![] bcast_S_S3300000 (constantI S_ 32 100000#32))) s

/-- A vector of node numbers as a one-column matrix of indices. -/
def asColumn (s : Arr F S3300000 .i32) : Arr F S3300000x1 .i32 :=
  broadcastInDim S3300000x1 ![0] bcast_S3300000_S3300000x1_0 s

/-- Each node's degree: ones scattered and added at the destinations, into zeros. -/
def degree (d : Arr F S3300000 .i32) : Arr F S100000 .f32 :=
  Host.scatterAdd scatter_S100000_S3300000x1_S3300000_n_0_0_1
    (broadcastInDim S100000 ![] bcast_S_S100000 (constant S_ .f32 0x00000000#32)) (asColumn d)
    (broadcastInDim S3300000 ![] bcast_S_S3300000 (constant S_ .f32 0x3F800000#32))

/-- `deg^(-1/2)` where the degree is positive, 0 elsewhere. -/
def invSqrtDegree (d : Arr F S3300000 .i32) : Arr F S100000 .f32 :=
  select (cmpf .ogt (degree d) (broadcastInDim S100000 ![] bcast_S_S100000 (constant S_ .f32 0x00000000#32)))
    (Host.rsqrt (degree d))
    (broadcastInDim S100000 ![] bcast_S_S100000 (id (constant S_ .f32 0x00000000#32)))

/-- The weight of every edge, `dinv[src] · dinv[dst]`. -/
def edgeWeight (s d : Arr F S3300000 .i32) : Arr F S3300000 .f32 :=
  mulf (Host.gather gather_S100000_S3300000x1_S3300000_n_0_n_n_0_1_1 (invSqrtDegree d) (asColumn (wrapNeg s)))
    (Host.gather gather_S100000_S3300000x1_S3300000_n_0_n_n_0_1_1 (invSqrtDegree d) (asColumn (wrapNeg d)))

/-- The edge weights as a one-column matrix. -/
def weightColumn (w : Arr F S3300000 .f32) : Arr F S3300000x1 .f32 :=
  broadcastInDim S3300000x1 ![0] bcast_S3300000_S3300000x1_0 w

/-- Neighbourhood aggregation of four-wide node features `h`: every edge carries its source's row times the edge
    weight to its destination, where the rows are added up (into zeros). -/
def aggregate4 (s d : Arr F S3300000 .i32) (w : Arr F S3300000x1 .f32) (h : Arr F S100000x4 .f32) : Arr F S100000x4 .f32 :=
  Host.scatterAdd scatter_S100000x4_S3300000x1_S3300000x4_1_0_0_1
    (broadcastInDim S100000x4 ![] bcast_S_S100000x4 (constant S_ .f32 0x00000000#32)) (asColumn d)
    (mulf (Host.gather gather_S100000x4_S3300000x1_S3300000x4_1_0_n_n_0_1_14 h (asColumn (wrapNeg s)))
      (broadcastInDim S3300000x4 ![0, 1] bcast_S3300000x1_S3300000x4_0_1 w))

/-- The same for two-wide features. -/
def aggregate2 (s d : Arr F S3300000 .i32) (w : Arr F S3300000x1 .f32) (h : Arr F S100000x2 .f32) : Arr F S100000x2 .f32 :=
  Host.scatterAdd scatter_S100000x2_S3300000x1_S3300000x2_1_0_0_1
    (broadcastInDim S100000x2 ![] bcast_S_S100000x2 (constant S_ .f32 0x00000000#32)) (asColumn d)
    (mulf (Host.gather gather_S100000x2_S3300000x1_S3300000x2_1_0_n_n_0_1_12 h (asColumn (wrapNeg s)))
      (broadcastInDim S3300000x2 ![0, 1] bcast_S3300000x1_S3300000x2_0_1 w))

/-! ## The dense part, index by index, on the extended reals -/

/-- The product of an `M × K` and a `K × N` matrix: entry `(r, q)` is the sum over `k` of `x (r, k) · w (k, q)`. -/
def dense {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- PReLU of `t` with slope `a`: `t` where `t ≥ 0`, `a · t` elsewhere. -/
def prelu (t a : Ideal FTy.f32) : Ideal FTy.f32 :=
  Scalar.select (FloatOps.cmpf (F := Ideal) .oge t (FloatOps.ofBits (F := Ideal) FTy.f32 0x00000000#32)) t (FloatOps.mulf (F := Ideal) a t)

/-- Bias then PReLU, column `q` with its own bias `b q` and slope `a q`. -/
def biasPrelu {M N : Nat} (g : (⟨2, ![M, N]⟩ : Shape).Idx → EReal) (b a : (⟨1, ![N]⟩ : Shape).Idx → EReal) :
    (⟨2, ![M, N]⟩ : Shape).Idx → EReal :=
  fun i => prelu (FloatOps.addf (F := Ideal) (φ := FTy.f32) (g i) (b (ix1 (i 1)))) (a (ix1 (i 1)))

/-- A dense layer with bias: `x · w + b`, column `q` with its own bias. -/
def denseBias {M K N : Nat} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => dense x w i + b (ix1 (i 1))

/-! ## The network -/

section Network

variable (x : Arr Ideal S100000x128 .f32) (ei : Arr Ideal S2x3200000 .i32)
  (w1 : Arr Ideal S128x4 .f32) (b1 a1 : Arr Ideal S4 .f32)
  (w2 : Arr Ideal S4x4 .f32) (b2 a2 : Arr Ideal S4 .f32)
  (w3 : Arr Ideal S4x2 .f32) (b3 a3 : Arr Ideal S2 .f32)
  (wl : Arr Ideal S2x2 .f32) (bl : Arr Ideal S2 .f32)

/-- The edge weights of the graph, as the one-column matrix the layers use. -/
def norm : Arr Ideal S3300000x1 .f32 := weightColumn (edgeWeight (srcs ei) (dsts ei))

/-- The first layer's output. -/
def layer1 : Arr Ideal S100000x4 .f32 :=
  biasPrelu (aggregate4 (srcs ei) (dsts ei) (norm ei) (dense x w1)) b1 a1

/-- The second layer's output. -/
def layer2 : Arr Ideal S100000x4 .f32 :=
  biasPrelu (aggregate4 (srcs ei) (dsts ei) (norm ei) (dense (layer1 x ei w1 b1 a1) w2)) b2 a2

/-- The third layer's output: the second result. -/
def layer3 : Arr Ideal S100000x2 .f32 :=
  biasPrelu (aggregate2 (srcs ei) (dsts ei) (norm ei) (dense (layer2 x ei w1 b1 a1 w2 b2 a2) w3)) b3 a3

/-- The last dense layer: the first result. -/
def output : Arr Ideal S100000x2 .f32 :=
  denseBias (layer3 x ei w1 b1 a1 w2 b2 a2 w3 b3 a3) wl bl

end Network

end Cert.Gcn

end
-- ==== Proof.KernelRun.lean ====
/-
  The idealized kernel's run with EVERY buffer named.  @main is fourteen segments: stretches of host
  operations and seven pallas_call regions.  The buffer contents at each boundary form a fold from the launch
  memory (`Gen.W0` … `Gen.W14`): a stretch applies its operations, a region replaces its output array by what its
  write-backs leave.  Every weakly fair execution terminates, nothing faulting, and in the final state each buffer
  that outlives the regions holds the last boundary's contents `Gen.W14`.  Both results and all thirteen arguments
  are then read off this one statement.
-/
import proofs.«109522_j30880814859094_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the fourteen segments: the final state holds, at every buffer that is not scoped to a region, the
    contents of the last boundary of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- The same run with the two results and the thirteen arguments read: each result holds the last boundary's
    contents at its buffer, each argument its launch contents (no operation and no region writes an argument). -/
theorem run_results : θ_run defs (onTc (τ := τ) (main (F := F))) ⟨m, fun _ => 0, ρ⟩ (fun r => ∀ c : Dev nD,
      r.2.mem ((c.tc : Thread nD τ).loc main_v80) = W14 m ρ c (Proc.devRef .tc main_v80)
      ∧ r.2.mem ((c.tc : Thread nD τ).loc main_v78) = W14 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v80 (by decide)),
     h c _ (mem_uc main_v78 (by decide)),
     (h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c),
     (h c _ (mem_uc main_arg12 (by decide))).trans (W14_main_arg12 m ρ c)⟩)
    (run_all m ρ)

end Cert.KernelIdeal.RunAll

end
-- ==== Proof.Linear0.lean ====
import proofs.«109522_j30880814859094_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # Region 0: the first layer's product, rows of the features times the columns of the weights -/

/-- The offsets of an access to a whole buffer are all zero. -/
theorem zeroOffsets0 : (![0, 0] : Fin 2 → Nat) = fun _ => 0 := funext fun a => by fin_cases a <;> rfl

/-- The left factor's row coordinate is the output's row. -/
theorem dot0_lhs_row (i : S10000x4.Idx) (q : dot_S10000x128_S128x4_S10000x4_1_0_0_1_n_n.contr.Idx) :
    (dot_S10000x128_S128x4_S10000x4_1_0_0_1_n_n.lhsIdx i q 0).val = (i 0).val := by
  unfold DotDims.lhsIdx
  rw [dif_neg (show ¬(0 : Fin S10000x128.rank) ∈ dot_S10000x128_S128x4_S10000x4_1_0_0_1_n_n.lhsBatch by decide), dif_pos (show (0 : Fin S10000x128.rank) ∈ dot_S10000x128_S128x4_S10000x4_1_0_0_1_n_n.lhsNonContracting by decide)]
  rfl
/-- The left factor's column coordinate is the summation index. -/
theorem dot0_lhs_col (i : S10000x4.Idx) (q : dot_S10000x128_S128x4_S10000x4_1_0_0_1_n_n.contr.Idx) :
    (dot_S10000x128_S128x4_S10000x4_1_0_0_1_n_n.lhsIdx i q 1).val = (q ⟨0, by decide⟩).val :=
  dot_S10000x128_S128x4_S10000x4_1_0_0_1_n_n.lhsIdx_val_of_single rfl i q
/-- The right factor's row coordinate is the summation index. -/
theorem dot0_rhs_row (i : S10000x4.Idx) (q : dot_S10000x128_S128x4_S10000x4_1_0_0_1_n_n.contr.Idx) :
    (dot_S10000x128_S128x4_S10000x4_1_0_0_1_n_n.rhsIdx i q 0).val = (q ⟨0, by decide⟩).val :=
  dot_S10000x128_S128x4_S10000x4_1_0_0_1_n_n.rhsIdx_val_of_single rfl i q
/-- The right factor's column coordinate is the output's column. -/
theorem dot0_rhs_col (i : S10000x4.Idx) (q : dot_S10000x128_S128x4_S10000x4_1_0_0_1_n_n.contr.Idx) :
    (dot_S10000x128_S128x4_S10000x4_1_0_0_1_n_n.rhsIdx i q 1).val = (i 1).val := by
  unfold DotDims.rhsIdx
  rw [dif_neg (show ¬(1 : Fin S128x4.rank) ∈ dot_S10000x128_S128x4_S10000x4_1_0_0_1_n_n.rhsBatch by decide), dif_pos (show (1 : Fin S128x4.rank) ∈ dot_S10000x128_S128x4_S10000x4_1_0_0_1_n_n.rhsNonContracting by decide)]
  rfl

/-- The body's value at row `p`, column `q` of a block: the sum over `k` of the left block at `(p, k)` times the right
    block at `(k, q)` (the casts to the narrower format are the identity on the extended reals, and the accumulator
    starts at zero). -/
theorem product0_apply (x0 : Vec Ideal S10000x128 .f32) (x1 : Vec Ideal S128x4 .f32) (p : Fin 10000) (q : Fin 4) :
    k0_pay1 x0 x1 (ix2 p q) = ∑ k : Fin 128, x0 (ix2 p k) * x1 (ix2 k q) := by
  unfold k0_pay1
  simp only [matmul]
  rw [Ideal.matmul_constant_zero_apply, ← Equiv.sum_comp (contrEquiv1 dot_S10000x128_S128x4_S10000x4_1_0_0_1_n_n 128 rfl rfl).symm]
  refine Finset.sum_congr rfl fun k _ => ?_
  have hk := contrEquiv1_symm_val dot_S10000x128_S128x4_S10000x4_1_0_0_1_n_n 128 rfl rfl k
  have el : dot_S10000x128_S128x4_S10000x4_1_0_0_1_n_n.lhsIdx (ix2 p q) ((contrEquiv1 dot_S10000x128_S128x4_S10000x4_1_0_0_1_n_n 128 rfl rfl).symm k) = ix2 p k := funext fun a => Fin.ext (by
    match a with
    | ⟨0, _⟩ => exact dot0_lhs_row _ _
    | ⟨1, _⟩ => exact (dot0_lhs_col _ _).trans hk)
  have er : dot_S10000x128_S128x4_S10000x4_1_0_0_1_n_n.rhsIdx (ix2 p q) ((contrEquiv1 dot_S10000x128_S128x4_S10000x4_1_0_0_1_n_n 128 rfl rfl).symm k) = ix2 k q := funext fun a => Fin.ext (by
    match a with
    | ⟨0, _⟩ => exact (dot0_rhs_row _ _).trans hk
    | ⟨1, _⟩ => exact dot0_rhs_col _ _)
  rw [el, er]
  rfl

/-- The product of a [100000,128] array and a [128,4] array: entry `(r, q)` is the sum over `k` of the first at `(r, k)`
    times the second at `(k, q)`. -/
abbrev product0 (a : S100000x128.Idx → EReal) (w : S128x4.Idx → EReal) : S100000x4.Idx → EReal :=
  fun i => ∑ k : Fin 128, a (ix2 (i 0) k) * w (ix2 k (i 1))

variable (V : (c : Dev nD) → (b : Ref sig .tc) → Buf (Elt Ideal) ((c : Thread nD τ).loc b))

/-- The block indices over the grid: at point `t` the features' and the output's blocks are the `t`-th blocks of rows, and
    the weights' block is the whole array. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- At point `t` the body's value at `(p, q)` of its block is the whole product at the block's place in the array, row `10000 t + p`. -/
theorem point0 (c : Dev nD) (t : Fin cfg0.N) (j : S10000x4.Idx) :
    k0_pay1 (iblk0 V c 0 t) (iblk0 V c 1 t) j = product0 (V c main_arg0) (V c main_arg2) (((cfg0.win 2).blk t).view.emb j) := by
  obtain ⟨p, q, rfl⟩ : ∃ (p : Fin 10000) (q : Fin 4), j = ix2 p q := ⟨j 0, j 1, eq_ix2 j⟩
  obtain ⟨e0, e1, e2, e3, e4, e5⟩ := index_facts0 t
  rw [product0_apply]
  refine Finset.sum_congr rfl fun k _ => ?_
  have hl : (iblk0 V c 0 t : Vec Ideal S10000x128 .f32) (ix2 p k) = (V c main_arg0 : S100000x128.Idx → EReal) (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have hr : (iblk0 V c 1 t : Vec Ideal S128x4 .f32) (ix2 k q) = (V c main_arg2 : S128x4.Idx → EReal) (ix2 k ((((cfg0.win 2).blk t).view.emb (ix2 p q)) 1)) := by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 4 + 1 * q.val = win0_2.index t (1 : Fin 2) * 4 + 1 * q.val; omega
  exact congrArg₂ (fun x y : EReal => x * y) hl hr

/-- What point `t` writes back to the output array is block `t` of the whole product. -/
theorem flushed0_eq (c : Dev nD) (t : Fin cfg0.N) :
    (dat0 (F := Ideal) V c).flushed 2 t = ((cfg0.win 2).blk t).view.read (Elt Ideal) (product0 (V c main_arg0) (V c main_arg2)) := by
  show (cfg0.win 2).cut (grid0.coords t) ((dat0 V c).after 2 t) = _
  rw [after0_2]
  unfold out0_2
  rw [View.canon_unit_zero zeroOffsets0]
  simp only [View.ld_unit_zero (S := S10000x128) zeroOffsets0, View.ld_unit_zero (S := S128x4) zeroOffsets0]
  funext j
  exact point0 V c t j

/-- An index of the output array is in point `t`'s block iff each coordinate is in the block's range on its axis. -/
theorem mem_block0 (t : Fin cfg0.N) (i : S100000x4.Idx) :
    i ∈ ((cfg0.win 2).blk t).view.set ↔ ∀ a : Fin 2, win0_2.index t a * S10000x4.size a ≤ (i a).val ∧ (i a).val < win0_2.index t a * S10000x4.size a + S10000x4.size a := by
  show i ∈ ((View.whole main_v31).slice (win0_2.rect t)).set ↔ _
  rw [View.set_slice_whole, Rect.mem_set_unit]
  exact Iff.rfl

/-- Every row `r` of the output array is in the block of the point `r / 10000`, which writes it back. -/
theorem cover0 (i : S100000x4.Idx) : ∃ t : Fin cfg0.N, (cfg0.win 2).flush t = true ∧ i ∈ ((cfg0.win 2).blk t).view.set := by
  have hi0 : (i 0).val < 100000 := (i 0).isLt
  have hi1 : (i 1).val < 4 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e0, e1, e2, e3, e4, e5⟩ := index_facts0 t
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 4 ≤ (i 1).val ∧ (i 1).val < win0_2.index t (1 : Fin 2) * 4 + 4; omega

/-- After region 0 its output array holds the product of the features and the first layer's weights, as the named
    function of the two arrays. -/
theorem linear0_product (c : Dev nD) : (dat0 (F := Ideal) V c).arrAt 2 cfg0.N = product0 (V c main_arg0) (V c main_arg2) :=
  (dat0 (F := Ideal) V c).arrAt_eq_of_cover 2 (product0 (V c main_arg0) (V c main_arg2)) (fun t _ => flushed0_eq V c t) cover0

/-- After region 0 its output array holds the product of the features and the first layer's weights: entry `(r, q)` is
    the sum over `k` of the features at `(r, k)` times the weights at `(k, q)`. -/
theorem linear0 (c : Dev nD) : (dat0 (F := Ideal) V c).arrAt 2 cfg0.N
    = fun i : S100000x4.Idx => (∑ k : Fin 128, HMul.hMul (α := EReal) (β := EReal) (γ := EReal) (V c main_arg0 (ix2 (i 0) k)) (V c main_arg2 (ix2 k (i 1))) : EReal) :=
  linear0_product V c

end Cert.KernelIdeal.RegionValue

end
-- ==== Proof.Linear2.lean ====
import proofs.«109522_j30880814859094_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # Region 2: the second layer's product, rows of the hidden rows times the columns of the weights -/

/-- The offsets of an access to a whole buffer are all zero. -/
theorem zeroOffsets2 : (![0, 0] : Fin 2 → Nat) = fun _ => 0 := funext fun a => by fin_cases a <;> rfl

/-- The left factor's row coordinate is the output's row. -/
theorem dot2_lhs_row (i : S10000x4.Idx) (q : dot_S10000x4_S4x4_S10000x4_1_0_0_1_n_n.contr.Idx) :
    (dot_S10000x4_S4x4_S10000x4_1_0_0_1_n_n.lhsIdx i q 0).val = (i 0).val := by
  unfold DotDims.lhsIdx
  rw [dif_neg (show ¬(0 : Fin S10000x4.rank) ∈ dot_S10000x4_S4x4_S10000x4_1_0_0_1_n_n.lhsBatch by decide), dif_pos (show (0 : Fin S10000x4.rank) ∈ dot_S10000x4_S4x4_S10000x4_1_0_0_1_n_n.lhsNonContracting by decide)]
  rfl
/-- The left factor's column coordinate is the summation index. -/
theorem dot2_lhs_col (i : S10000x4.Idx) (q : dot_S10000x4_S4x4_S10000x4_1_0_0_1_n_n.contr.Idx) :
    (dot_S10000x4_S4x4_S10000x4_1_0_0_1_n_n.lhsIdx i q 1).val = (q ⟨0, by decide⟩).val :=
  dot_S10000x4_S4x4_S10000x4_1_0_0_1_n_n.lhsIdx_val_of_single rfl i q
/-- The right factor's row coordinate is the summation index. -/
theorem dot2_rhs_row (i : S10000x4.Idx) (q : dot_S10000x4_S4x4_S10000x4_1_0_0_1_n_n.contr.Idx) :
    (dot_S10000x4_S4x4_S10000x4_1_0_0_1_n_n.rhsIdx i q 0).val = (q ⟨0, by decide⟩).val :=
  dot_S10000x4_S4x4_S10000x4_1_0_0_1_n_n.rhsIdx_val_of_single rfl i q
/-- The right factor's column coordinate is the output's column. -/
theorem dot2_rhs_col (i : S10000x4.Idx) (q : dot_S10000x4_S4x4_S10000x4_1_0_0_1_n_n.contr.Idx) :
    (dot_S10000x4_S4x4_S10000x4_1_0_0_1_n_n.rhsIdx i q 1).val = (i 1).val := by
  unfold DotDims.rhsIdx
  rw [dif_neg (show ¬(1 : Fin S4x4.rank) ∈ dot_S10000x4_S4x4_S10000x4_1_0_0_1_n_n.rhsBatch by decide), dif_pos (show (1 : Fin S4x4.rank) ∈ dot_S10000x4_S4x4_S10000x4_1_0_0_1_n_n.rhsNonContracting by decide)]
  rfl

/-- The body's value at row `p`, column `q` of a block: the sum over `k` of the left block at `(p, k)` times the right
    block at `(k, q)` (the cast to the same shape and the casts to the narrower format are the identity on the extended reals, and the
    accumulator starts at zero). -/
theorem product2_apply (x0 : Vec Ideal S10000x4 .f32) (x1 : Vec Ideal S4x4 .f32) (p : Fin 10000) (q : Fin 4) :
    k2_pay1 x0 x1 (ix2 p q) = ∑ k : Fin 4, x0 (ix2 p k) * x1 (ix2 k q) := by
  unfold k2_pay1
  simp only [matmul, shapeCast_self]
  rw [Ideal.matmul_constant_zero_apply, ← Equiv.sum_comp (contrEquiv1 dot_S10000x4_S4x4_S10000x4_1_0_0_1_n_n 4 rfl rfl).symm]
  refine Finset.sum_congr rfl fun k _ => ?_
  have hk := contrEquiv1_symm_val dot_S10000x4_S4x4_S10000x4_1_0_0_1_n_n 4 rfl rfl k
  have el : dot_S10000x4_S4x4_S10000x4_1_0_0_1_n_n.lhsIdx (ix2 p q) ((contrEquiv1 dot_S10000x4_S4x4_S10000x4_1_0_0_1_n_n 4 rfl rfl).symm k) = ix2 p k := funext fun a => Fin.ext (by
    match a with
    | ⟨0, _⟩ => exact dot2_lhs_row _ _
    | ⟨1, _⟩ => exact (dot2_lhs_col _ _).trans hk)
  have er : dot_S10000x4_S4x4_S10000x4_1_0_0_1_n_n.rhsIdx (ix2 p q) ((contrEquiv1 dot_S10000x4_S4x4_S10000x4_1_0_0_1_n_n 4 rfl rfl).symm k) = ix2 k q := funext fun a => Fin.ext (by
    match a with
    | ⟨0, _⟩ => exact (dot2_rhs_row _ _).trans hk
    | ⟨1, _⟩ => exact dot2_rhs_col _ _)
  rw [el, er]
  rfl

/-- The product of a [100000,4] array and a [4,4] array: entry `(r, q)` is the sum over `k` of the first at `(r, k)`
    times the second at `(k, q)`. -/
abbrev product2 (a : S100000x4.Idx → EReal) (w : S4x4.Idx → EReal) : S100000x4.Idx → EReal :=
  fun i => ∑ k : Fin 4, a (ix2 (i 0) k) * w (ix2 k (i 1))

variable (V : (c : Dev nD) → (b : Ref sig .tc) → Buf (Elt Ideal) ((c : Thread nD τ).loc b))

/-- The block indices over the grid: at point `t` the left array's and the output's blocks are the `t`-th blocks of rows, and
    the weights' block is the whole array. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- At point `t` the body's value at `(p, q)` of its block is the whole product at the block's place in the array, row `10000 t + p`. -/
theorem point2 (c : Dev nD) (t : Fin cfg2.N) (j : S10000x4.Idx) :
    k2_pay1 (iblk2 V c 0 t) (iblk2 V c 1 t) j = product2 (V c main_v46) (V c main_arg5) (((cfg2.win 2).blk t).view.emb j) := by
  obtain ⟨p, q, rfl⟩ : ∃ (p : Fin 10000) (q : Fin 4), j = ix2 p q := ⟨j 0, j 1, eq_ix2 j⟩
  obtain ⟨e0, e1, e2, e3, e4, e5⟩ := index_facts2 t
  rw [product2_apply]
  refine Finset.sum_congr rfl fun k _ => ?_
  have hl : (iblk2 V c 0 t : Vec Ideal S10000x4 .f32) (ix2 p k) = (V c main_v46 : S100000x4.Idx → EReal) (ix2 ((((cfg2.win 2).blk t).view.emb (ix2 p q)) 0) k) := by
    show V c main_v46 (((cfg2.win 0).blk t).view.emb (ix2 p k)) = _
    refine congrArg (V c main_v46) (funext fun a => Fin.ext ?_)
    match a with
    | ⟨0, _⟩ => show win2_0.index t (0 : Fin 2) * 10000 + 1 * p.val = win2_2.index t (0 : Fin 2) * 10000 + 1 * p.val; omega
    | ⟨1, _⟩ => show win2_0.index t (1 : Fin 2) * 4 + 1 * k.val = k.val; omega
  have hr : (iblk2 V c 1 t : Vec Ideal S4x4 .f32) (ix2 k q) = (V c main_arg5 : S4x4.Idx → EReal) (ix2 k ((((cfg2.win 2).blk t).view.emb (ix2 p q)) 1)) := by
    show V c main_arg5 (((cfg2.win 1).blk t).view.emb (ix2 k q)) = _
    refine congrArg (V c main_arg5) (funext fun a => Fin.ext ?_)
    match a with
    | ⟨0, _⟩ => show win2_1.index t (0 : Fin 2) * 4 + 1 * k.val = k.val; omega
    | ⟨1, _⟩ => show win2_1.index t (1 : Fin 2) * 4 + 1 * q.val = win2_2.index t (1 : Fin 2) * 4 + 1 * q.val; omega
  exact congrArg₂ (fun x y : EReal => x * y) hl hr

/-- What point `t` writes back to the output array is block `t` of the whole product. -/
theorem flushed2_eq (c : Dev nD) (t : Fin cfg2.N) :
    (dat2 (F := Ideal) V c).flushed 2 t = ((cfg2.win 2).blk t).view.read (Elt Ideal) (product2 (V c main_v46) (V c main_arg5)) := by
  show (cfg2.win 2).cut (grid2.coords t) ((dat2 V c).after 2 t) = _
  rw [after2_2]
  unfold out2_2
  rw [View.canon_unit_zero zeroOffsets2]
  simp only [View.ld_unit_zero (S := S10000x4) zeroOffsets2, View.ld_unit_zero (S := S4x4) zeroOffsets2]
  funext j
  exact point2 V c t j

/-- An index of the output array is in point `t`'s block iff each coordinate is in the block's range on its axis. -/
theorem mem_block2 (t : Fin cfg2.N) (i : S100000x4.Idx) :
    i ∈ ((cfg2.win 2).blk t).view.set ↔ ∀ a : Fin 2, win2_2.index t a * S10000x4.size a ≤ (i a).val ∧ (i a).val < win2_2.index t a * S10000x4.size a + S10000x4.size a := by
  show i ∈ ((View.whole main_v47).slice (win2_2.rect t)).set ↔ _
  rw [View.set_slice_whole, Rect.mem_set_unit]
  exact Iff.rfl

/-- Every row `r` of the output array is in the block of the point `r / 10000`, which writes it back. -/
theorem cover2 (i : S100000x4.Idx) : ∃ t : Fin cfg2.N, (cfg2.win 2).flush t = true ∧ i ∈ ((cfg2.win 2).blk t).view.set := by
  have hi0 : (i 0).val < 100000 := (i 0).isLt
  have hi1 : (i 1).val < 4 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e0, e1, e2, e3, e4, e5⟩ := index_facts2 t
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 4 ≤ (i 1).val ∧ (i 1).val < win2_2.index t (1 : Fin 2) * 4 + 4; omega

/-- After region 2 its output array holds the product of the hidden rows and the second layer's weights, as the named
    function of the two arrays. -/
theorem linear2_product (c : Dev nD) : (dat2 (F := Ideal) V c).arrAt 2 cfg2.N = product2 (V c main_v46) (V c main_arg5) :=
  (dat2 (F := Ideal) V c).arrAt_eq_of_cover 2 (product2 (V c main_v46) (V c main_arg5)) (fun t _ => flushed2_eq V c t) cover2

/-- After region 2 its output array holds the product of the hidden rows and the second layer's weights: entry `(r, q)` is
    the sum over `k` of the hidden rows at `(r, k)` times the weights at `(k, q)`. -/
theorem linear2 (c : Dev nD) : (dat2 (F := Ideal) V c).arrAt 2 cfg2.N
    = fun i : S100000x4.Idx => (∑ k : Fin 4, HMul.hMul (α := EReal) (β := EReal) (γ := EReal) (V c main_v46 (ix2 (i 0) k)) (V c main_arg5 (ix2 k (i 1))) : EReal) :=
  linear2_product V c

end Cert.KernelIdeal.RegionValue

end
-- ==== Proof.Linear4.lean ====
import proofs.«109522_j30880814859094_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # Region 4: the third layer's product, rows of the hidden rows times the columns of the weights -/

/-- The offsets of an access to a whole buffer are all zero. -/
theorem zeroOffsets4 : (![0, 0] : Fin 2 → Nat) = fun _ => 0 := funext fun a => by fin_cases a <;> rfl

/-- The left factor's row coordinate is the output's row. -/
theorem dot4_lhs_row (i : S10000x2.Idx) (q : dot_S10000x4_S4x2_S10000x2_1_0_0_1_n_n.contr.Idx) :
    (dot_S10000x4_S4x2_S10000x2_1_0_0_1_n_n.lhsIdx i q 0).val = (i 0).val := by
  unfold DotDims.lhsIdx
  rw [dif_neg (show ¬(0 : Fin S10000x4.rank) ∈ dot_S10000x4_S4x2_S10000x2_1_0_0_1_n_n.lhsBatch by decide), dif_pos (show (0 : Fin S10000x4.rank) ∈ dot_S10000x4_S4x2_S10000x2_1_0_0_1_n_n.lhsNonContracting by decide)]
  rfl
/-- The left factor's column coordinate is the summation index. -/
theorem dot4_lhs_col (i : S10000x2.Idx) (q : dot_S10000x4_S4x2_S10000x2_1_0_0_1_n_n.contr.Idx) :
    (dot_S10000x4_S4x2_S10000x2_1_0_0_1_n_n.lhsIdx i q 1).val = (q ⟨0, by decide⟩).val :=
  dot_S10000x4_S4x2_S10000x2_1_0_0_1_n_n.lhsIdx_val_of_single rfl i q
/-- The right factor's row coordinate is the summation index. -/
theorem dot4_rhs_row (i : S10000x2.Idx) (q : dot_S10000x4_S4x2_S10000x2_1_0_0_1_n_n.contr.Idx) :
    (dot_S10000x4_S4x2_S10000x2_1_0_0_1_n_n.rhsIdx i q 0).val = (q ⟨0, by decide⟩).val :=
  dot_S10000x4_S4x2_S10000x2_1_0_0_1_n_n.rhsIdx_val_of_single rfl i q
/-- The right factor's column coordinate is the output's column. -/
theorem dot4_rhs_col (i : S10000x2.Idx) (q : dot_S10000x4_S4x2_S10000x2_1_0_0_1_n_n.contr.Idx) :
    (dot_S10000x4_S4x2_S10000x2_1_0_0_1_n_n.rhsIdx i q 1).val = (i 1).val := by
  unfold DotDims.rhsIdx
  rw [dif_neg (show ¬(1 : Fin S4x2.rank) ∈ dot_S10000x4_S4x2_S10000x2_1_0_0_1_n_n.rhsBatch by decide), dif_pos (show (1 : Fin S4x2.rank) ∈ dot_S10000x4_S4x2_S10000x2_1_0_0_1_n_n.rhsNonContracting by decide)]
  rfl

/-- The body's value at row `p`, column `q` of a block: the sum over `k` of the left block at `(p, k)` times the right
    block at `(k, q)` (the cast to the same shape and the casts to the narrower format are the identity on the extended reals, and the
    accumulator starts at zero). -/
theorem product4_apply (x0 : Vec Ideal S10000x4 .f32) (x1 : Vec Ideal S4x2 .f32) (p : Fin 10000) (q : Fin 2) :
    k4_pay1 x0 x1 (ix2 p q) = ∑ k : Fin 4, x0 (ix2 p k) * x1 (ix2 k q) := by
  unfold k4_pay1
  simp only [matmul, shapeCast_self]
  rw [Ideal.matmul_constant_zero_apply, ← Equiv.sum_comp (contrEquiv1 dot_S10000x4_S4x2_S10000x2_1_0_0_1_n_n 4 rfl rfl).symm]
  refine Finset.sum_congr rfl fun k _ => ?_
  have hk := contrEquiv1_symm_val dot_S10000x4_S4x2_S10000x2_1_0_0_1_n_n 4 rfl rfl k
  have el : dot_S10000x4_S4x2_S10000x2_1_0_0_1_n_n.lhsIdx (ix2 p q) ((contrEquiv1 dot_S10000x4_S4x2_S10000x2_1_0_0_1_n_n 4 rfl rfl).symm k) = ix2 p k := funext fun a => Fin.ext (by
    match a with
    | ⟨0, _⟩ => exact dot4_lhs_row _ _
    | ⟨1, _⟩ => exact (dot4_lhs_col _ _).trans hk)
  have er : dot_S10000x4_S4x2_S10000x2_1_0_0_1_n_n.rhsIdx (ix2 p q) ((contrEquiv1 dot_S10000x4_S4x2_S10000x2_1_0_0_1_n_n 4 rfl rfl).symm k) = ix2 k q := funext fun a => Fin.ext (by
    match a with
    | ⟨0, _⟩ => exact (dot4_rhs_row _ _).trans hk
    | ⟨1, _⟩ => exact dot4_rhs_col _ _)
  rw [el, er]
  rfl

/-- The product of a [100000,4] array and a [4,2] array: entry `(r, q)` is the sum over `k` of the first at `(r, k)`
    times the second at `(k, q)`. -/
abbrev product4 (a : S100000x4.Idx → EReal) (w : S4x2.Idx → EReal) : S100000x2.Idx → EReal :=
  fun i => ∑ k : Fin 4, a (ix2 (i 0) k) * w (ix2 k (i 1))

variable (V : (c : Dev nD) → (b : Ref sig .tc) → Buf (Elt Ideal) ((c : Thread nD τ).loc b))

/-- The block indices over the grid: at point `t` the left array's and the output's blocks are the `t`-th blocks of rows, and
    the weights' block is the whole array. -/
theorem index_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- At point `t` the body's value at `(p, q)` of its block is the whole product at the block's place in the array, row `10000 t + p`. -/
theorem point4 (c : Dev nD) (t : Fin cfg4.N) (j : S10000x2.Idx) :
    k4_pay1 (iblk4 V c 0 t) (iblk4 V c 1 t) j = product4 (V c main_v62) (V c main_arg8) (((cfg4.win 2).blk t).view.emb j) := by
  obtain ⟨p, q, rfl⟩ : ∃ (p : Fin 10000) (q : Fin 2), j = ix2 p q := ⟨j 0, j 1, eq_ix2 j⟩
  obtain ⟨e0, e1, e2, e3, e4, e5⟩ := index_facts4 t
  rw [product4_apply]
  refine Finset.sum_congr rfl fun k _ => ?_
  have hl : (iblk4 V c 0 t : Vec Ideal S10000x4 .f32) (ix2 p k) = (V c main_v62 : S100000x4.Idx → EReal) (ix2 ((((cfg4.win 2).blk t).view.emb (ix2 p q)) 0) k) := by
    show V c main_v62 (((cfg4.win 0).blk t).view.emb (ix2 p k)) = _
    refine congrArg (V c main_v62) (funext fun a => Fin.ext ?_)
    match a with
    | ⟨0, _⟩ => show win4_0.index t (0 : Fin 2) * 10000 + 1 * p.val = win4_2.index t (0 : Fin 2) * 10000 + 1 * p.val; omega
    | ⟨1, _⟩ => show win4_0.index t (1 : Fin 2) * 4 + 1 * k.val = k.val; omega
  have hr : (iblk4 V c 1 t : Vec Ideal S4x2 .f32) (ix2 k q) = (V c main_arg8 : S4x2.Idx → EReal) (ix2 k ((((cfg4.win 2).blk t).view.emb (ix2 p q)) 1)) := by
    show V c main_arg8 (((cfg4.win 1).blk t).view.emb (ix2 k q)) = _
    refine congrArg (V c main_arg8) (funext fun a => Fin.ext ?_)
    match a with
    | ⟨0, _⟩ => show win4_1.index t (0 : Fin 2) * 4 + 1 * k.val = k.val; omega
    | ⟨1, _⟩ => show win4_1.index t (1 : Fin 2) * 2 + 1 * q.val = win4_2.index t (1 : Fin 2) * 2 + 1 * q.val; omega
  exact congrArg₂ (fun x y : EReal => x * y) hl hr

/-- What point `t` writes back to the output array is block `t` of the whole product. -/
theorem flushed4_eq (c : Dev nD) (t : Fin cfg4.N) :
    (dat4 (F := Ideal) V c).flushed 2 t = ((cfg4.win 2).blk t).view.read (Elt Ideal) (product4 (V c main_v62) (V c main_arg8)) := by
  show (cfg4.win 2).cut (grid4.coords t) ((dat4 V c).after 2 t) = _
  rw [after4_2]
  unfold out4_2
  rw [View.canon_unit_zero zeroOffsets4]
  simp only [View.ld_unit_zero (S := S10000x4) zeroOffsets4, View.ld_unit_zero (S := S4x2) zeroOffsets4]
  funext j
  exact point4 V c t j

/-- An index of the output array is in point `t`'s block iff each coordinate is in the block's range on its axis. -/
theorem mem_block4 (t : Fin cfg4.N) (i : S100000x2.Idx) :
    i ∈ ((cfg4.win 2).blk t).view.set ↔ ∀ a : Fin 2, win4_2.index t a * S10000x2.size a ≤ (i a).val ∧ (i a).val < win4_2.index t a * S10000x2.size a + S10000x2.size a := by
  show i ∈ ((View.whole main_v63).slice (win4_2.rect t)).set ↔ _
  rw [View.set_slice_whole, Rect.mem_set_unit]
  exact Iff.rfl

/-- Every row `r` of the output array is in the block of the point `r / 10000`, which writes it back. -/
theorem cover4 (i : S100000x2.Idx) : ∃ t : Fin cfg4.N, (cfg4.win 2).flush t = true ∧ i ∈ ((cfg4.win 2).blk t).view.set := by
  have hi0 : (i 0).val < 100000 := (i 0).isLt
  have hi1 : (i 1).val < 2 := (i 1).isLt
  have hN : cfg4.N = 10 := N_4
  obtain ⟨t, ht⟩ : ∃ t : Fin cfg4.N, t.val = (i 0).val / 10000 := ⟨⟨(i 0).val / 10000, by rw [hN]; omega⟩, rfl⟩
  obtain ⟨e0, e1, e2, e3, e4, e5⟩ := index_facts4 t
  refine ⟨t, flush4_2 t, ?_⟩
  rw [mem_block4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 2 ≤ (i 1).val ∧ (i 1).val < win4_2.index t (1 : Fin 2) * 2 + 2; omega

/-- After region 4 its output array holds the product of the hidden rows and the third layer's weights, as the named
    function of the two arrays. -/
theorem linear4_product (c : Dev nD) : (dat4 (F := Ideal) V c).arrAt 2 cfg4.N = product4 (V c main_v62) (V c main_arg8) :=
  (dat4 (F := Ideal) V c).arrAt_eq_of_cover 2 (product4 (V c main_v62) (V c main_arg8)) (fun t _ => flushed4_eq V c t) cover4

/-- After region 4 its output array holds the product of the hidden rows and the third layer's weights: entry `(r, q)` is
    the sum over `k` of the hidden rows at `(r, k)` times the weights at `(k, q)`. -/
theorem linear4 (c : Dev nD) : (dat4 (F := Ideal) V c).arrAt 2 cfg4.N
    = fun i : S100000x2.Idx => (∑ k : Fin 4, HMul.hMul (α := EReal) (β := EReal) (γ := EReal) (V c main_v62 (ix2 (i 0) k)) (V c main_arg8 (ix2 k (i 1))) : EReal) :=
  linear4_product V c

end Cert.KernelIdeal.RegionValue

end
-- ==== Proof.Linear6.lean ====
import proofs.«109522_j30880814859094_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # Region 6: the output layer, rows of the hidden rows times the columns of the weights, plus the bias row -/

/-- The offsets of an access to a whole buffer are all zero. -/
theorem zeroOffsets6 : (![0, 0] : Fin 2 → Nat) = fun _ => 0 := funext fun a => by fin_cases a <;> rfl

/-- The left factor's row coordinate is the output's row. -/
theorem dot6_lhs_row (i : S10000x2.Idx) (q : dot_S10000x2_S2x2_S10000x2_1_0_0_1_n_n.contr.Idx) :
    (dot_S10000x2_S2x2_S10000x2_1_0_0_1_n_n.lhsIdx i q 0).val = (i 0).val := by
  unfold DotDims.lhsIdx
  rw [dif_neg (show ¬(0 : Fin S10000x2.rank) ∈ dot_S10000x2_S2x2_S10000x2_1_0_0_1_n_n.lhsBatch by decide), dif_pos (show (0 : Fin S10000x2.rank) ∈ dot_S10000x2_S2x2_S10000x2_1_0_0_1_n_n.lhsNonContracting by decide)]
  rfl
/-- The left factor's column coordinate is the summation index. -/
theorem dot6_lhs_col (i : S10000x2.Idx) (q : dot_S10000x2_S2x2_S10000x2_1_0_0_1_n_n.contr.Idx) :
    (dot_S10000x2_S2x2_S10000x2_1_0_0_1_n_n.lhsIdx i q 1).val = (q ⟨0, by decide⟩).val :=
  dot_S10000x2_S2x2_S10000x2_1_0_0_1_n_n.lhsIdx_val_of_single rfl i q
/-- The right factor's row coordinate is the summation index. -/
theorem dot6_rhs_row (i : S10000x2.Idx) (q : dot_S10000x2_S2x2_S10000x2_1_0_0_1_n_n.contr.Idx) :
    (dot_S10000x2_S2x2_S10000x2_1_0_0_1_n_n.rhsIdx i q 0).val = (q ⟨0, by decide⟩).val :=
  dot_S10000x2_S2x2_S10000x2_1_0_0_1_n_n.rhsIdx_val_of_single rfl i q
/-- The right factor's column coordinate is the output's column. -/
theorem dot6_rhs_col (i : S10000x2.Idx) (q : dot_S10000x2_S2x2_S10000x2_1_0_0_1_n_n.contr.Idx) :
    (dot_S10000x2_S2x2_S10000x2_1_0_0_1_n_n.rhsIdx i q 1).val = (i 1).val := by
  unfold DotDims.rhsIdx
  rw [dif_neg (show ¬(1 : Fin S2x2.rank) ∈ dot_S10000x2_S2x2_S10000x2_1_0_0_1_n_n.rhsBatch by decide), dif_pos (show (1 : Fin S2x2.rank) ∈ dot_S10000x2_S2x2_S10000x2_1_0_0_1_n_n.rhsNonContracting by decide)]
  rfl

/-- The product part of the body's value at row `p`, column `q` of a block: the sum over `k` of the left block at `(p, k)`
    times the right block at `(k, q)` (the casts to the narrower format are the identity on the extended reals, and the
    accumulator starts at zero). -/
theorem product6_apply (y0 : FVec Ideal S10000x2 .bf16) (y1 : FVec Ideal S2x2 .bf16) (p : Fin 10000) (q : Fin 2) :
    FloatOps.matmul dot_S10000x2_S2x2_S10000x2_1_0_0_1_n_n none y0 y1 (constant S10000x2 .f32 0x00000000#32) (ix2 p q) = ∑ k : Fin 2, y0 (ix2 p k) * y1 (ix2 k q) := by
  rw [Ideal.matmul_constant_zero_apply, ← Equiv.sum_comp (contrEquiv1 dot_S10000x2_S2x2_S10000x2_1_0_0_1_n_n 2 rfl rfl).symm]
  refine Finset.sum_congr rfl fun k _ => ?_
  have hk := contrEquiv1_symm_val dot_S10000x2_S2x2_S10000x2_1_0_0_1_n_n 2 rfl rfl k
  have el : dot_S10000x2_S2x2_S10000x2_1_0_0_1_n_n.lhsIdx (ix2 p q) ((contrEquiv1 dot_S10000x2_S2x2_S10000x2_1_0_0_1_n_n 2 rfl rfl).symm k) = ix2 p k := funext fun a => Fin.ext (by
    match a with
    | ⟨0, _⟩ => exact dot6_lhs_row _ _
    | ⟨1, _⟩ => exact (dot6_lhs_col _ _).trans hk)
  have er : dot_S10000x2_S2x2_S10000x2_1_0_0_1_n_n.rhsIdx (ix2 p q) ((contrEquiv1 dot_S10000x2_S2x2_S10000x2_1_0_0_1_n_n 2 rfl rfl).symm k) = ix2 k q := funext fun a => Fin.ext (by
    match a with
    | ⟨0, _⟩ => exact (dot6_rhs_row _ _).trans hk
    | ⟨1, _⟩ => exact dot6_rhs_col _ _)
  rw [el, er]

/-- The body's value at row `p`, column `q` of a block: that sum plus the bias row at column `q` (the one row of the
    bias block, repeated down the rows). -/
theorem affine6_apply (x0 : Vec Ideal S10000x2 .f32) (x1 : Vec Ideal S2x2 .f32) (x2 : Vec Ideal S1x2 .f32) (p : Fin 10000) (q : Fin 2) :
    k6_pay1 x0 x1 x2 (ix2 p q) = (∑ k : Fin 2, x0 (ix2 p k) * x1 (ix2 k q)) + x2 (ix2 (0 : Fin 1) q) := by
  unfold k6_pay1
  simp only [matmul, shapeCast_self]
  rw [addf_apply, broadcastTo_1b_ab_apply, product6_apply]
  rfl

/-- A [100000,2] array times a [2,2] array plus a [1,2] row: entry `(r, q)` is the sum over `k` of the first at `(r, k)`
    times the second at `(k, q)`, plus the row at `q`. -/
abbrev affine6 (a : S100000x2.Idx → EReal) (w : S2x2.Idx → EReal) (b : S1x2.Idx → EReal) : S100000x2.Idx → EReal :=
  fun i => (∑ k : Fin 2, a (ix2 (i 0) k) * w (ix2 k (i 1))) + b (ix2 (0 : Fin 1) (i 1))

variable (V : (c : Dev nD) → (b : Ref sig .tc) → Buf (Elt Ideal) ((c : Thread nD τ).loc b))

/-- The block indices over the grid: at point `t` the left array's and the output's blocks are the `t`-th blocks of rows, and
    the weights' and the bias's blocks are their whole arrays. -/
theorem index_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- At point `t` the body's value at `(p, q)` of its block is the whole function at the block's place in the array, row `10000 t + p`. -/
theorem point6 (c : Dev nD) (t : Fin cfg6.N) (j : S10000x2.Idx) :
    k6_pay1 (iblk6 V c 0 t) (iblk6 V c 1 t) (iblk6 V c 2 t) j
      = affine6 (V c main_v78) (V c main_arg11) (V c main_v79) (((cfg6.win 3).blk t).view.emb j) := by
  obtain ⟨p, q, rfl⟩ : ∃ (p : Fin 10000) (q : Fin 2), j = ix2 p q := ⟨j 0, j 1, eq_ix2 j⟩
  obtain ⟨e0, e1, e2, e3, e4, e5, e6, e7⟩ := index_facts6 t
  rw [affine6_apply]
  have hb : (iblk6 V c 2 t : Vec Ideal S1x2 .f32) (ix2 (0 : Fin 1) q) = (V c main_v79 : S1x2.Idx → EReal) (ix2 (0 : Fin 1) ((((cfg6.win 3).blk t).view.emb (ix2 p q)) 1)) := by
    show V c main_v79 (((cfg6.win 2).blk t).view.emb (ix2 (0 : Fin 1) q)) = _
    refine congrArg (V c main_v79) (funext fun a => Fin.ext ?_)
    match a with
    | ⟨0, _⟩ => show win6_2.index t (0 : Fin 2) * 1 + 1 * 0 = 0; omega
    | ⟨1, _⟩ => show win6_2.index t (1 : Fin 2) * 2 + 1 * q.val = win6_3.index t (1 : Fin 2) * 2 + 1 * q.val; omega
  refine congrArg₂ (fun x y : EReal => x + y) (Finset.sum_congr rfl fun k _ => ?_) hb
  have hl : (iblk6 V c 0 t : Vec Ideal S10000x2 .f32) (ix2 p k) = (V c main_v78 : S100000x2.Idx → EReal) (ix2 ((((cfg6.win 3).blk t).view.emb (ix2 p q)) 0) k) := by
    show V c main_v78 (((cfg6.win 0).blk t).view.emb (ix2 p k)) = _
    refine congrArg (V c main_v78) (funext fun a => Fin.ext ?_)
    match a with
    | ⟨0, _⟩ => show win6_0.index t (0 : Fin 2) * 10000 + 1 * p.val = win6_3.index t (0 : Fin 2) * 10000 + 1 * p.val; omega
    | ⟨1, _⟩ => show win6_0.index t (1 : Fin 2) * 2 + 1 * k.val = k.val; omega
  have hr : (iblk6 V c 1 t : Vec Ideal S2x2 .f32) (ix2 k q) = (V c main_arg11 : S2x2.Idx → EReal) (ix2 k ((((cfg6.win 3).blk t).view.emb (ix2 p q)) 1)) := by
    show V c main_arg11 (((cfg6.win 1).blk t).view.emb (ix2 k q)) = _
    refine congrArg (V c main_arg11) (funext fun a => Fin.ext ?_)
    match a with
    | ⟨0, _⟩ => show win6_1.index t (0 : Fin 2) * 2 + 1 * k.val = k.val; omega
    | ⟨1, _⟩ => show win6_1.index t (1 : Fin 2) * 2 + 1 * q.val = win6_3.index t (1 : Fin 2) * 2 + 1 * q.val; omega
  exact congrArg₂ (fun x y : EReal => x * y) hl hr

/-- What point `t` writes back to the output array is block `t` of the whole function. -/
theorem flushed6_eq (c : Dev nD) (t : Fin cfg6.N) :
    (dat6 (F := Ideal) V c).flushed 3 t = ((cfg6.win 3).blk t).view.read (Elt Ideal) (affine6 (V c main_v78) (V c main_arg11) (V c main_v79)) := by
  show (cfg6.win 3).cut (grid6.coords t) ((dat6 V c).after 3 t) = _
  rw [after6_3]
  unfold out6_3
  rw [View.canon_unit_zero zeroOffsets6]
  simp only [View.ld_unit_zero (S := S10000x2) zeroOffsets6, View.ld_unit_zero (S := S2x2) zeroOffsets6, View.ld_unit_zero (S := S1x2) zeroOffsets6]
  funext j
  exact point6 V c t j

/-- An index of the output array is in point `t`'s block iff each coordinate is in the block's range on its axis. -/
theorem mem_block6 (t : Fin cfg6.N) (i : S100000x2.Idx) :
    i ∈ ((cfg6.win 3).blk t).view.set ↔ ∀ a : Fin 2, win6_3.index t a * S10000x2.size a ≤ (i a).val ∧ (i a).val < win6_3.index t a * S10000x2.size a + S10000x2.size a := by
  show i ∈ ((View.whole main_v80).slice (win6_3.rect t)).set ↔ _
  rw [View.set_slice_whole, Rect.mem_set_unit]
  exact Iff.rfl

/-- Every row `r` of the output array is in the block of the point `r / 10000`, which writes it back. -/
theorem cover6 (i : S100000x2.Idx) : ∃ t : Fin cfg6.N, (cfg6.win 3).flush t = true ∧ i ∈ ((cfg6.win 3).blk t).view.set := by
  have hi0 : (i 0).val < 100000 := (i 0).isLt
  have hi1 : (i 1).val < 2 := (i 1).isLt
  have hN : cfg6.N = 10 := N_6
  obtain ⟨t, ht⟩ : ∃ t : Fin cfg6.N, t.val = (i 0).val / 10000 := ⟨⟨(i 0).val / 10000, by rw [hN]; omega⟩, rfl⟩
  obtain ⟨e0, e1, e2, e3, e4, e5, e6, e7⟩ := index_facts6 t
  refine ⟨t, flush6_3 t, ?_⟩
  rw [mem_block6]
  intro a
  match a with
  | ⟨0, _⟩ => show win6_3.index t (0 : Fin 2) * 10000 ≤ (i 0).val ∧ (i 0).val < win6_3.index t (0 : Fin 2) * 10000 + 10000; omega
  | ⟨1, _⟩ => show win6_3.index t (1 : Fin 2) * 2 ≤ (i 1).val ∧ (i 1).val < win6_3.index t (1 : Fin 2) * 2 + 2; omega

/-- After region 6 its output array holds the hidden rows times the output layer's weights plus the bias row, as the
    named function of the three arrays. -/
theorem linear6_affine (c : Dev nD) : (dat6 (F := Ideal) V c).arrAt 3 cfg6.N = affine6 (V c main_v78) (V c main_arg11) (V c main_v79) :=
  (dat6 (F := Ideal) V c).arrAt_eq_of_cover 3 (affine6 (V c main_v78) (V c main_arg11) (V c main_v79)) (fun t _ => flushed6_eq V c t) cover6

/-- After region 6 its output array holds the hidden rows times the output layer's weights plus the bias row: entry
    `(r, q)` is the sum over `k` of the hidden rows at `(r, k)` times the weights at `(k, q)`, plus the bias at `(0, q)`. -/
theorem linear6 (c : Dev nD) : (dat6 (F := Ideal) V c).arrAt 3 cfg6.N
    = fun i : S100000x2.Idx => (HAdd.hAdd (α := EReal) (β := EReal) (γ := EReal)
        (∑ k : Fin 2, HMul.hMul (α := EReal) (β := EReal) (γ := EReal) (V c main_v78 (ix2 (i 0) k)) (V c main_arg11 (ix2 k (i 1))))
        (V c main_v79 (ix2 (0 : Fin 1) (i 1))) : EReal) :=
  linear6_affine V c

end Cert.KernelIdeal.RegionValue

end
-- ==== Proof.BiasPrelu1.lean ====
import proofs.«109522_j30880814859094_1_alg».proof.Proof.Gen.KernelIdeal.Frame
import proofs.«109522_j30880814859094_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Cert.Gcn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The offsets of a whole staging buffer's rectangle are zero on both axes. -/
theorem biasPrelu1_zeroOffsets : (![0, 0] : Fin 2 → Nat) = fun _ => 0 := funext fun a => by fin_cases a <;> rfl

/-- The body's stored value at an index of the block: the bias row is added to the block's element, and the sum is kept
    where it is nonnegative and multiplied by the slope row elsewhere; both rows are read at the index's column. -/
theorem biasPrelu1_payload (x0 : Vec Ideal S10000x4 .f32) (x1 x2 : Vec Ideal S1x4 .f32) (y : S10000x4.Idx) :
    k1_pay1 x0 x1 x2 y
      = prelu (FloatOps.addf (F := Ideal) (φ := .f32) (x0 y) (x1 (ix2 (n0 := 1) (n1 := 4) 0 (y 1)))) (x2 (ix2 (n0 := 1) (n1 := 4) 0 (y 1))) := by
  obtain ⟨p, q, rfl⟩ : ∃ (p : Fin 10000) (q : Fin 4), y = ix2 p q := ⟨y 0, y 1, eq_ix2 y⟩
  have hb : broadcastTo S10000x4 x1 broadcasts_S1x4_S10000x4 (ix2 p q) = x1 (ix2 (0 : Fin 1) q) :=
    broadcastTo_1b_ab_apply x1 broadcasts_S1x4_S10000x4 p q
  have ha : broadcastTo S10000x4 x2 broadcasts_S1x4_S10000x4 (ix2 p q) = x2 (ix2 (0 : Fin 1) q) :=
    broadcastTo_1b_ab_apply x2 broadcasts_S1x4_S10000x4 p q
  unfold k1_pay1
  simp only [shapeCast_self]
  show Scalar.select
      (FloatOps.cmpf (F := Ideal) (φ := .f32) .oge
        (FloatOps.addf (F := Ideal) (φ := .f32) (x0 (ix2 p q)) (broadcastTo S10000x4 x1 broadcasts_S1x4_S10000x4 (ix2 p q)))
        (FloatOps.ofBits (F := Ideal) .f32 0x00000000#32))
      (FloatOps.addf (F := Ideal) (φ := .f32) (x0 (ix2 p q)) (broadcastTo S10000x4 x1 broadcasts_S1x4_S10000x4 (ix2 p q)))
      (FloatOps.mulf (F := Ideal) (φ := .f32) (broadcastTo S10000x4 x2 broadcasts_S1x4_S10000x4 (ix2 p q))
        (FloatOps.addf (F := Ideal) (φ := .f32) (x0 (ix2 p q)) (broadcastTo S10000x4 x1 broadcasts_S1x4_S10000x4 (ix2 p q)))) = _
  rw [hb, ha]
  rfl

/-- The block index maps over the grid: the input rows' block moves with the output's, and each has only one
    block of columns; the bias row and the slope row stay at their only block. -/
theorem biasPrelu1_indexFacts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 :=
  (by decide +kernel : ∀ t : Fin grid1.N, _)

/-- Every block of rows is some point's. -/
theorem biasPrelu1_indexOnto : ∀ (r : Fin 10), ∃ t : Fin cfg1.N, win1_3.index t = ![r.val, 0] :=
  (by decide +kernel : ∀ (r : Fin 10), ∃ t : Fin grid1.N, win1_3.index t = ![r.val, 0])

/-- What point `t` writes back is block `t` of the array "bias added, then PReLU with the column's slope" of the three
    arrays as the region finds them. -/
theorem biasPrelu1_flushed (c : Dev nD) (t : Fin cfg1.N) :
    (dat1 (F := Ideal) V c).flushed 3 t = ((cfg1.win 3).blk t).view.read (Elt Ideal)
      (fun i : S100000x4.Idx => prelu (FloatOps.addf (F := Ideal) (φ := .f32) (V c main_v43 i) (V c main_v44 (ix2 (n0 := 1) (n1 := 4) 0 (i 1))))
        (V c main_v45 (ix2 (n0 := 1) (n1 := 4) 0 (i 1)))) := by
  show (cfg1.win 3).cut (grid1.coords t) ((dat1 V c).after 3 t) = _
  rw [after1_3]
  unfold out1_3
  rw [View.canon_unit_zero biasPrelu1_zeroOffsets]
  simp only [View.ld_unit_zero (S := S10000x4) biasPrelu1_zeroOffsets, View.ld_unit_zero (S := S1x4) biasPrelu1_zeroOffsets]
  obtain ⟨e0, e1, e2, e3, e4, e5, e6⟩ := biasPrelu1_indexFacts t
  funext j
  refine (biasPrelu1_payload (iblk1 V c 0 t) (iblk1 V c 1 t) (iblk1 V c 2 t) ((cfg1.win 3).xinj (grid1.coords t) j)).trans ?_
  have h0 : ((cfg1.win 0).blk t).view.emb ((cfg1.win 3).xinj (grid1.coords t) j) = ((cfg1.win 3).blk t).view.emb j := by
    funext a; apply Fin.ext
    match a with
    | ⟨0, _⟩ => show win1_0.index t (0 : Fin 2) * 10000 + 1 * (j 0).val = win1_3.index t (0 : Fin 2) * 10000 + 1 * (j 0).val; rw [e0]
    | ⟨1, _⟩ => show win1_0.index t (1 : Fin 2) * 4 + 1 * (j 1).val = win1_3.index t (1 : Fin 2) * 4 + 1 * (j 1).val; rw [e1, e6]
  have h1 : ((cfg1.win 1).blk t).view.emb (ix2 (n0 := 1) (n1 := 4) 0 ((cfg1.win 3).xinj (grid1.coords t) j 1))
      = ix2 (n0 := 1) (n1 := 4) 0 (((cfg1.win 3).blk t).view.emb j 1) := by
    funext a; apply Fin.ext
    match a with
    | ⟨0, _⟩ => show win1_1.index t (0 : Fin 2) * 1 + 1 * 0 = 0; rw [e2]
    | ⟨1, _⟩ => show win1_1.index t (1 : Fin 2) * 4 + 1 * (j 1).val = win1_3.index t (1 : Fin 2) * 4 + 1 * (j 1).val; rw [e3, e6]
  have h2 : ((cfg1.win 2).blk t).view.emb (ix2 (n0 := 1) (n1 := 4) 0 ((cfg1.win 3).xinj (grid1.coords t) j 1))
      = ix2 (n0 := 1) (n1 := 4) 0 (((cfg1.win 3).blk t).view.emb j 1) := by
    funext a; apply Fin.ext
    match a with
    | ⟨0, _⟩ => show win1_2.index t (0 : Fin 2) * 1 + 1 * 0 = 0; rw [e4]
    | ⟨1, _⟩ => show win1_2.index t (1 : Fin 2) * 4 + 1 * (j 1).val = win1_3.index t (1 : Fin 2) * 4 + 1 * (j 1).val; rw [e5, e6]
  show prelu (FloatOps.addf (F := Ideal) (φ := .f32) (V c main_v43 (((cfg1.win 0).blk t).view.emb ((cfg1.win 3).xinj (grid1.coords t) j)))
        (V c main_v44 (((cfg1.win 1).blk t).view.emb (ix2 (n0 := 1) (n1 := 4) 0 ((cfg1.win 3).xinj (grid1.coords t) j 1)))))
      (V c main_v45 (((cfg1.win 2).blk t).view.emb (ix2 (n0 := 1) (n1 := 4) 0 ((cfg1.win 3).xinj (grid1.coords t) j 1))))
    = prelu (FloatOps.addf (F := Ideal) (φ := .f32) (V c main_v43 (((cfg1.win 3).blk t).view.emb j))
        (V c main_v44 (ix2 (n0 := 1) (n1 := 4) 0 (((cfg1.win 3).blk t).view.emb j 1))))
      (V c main_v45 (ix2 (n0 := 1) (n1 := 4) 0 (((cfg1.win 3).blk t).view.emb j 1)))
  rw [h0, h1, h2]

/-- An index of the array is in point `t`'s block iff each coordinate is in the block's range on its axis. -/
theorem biasPrelu1_memBlock (t : Fin cfg1.N) (i : S100000x4.Idx) :
    i ∈ ((cfg1.win 3).blk t).view.set ↔ ∀ a : Fin 2, win1_3.index t a * S10000x4.size a ≤ (i a).val ∧ (i a).val < win1_3.index t a * S10000x4.size a + S10000x4.size a := by
  show i ∈ ((View.whole main_v46).slice (win1_3.rect t)).set ↔ _
  rw [View.set_slice_whole, Rect.mem_set_unit]
  exact Iff.rfl

/-- The region's output array after its last point: at row `r` and column `q`, the input's element plus the bias of
    column `q`, kept where that sum is nonnegative and multiplied by the slope of column `q` elsewhere. Every row is in
    the block of the point numbered by the row's block, so the write-backs fill the whole array. -/
theorem biasPrelu1 (c : Dev nD) :
    (dat1 (F := Ideal) V c).arrAt 3 cfg1.N
      = fun i : S100000x4.Idx => prelu (FloatOps.addf (F := Ideal) (φ := .f32) (V c main_v43 i) (V c main_v44 (ix2 (n0 := 1) (n1 := 4) 0 (i 1))))
          (V c main_v45 (ix2 (n0 := 1) (n1 := 4) 0 (i 1))) :=
  (dat1 (F := Ideal) V c).arrAt_eq_of_cover 3 _ (fun t _ => biasPrelu1_flushed V c t) fun i => by
    have hi0 : (i 0).val < 100000 := (i 0).isLt
    have hi1 : (i 1).val < 4 := (i 1).isLt
    obtain ⟨t, ht⟩ := biasPrelu1_indexOnto ⟨(i 0).val / 10000, by omega⟩
    have q0 : win1_3.index t (0 : Fin 2) = (i 0).val / 10000 := congrFun ht 0
    have q1 : win1_3.index t (1 : Fin 2) = 0 := congrFun ht 1
    refine ⟨t, flush1_3 t, ?_⟩
    rw [biasPrelu1_memBlock]
    intro a
    match a with
    | ⟨0, _⟩ => show win1_3.index t (0 : Fin 2) * 10000 ≤ (i 0).val ∧ (i 0).val < win1_3.index t (0 : Fin 2) * 10000 + 10000; omega
    | ⟨1, _⟩ => show win1_3.index t (1 : Fin 2) * 4 ≤ (i 1).val ∧ (i 1).val < win1_3.index t (1 : Fin 2) * 4 + 4; omega

end Cert.KernelIdeal.RegionValue

end
-- ==== Proof.BiasPrelu3.lean ====
import proofs.«109522_j30880814859094_1_alg».proof.Proof.Gen.KernelIdeal.Frame
import proofs.«109522_j30880814859094_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Cert.Gcn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The offsets of a whole staging buffer's rectangle are zero on both axes. -/
theorem biasPrelu3_zeroOffsets : (![0, 0] : Fin 2 → Nat) = fun _ => 0 := funext fun a => by fin_cases a <;> rfl

/-- The body's stored value at an index of the block: the bias row is added to the block's element, and the sum is kept
    where it is nonnegative and multiplied by the slope row elsewhere; both rows are read at the index's column. -/
theorem biasPrelu3_payload (x0 : Vec Ideal S10000x4 .f32) (x1 x2 : Vec Ideal S1x4 .f32) (y : S10000x4.Idx) :
    k3_pay1 x0 x1 x2 y
      = prelu (FloatOps.addf (F := Ideal) (φ := .f32) (x0 y) (x1 (ix2 (n0 := 1) (n1 := 4) 0 (y 1)))) (x2 (ix2 (n0 := 1) (n1 := 4) 0 (y 1))) := by
  obtain ⟨p, q, rfl⟩ : ∃ (p : Fin 10000) (q : Fin 4), y = ix2 p q := ⟨y 0, y 1, eq_ix2 y⟩
  have hb : broadcastTo S10000x4 x1 broadcasts_S1x4_S10000x4 (ix2 p q) = x1 (ix2 (0 : Fin 1) q) :=
    broadcastTo_1b_ab_apply x1 broadcasts_S1x4_S10000x4 p q
  have ha : broadcastTo S10000x4 x2 broadcasts_S1x4_S10000x4 (ix2 p q) = x2 (ix2 (0 : Fin 1) q) :=
    broadcastTo_1b_ab_apply x2 broadcasts_S1x4_S10000x4 p q
  unfold k3_pay1
  simp only [shapeCast_self]
  show Scalar.select
      (FloatOps.cmpf (F := Ideal) (φ := .f32) .oge
        (FloatOps.addf (F := Ideal) (φ := .f32) (x0 (ix2 p q)) (broadcastTo S10000x4 x1 broadcasts_S1x4_S10000x4 (ix2 p q)))
        (FloatOps.ofBits (F := Ideal) .f32 0x00000000#32))
      (FloatOps.addf (F := Ideal) (φ := .f32) (x0 (ix2 p q)) (broadcastTo S10000x4 x1 broadcasts_S1x4_S10000x4 (ix2 p q)))
      (FloatOps.mulf (F := Ideal) (φ := .f32) (broadcastTo S10000x4 x2 broadcasts_S1x4_S10000x4 (ix2 p q))
        (FloatOps.addf (F := Ideal) (φ := .f32) (x0 (ix2 p q)) (broadcastTo S10000x4 x1 broadcasts_S1x4_S10000x4 (ix2 p q)))) = _
  rw [hb, ha]
  rfl

/-- The block index maps over the grid: the input rows' block moves with the output's, and each has only one
    block of columns; the bias row and the slope row stay at their only block. -/
theorem biasPrelu3_indexFacts : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 :=
  (by decide +kernel : ∀ t : Fin grid3.N, _)

/-- Every block of rows is some point's. -/
theorem biasPrelu3_indexOnto : ∀ (r : Fin 10), ∃ t : Fin cfg3.N, win3_3.index t = ![r.val, 0] :=
  (by decide +kernel : ∀ (r : Fin 10), ∃ t : Fin grid3.N, win3_3.index t = ![r.val, 0])

/-- What point `t` writes back is block `t` of the array "bias added, then PReLU with the column's slope" of the three
    arrays as the region finds them. -/
theorem biasPrelu3_flushed (c : Dev nD) (t : Fin cfg3.N) :
    (dat3 (F := Ideal) V c).flushed 3 t = ((cfg3.win 3).blk t).view.read (Elt Ideal)
      (fun i : S100000x4.Idx => prelu (FloatOps.addf (F := Ideal) (φ := .f32) (V c main_v59 i) (V c main_v60 (ix2 (n0 := 1) (n1 := 4) 0 (i 1))))
        (V c main_v61 (ix2 (n0 := 1) (n1 := 4) 0 (i 1)))) := by
  show (cfg3.win 3).cut (grid3.coords t) ((dat3 V c).after 3 t) = _
  rw [after3_3]
  unfold out3_3
  rw [View.canon_unit_zero biasPrelu3_zeroOffsets]
  simp only [View.ld_unit_zero (S := S10000x4) biasPrelu3_zeroOffsets, View.ld_unit_zero (S := S1x4) biasPrelu3_zeroOffsets]
  obtain ⟨e0, e1, e2, e3, e4, e5, e6⟩ := biasPrelu3_indexFacts t
  funext j
  refine (biasPrelu3_payload (iblk3 V c 0 t) (iblk3 V c 1 t) (iblk3 V c 2 t) ((cfg3.win 3).xinj (grid3.coords t) j)).trans ?_
  have h0 : ((cfg3.win 0).blk t).view.emb ((cfg3.win 3).xinj (grid3.coords t) j) = ((cfg3.win 3).blk t).view.emb j := by
    funext a; apply Fin.ext
    match a with
    | ⟨0, _⟩ => show win3_0.index t (0 : Fin 2) * 10000 + 1 * (j 0).val = win3_3.index t (0 : Fin 2) * 10000 + 1 * (j 0).val; rw [e0]
    | ⟨1, _⟩ => show win3_0.index t (1 : Fin 2) * 4 + 1 * (j 1).val = win3_3.index t (1 : Fin 2) * 4 + 1 * (j 1).val; rw [e1, e6]
  have h1 : ((cfg3.win 1).blk t).view.emb (ix2 (n0 := 1) (n1 := 4) 0 ((cfg3.win 3).xinj (grid3.coords t) j 1))
      = ix2 (n0 := 1) (n1 := 4) 0 (((cfg3.win 3).blk t).view.emb j 1) := by
    funext a; apply Fin.ext
    match a with
    | ⟨0, _⟩ => show win3_1.index t (0 : Fin 2) * 1 + 1 * 0 = 0; rw [e2]
    | ⟨1, _⟩ => show win3_1.index t (1 : Fin 2) * 4 + 1 * (j 1).val = win3_3.index t (1 : Fin 2) * 4 + 1 * (j 1).val; rw [e3, e6]
  have h2 : ((cfg3.win 2).blk t).view.emb (ix2 (n0 := 1) (n1 := 4) 0 ((cfg3.win 3).xinj (grid3.coords t) j 1))
      = ix2 (n0 := 1) (n1 := 4) 0 (((cfg3.win 3).blk t).view.emb j 1) := by
    funext a; apply Fin.ext
    match a with
    | ⟨0, _⟩ => show win3_2.index t (0 : Fin 2) * 1 + 1 * 0 = 0; rw [e4]
    | ⟨1, _⟩ => show win3_2.index t (1 : Fin 2) * 4 + 1 * (j 1).val = win3_3.index t (1 : Fin 2) * 4 + 1 * (j 1).val; rw [e5, e6]
  show prelu (FloatOps.addf (F := Ideal) (φ := .f32) (V c main_v59 (((cfg3.win 0).blk t).view.emb ((cfg3.win 3).xinj (grid3.coords t) j)))
        (V c main_v60 (((cfg3.win 1).blk t).view.emb (ix2 (n0 := 1) (n1 := 4) 0 ((cfg3.win 3).xinj (grid3.coords t) j 1)))))
      (V c main_v61 (((cfg3.win 2).blk t).view.emb (ix2 (n0 := 1) (n1 := 4) 0 ((cfg3.win 3).xinj (grid3.coords t) j 1))))
    = prelu (FloatOps.addf (F := Ideal) (φ := .f32) (V c main_v59 (((cfg3.win 3).blk t).view.emb j))
        (V c main_v60 (ix2 (n0 := 1) (n1 := 4) 0 (((cfg3.win 3).blk t).view.emb j 1))))
      (V c main_v61 (ix2 (n0 := 1) (n1 := 4) 0 (((cfg3.win 3).blk t).view.emb j 1)))
  rw [h0, h1, h2]

/-- An index of the array is in point `t`'s block iff each coordinate is in the block's range on its axis. -/
theorem biasPrelu3_memBlock (t : Fin cfg3.N) (i : S100000x4.Idx) :
    i ∈ ((cfg3.win 3).blk t).view.set ↔ ∀ a : Fin 2, win3_3.index t a * S10000x4.size a ≤ (i a).val ∧ (i a).val < win3_3.index t a * S10000x4.size a + S10000x4.size a := by
  show i ∈ ((View.whole main_v62).slice (win3_3.rect t)).set ↔ _
  rw [View.set_slice_whole, Rect.mem_set_unit]
  exact Iff.rfl

/-- The region's output array after its last point: at row `r` and column `q`, the input's element plus the bias of
    column `q`, kept where that sum is nonnegative and multiplied by the slope of column `q` elsewhere. Every row is in
    the block of the point numbered by the row's block, so the write-backs fill the whole array. -/
theorem biasPrelu3 (c : Dev nD) :
    (dat3 (F := Ideal) V c).arrAt 3 cfg3.N
      = fun i : S100000x4.Idx => prelu (FloatOps.addf (F := Ideal) (φ := .f32) (V c main_v59 i) (V c main_v60 (ix2 (n0 := 1) (n1 := 4) 0 (i 1))))
          (V c main_v61 (ix2 (n0 := 1) (n1 := 4) 0 (i 1))) :=
  (dat3 (F := Ideal) V c).arrAt_eq_of_cover 3 _ (fun t _ => biasPrelu3_flushed V c t) fun i => by
    have hi0 : (i 0).val < 100000 := (i 0).isLt
    have hi1 : (i 1).val < 4 := (i 1).isLt
    obtain ⟨t, ht⟩ := biasPrelu3_indexOnto ⟨(i 0).val / 10000, by omega⟩
    have q0 : win3_3.index t (0 : Fin 2) = (i 0).val / 10000 := congrFun ht 0
    have q1 : win3_3.index t (1 : Fin 2) = 0 := congrFun ht 1
    refine ⟨t, flush3_3 t, ?_⟩
    rw [biasPrelu3_memBlock]
    intro a
    match a with
    | ⟨0, _⟩ => show win3_3.index t (0 : Fin 2) * 10000 ≤ (i 0).val ∧ (i 0).val < win3_3.index t (0 : Fin 2) * 10000 + 10000; omega
    | ⟨1, _⟩ => show win3_3.index t (1 : Fin 2) * 4 ≤ (i 1).val ∧ (i 1).val < win3_3.index t (1 : Fin 2) * 4 + 4; omega

end Cert.KernelIdeal.RegionValue

end
-- ==== Proof.BiasPrelu5.lean ====
import proofs.«109522_j30880814859094_1_alg».proof.Proof.Gen.KernelIdeal.Frame
import proofs.«109522_j30880814859094_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Cert.Gcn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The offsets of a whole staging buffer's rectangle are zero on both axes. -/
theorem biasPrelu5_zeroOffsets : (![0, 0] : Fin 2 → Nat) = fun _ => 0 := funext fun a => by fin_cases a <;> rfl

/-- The body's stored value at an index of the block: the bias row is added to the block's element, and the sum is kept
    where it is nonnegative and multiplied by the slope row elsewhere; both rows are read at the index's column. -/
theorem biasPrelu5_payload (x0 : Vec Ideal S10000x2 .f32) (x1 x2 : Vec Ideal S1x2 .f32) (y : S10000x2.Idx) :
    k5_pay1 x0 x1 x2 y
      = prelu (FloatOps.addf (F := Ideal) (φ := .f32) (x0 y) (x1 (ix2 (n0 := 1) (n1 := 2) 0 (y 1)))) (x2 (ix2 (n0 := 1) (n1 := 2) 0 (y 1))) := by
  obtain ⟨p, q, rfl⟩ : ∃ (p : Fin 10000) (q : Fin 2), y = ix2 p q := ⟨y 0, y 1, eq_ix2 y⟩
  have hb : broadcastTo S10000x2 x1 broadcasts_S1x2_S10000x2 (ix2 p q) = x1 (ix2 (0 : Fin 1) q) :=
    broadcastTo_1b_ab_apply x1 broadcasts_S1x2_S10000x2 p q
  have ha : broadcastTo S10000x2 x2 broadcasts_S1x2_S10000x2 (ix2 p q) = x2 (ix2 (0 : Fin 1) q) :=
    broadcastTo_1b_ab_apply x2 broadcasts_S1x2_S10000x2 p q
  unfold k5_pay1
  simp only [shapeCast_self]
  show Scalar.select
      (FloatOps.cmpf (F := Ideal) (φ := .f32) .oge
        (FloatOps.addf (F := Ideal) (φ := .f32) (x0 (ix2 p q)) (broadcastTo S10000x2 x1 broadcasts_S1x2_S10000x2 (ix2 p q)))
        (FloatOps.ofBits (F := Ideal) .f32 0x00000000#32))
      (FloatOps.addf (F := Ideal) (φ := .f32) (x0 (ix2 p q)) (broadcastTo S10000x2 x1 broadcasts_S1x2_S10000x2 (ix2 p q)))
      (FloatOps.mulf (F := Ideal) (φ := .f32) (broadcastTo S10000x2 x2 broadcasts_S1x2_S10000x2 (ix2 p q))
        (FloatOps.addf (F := Ideal) (φ := .f32) (x0 (ix2 p q)) (broadcastTo S10000x2 x1 broadcasts_S1x2_S10000x2 (ix2 p q)))) = _
  rw [hb, ha]
  rfl

/-- The block index maps over the grid: the input rows' block moves with the output's, and each has only one
    block of columns; the bias row and the slope row stay at their only block. -/
theorem biasPrelu5_indexFacts : ∀ t : Fin cfg5.N,
    win5_0.index t (0 : Fin 2) = win5_3.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (1 : Fin 2) = 0 :=
  (by decide +kernel : ∀ t : Fin grid5.N, _)

/-- Every block of rows is some point's. -/
theorem biasPrelu5_indexOnto : ∀ (r : Fin 10), ∃ t : Fin cfg5.N, win5_3.index t = ![r.val, 0] :=
  (by decide +kernel : ∀ (r : Fin 10), ∃ t : Fin grid5.N, win5_3.index t = ![r.val, 0])

/-- What point `t` writes back is block `t` of the array "bias added, then PReLU with the column's slope" of the three
    arrays as the region finds them. -/
theorem biasPrelu5_flushed (c : Dev nD) (t : Fin cfg5.N) :
    (dat5 (F := Ideal) V c).flushed 3 t = ((cfg5.win 3).blk t).view.read (Elt Ideal)
      (fun i : S100000x2.Idx => prelu (FloatOps.addf (F := Ideal) (φ := .f32) (V c main_v75 i) (V c main_v76 (ix2 (n0 := 1) (n1 := 2) 0 (i 1))))
        (V c main_v77 (ix2 (n0 := 1) (n1 := 2) 0 (i 1)))) := by
  show (cfg5.win 3).cut (grid5.coords t) ((dat5 V c).after 3 t) = _
  rw [after5_3]
  unfold out5_3
  rw [View.canon_unit_zero biasPrelu5_zeroOffsets]
  simp only [View.ld_unit_zero (S := S10000x2) biasPrelu5_zeroOffsets, View.ld_unit_zero (S := S1x2) biasPrelu5_zeroOffsets]
  obtain ⟨e0, e1, e2, e3, e4, e5, e6⟩ := biasPrelu5_indexFacts t
  funext j
  refine (biasPrelu5_payload (iblk5 V c 0 t) (iblk5 V c 1 t) (iblk5 V c 2 t) ((cfg5.win 3).xinj (grid5.coords t) j)).trans ?_
  have h0 : ((cfg5.win 0).blk t).view.emb ((cfg5.win 3).xinj (grid5.coords t) j) = ((cfg5.win 3).blk t).view.emb j := by
    funext a; apply Fin.ext
    match a with
    | ⟨0, _⟩ => show win5_0.index t (0 : Fin 2) * 10000 + 1 * (j 0).val = win5_3.index t (0 : Fin 2) * 10000 + 1 * (j 0).val; rw [e0]
    | ⟨1, _⟩ => show win5_0.index t (1 : Fin 2) * 2 + 1 * (j 1).val = win5_3.index t (1 : Fin 2) * 2 + 1 * (j 1).val; rw [e1, e6]
  have h1 : ((cfg5.win 1).blk t).view.emb (ix2 (n0 := 1) (n1 := 2) 0 ((cfg5.win 3).xinj (grid5.coords t) j 1))
      = ix2 (n0 := 1) (n1 := 2) 0 (((cfg5.win 3).blk t).view.emb j 1) := by
    funext a; apply Fin.ext
    match a with
    | ⟨0, _⟩ => show win5_1.index t (0 : Fin 2) * 1 + 1 * 0 = 0; rw [e2]
    | ⟨1, _⟩ => show win5_1.index t (1 : Fin 2) * 2 + 1 * (j 1).val = win5_3.index t (1 : Fin 2) * 2 + 1 * (j 1).val; rw [e3, e6]
  have h2 : ((cfg5.win 2).blk t).view.emb (ix2 (n0 := 1) (n1 := 2) 0 ((cfg5.win 3).xinj (grid5.coords t) j 1))
      = ix2 (n0 := 1) (n1 := 2) 0 (((cfg5.win 3).blk t).view.emb j 1) := by
    funext a; apply Fin.ext
    match a with
    | ⟨0, _⟩ => show win5_2.index t (0 : Fin 2) * 1 + 1 * 0 = 0; rw [e4]
    | ⟨1, _⟩ => show win5_2.index t (1 : Fin 2) * 2 + 1 * (j 1).val = win5_3.index t (1 : Fin 2) * 2 + 1 * (j 1).val; rw [e5, e6]
  show prelu (FloatOps.addf (F := Ideal) (φ := .f32) (V c main_v75 (((cfg5.win 0).blk t).view.emb ((cfg5.win 3).xinj (grid5.coords t) j)))
        (V c main_v76 (((cfg5.win 1).blk t).view.emb (ix2 (n0 := 1) (n1 := 2) 0 ((cfg5.win 3).xinj (grid5.coords t) j 1)))))
      (V c main_v77 (((cfg5.win 2).blk t).view.emb (ix2 (n0 := 1) (n1 := 2) 0 ((cfg5.win 3).xinj (grid5.coords t) j 1))))
    = prelu (FloatOps.addf (F := Ideal) (φ := .f32) (V c main_v75 (((cfg5.win 3).blk t).view.emb j))
        (V c main_v76 (ix2 (n0 := 1) (n1 := 2) 0 (((cfg5.win 3).blk t).view.emb j 1))))
      (V c main_v77 (ix2 (n0 := 1) (n1 := 2) 0 (((cfg5.win 3).blk t).view.emb j 1)))
  rw [h0, h1, h2]

/-- An index of the array is in point `t`'s block iff each coordinate is in the block's range on its axis. -/
theorem biasPrelu5_memBlock (t : Fin cfg5.N) (i : S100000x2.Idx) :
    i ∈ ((cfg5.win 3).blk t).view.set ↔ ∀ a : Fin 2, win5_3.index t a * S10000x2.size a ≤ (i a).val ∧ (i a).val < win5_3.index t a * S10000x2.size a + S10000x2.size a := by
  show i ∈ ((View.whole main_v78).slice (win5_3.rect t)).set ↔ _
  rw [View.set_slice_whole, Rect.mem_set_unit]
  exact Iff.rfl

/-- The region's output array after its last point: at row `r` and column `q`, the input's element plus the bias of
    column `q`, kept where that sum is nonnegative and multiplied by the slope of column `q` elsewhere. Every row is in
    the block of the point numbered by the row's block, so the write-backs fill the whole array. -/
theorem biasPrelu5 (c : Dev nD) :
    (dat5 (F := Ideal) V c).arrAt 3 cfg5.N
      = fun i : S100000x2.Idx => prelu (FloatOps.addf (F := Ideal) (φ := .f32) (V c main_v75 i) (V c main_v76 (ix2 (n0 := 1) (n1 := 2) 0 (i 1))))
          (V c main_v77 (ix2 (n0 := 1) (n1 := 2) 0 (i 1))) :=
  (dat5 (F := Ideal) V c).arrAt_eq_of_cover 3 _ (fun t _ => biasPrelu5_flushed V c t) fun i => by
    have hi0 : (i 0).val < 100000 := (i 0).isLt
    have hi1 : (i 1).val < 2 := (i 1).isLt
    obtain ⟨t, ht⟩ := biasPrelu5_indexOnto ⟨(i 0).val / 10000, by omega⟩
    have q0 : win5_3.index t (0 : Fin 2) = (i 0).val / 10000 := congrFun ht 0
    have q1 : win5_3.index t (1 : Fin 2) = 0 := congrFun ht 1
    refine ⟨t, flush5_3 t, ?_⟩
    rw [biasPrelu5_memBlock]
    intro a
    match a with
    | ⟨0, _⟩ => show win5_3.index t (0 : Fin 2) * 10000 ≤ (i 0).val ∧ (i 0).val < win5_3.index t (0 : Fin 2) * 10000 + 10000; omega
    | ⟨1, _⟩ => show win5_3.index t (1 : Fin 2) * 2 ≤ (i 1).val ∧ (i 1).val < win5_3.index t (1 : Fin 2) * 2 + 2; omega

end Cert.KernelIdeal.RegionValue

end
-- ==== Proof.KernelValue.lean ====
/-
  The idealized kernel's two results as functions of its arguments.

  The buffer contents at the boundaries of @main's fourteen segments are determined one boundary at a time.  After a
  stretch of host operations each operation's result buffer holds its function of its operands' contents and every
  other buffer what it held; what a stretch computes is stated with the network's sparse functions (`srcs`, `dsts`,
  `norm`, `aggregate4`, `aggregate2`), which are the stretch's own operations.  A region replaces its output array by
  what its ten write-backs leave: the matrix product of the region's input arrays (regions 0, 2, 4), bias and PReLU of
  the aggregated features (regions 1, 3, 5; the bias and slope vectors reach the region as one-row matrices, read
  back at `(0, q)`), and the last dense layer with bias (region 6).  Every buffer a later step reads is carried
  through the steps that do not write it.
-/
import proofs.«109522_j30880814859094_1_alg».proof.Proof.Gen.KernelIdeal.Frame
import proofs.«109522_j30880814859094_1_alg».proof.Proof.Spec
import proofs.«109522_j30880814859094_1_alg».proof.Proof.Linear0
import proofs.«109522_j30880814859094_1_alg».proof.Proof.Linear2
import proofs.«109522_j30880814859094_1_alg».proof.Proof.Linear4
import proofs.«109522_j30880814859094_1_alg».proof.Proof.Linear6
import proofs.«109522_j30880814859094_1_alg».proof.Proof.BiasPrelu1
import proofs.«109522_j30880814859094_1_alg».proof.Proof.BiasPrelu3
import proofs.«109522_j30880814859094_1_alg».proof.Proof.BiasPrelu5
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue

open Cert.KernelIdeal Cert.KernelIdeal.Gen Cert.KernelIdeal.RegionValue Cert.Gcn
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-! ## Reading a buffer after a stretch of host operations -/

/-- The sources' concatenation (edge row 0, then the self-loops), read at its own buffer: the join of the two operands'
    contents. -/
theorem srcs_result' (h : Shape.Concatenates [S3200000, S100000] S3300000 0) (ha hb hy) (V : Valuation τ sig (Elt F)) :
    (StableHlo.binary (τ := τ) main_v1 main_v4 main_v5
        ((fun p q => concatenate S3300000 0 [⟨S3200000, p⟩, ⟨S100000, q⟩] h) :
          (⟨S3200000, .i32⟩ : BufTy).Contents (Elt F) → (⟨S100000, .i32⟩ : BufTy).Contents (Elt F) → (⟨S3300000, .i32⟩ : BufTy).Contents (Elt F))
        ha hb hy).result V (no_index (Proc.devRef .tc main_v5))
      = joinEdges (V (Proc.devRef .tc main_v1)) (V (Proc.devRef .tc main_v4)) :=
  StableHlo.binary_result main_v1 main_v4 main_v5 _ ha hb hy V

/-- The destinations' concatenation (edge row 1, then the self-loops), likewise. -/
theorem dsts_result' (h : Shape.Concatenates [S3200000, S100000] S3300000 0) (ha hb hy) (V : Valuation τ sig (Elt F)) :
    (StableHlo.binary (τ := τ) main_v3 main_v4 main_v6
        ((fun p q => concatenate S3300000 0 [⟨S3200000, p⟩, ⟨S100000, q⟩] h) :
          (⟨S3200000, .i32⟩ : BufTy).Contents (Elt F) → (⟨S100000, .i32⟩ : BufTy).Contents (Elt F) → (⟨S3300000, .i32⟩ : BufTy).Contents (Elt F))
        ha hb hy).result V (no_index (Proc.devRef .tc main_v6))
      = joinEdges (V (Proc.devRef .tc main_v3)) (V (Proc.devRef .tc main_v4)) :=
  StableHlo.binary_result main_v3 main_v4 main_v6 _ ha hb hy V

/-- The three operations of the `where` that zeroes `deg^(-1/2)` at the nodes of degree 0, each read at its own buffer
    as the plain function of its operands' contents. -/
theorem where_zero_result' (V : Valuation τ sig (Elt F)) :
    (StableHlo.TRef.unary (τ := τ) (.of main_cst_2 : StableHlo.TRef sig ⟨S_, .f32⟩) (.of main_call0_v0 : StableHlo.TRef sig ⟨S_, .f32⟩) id).result V
        (no_index (Proc.devRef .tc main_call0_v0))
      = (id (V (Proc.devRef .tc main_cst_2)) : (⟨S_, .f32⟩ : BufTy).Contents (Elt F)) :=
  (StableHlo.unary_result _ _ _ _ _ V).trans rfl

theorem where_splat_result' (V : Valuation τ sig (Elt F)) :
    (StableHlo.TRef.unary (τ := τ) (.of main_call0_v0 : StableHlo.TRef sig ⟨S_, .f32⟩) (.of main_call0_v1 : StableHlo.TRef sig ⟨S100000, .f32⟩)
        (broadcastInDim S100000 ![] bcast_S_S100000)).result V (no_index (Proc.devRef .tc main_call0_v1))
      = (broadcastInDim S100000 ![] bcast_S_S100000 (V (Proc.devRef .tc main_call0_v0)) : (⟨S100000, .f32⟩ : BufTy).Contents (Elt F)) :=
  (StableHlo.unary_result _ _ _ _ _ V).trans rfl

theorem where_select_result' (V : Valuation τ sig (Elt F)) :
    (StableHlo.TRef.ternary (τ := τ) (.of main_v12 : StableHlo.TRef sig ⟨S100000, .i1⟩) (.of main_v13 : StableHlo.TRef sig ⟨S100000, .f32⟩)
        (.of main_call0_v1 : StableHlo.TRef sig ⟨S100000, .f32⟩) (.of main_v14 : StableHlo.TRef sig ⟨S100000, .f32⟩) select).result V
          (no_index (Proc.devRef .tc main_v14))
      = (select (V (Proc.devRef .tc main_v12)) (V (Proc.devRef .tc main_v13)) (V (Proc.devRef .tc main_call0_v1)) : (⟨S100000, .f32⟩ : BufTy).Contents (Elt F)) :=
  (StableHlo.ternary_result _ _ _ _ _ _ _ _ _ V).trans rfl

/-- Reads a buffer after a literal list of host operations: each operation's result at its own buffer is its
    function of its operands' contents, at any other buffer what was there. -/
macro "host_results" : tactic =>
  `(tactic| (simp (disch := decide) only [StableHlo.after_cons, StableHlo.after_nil,
      ↓srcs_result', ↓dsts_result', ↓where_zero_result', ↓where_splat_result', ↓where_select_result',
      StableHlo.nullary_result', StableHlo.unary_result', StableHlo.binary_result', StableHlo.ternary_result',
      StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne',
      StableHlo.unaryIndexed_result_ne', StableHlo.binaryIndexed_result_ne']))

section Values

variable (m : (ℓ : Loc nD τ sig) → Buf (Elt Ideal) ℓ) (ρ : Dev nD → PrngReg) (c : Dev nD)

/-! ## Boundary 3, region 0's entry: the graph's sparse data, and the arguments untouched -/

set_option maxHeartbeats 400000 in
/-- The sources of the 3300000 edges. -/
theorem at3_v5 : W3 m ρ c (Proc.devRef .tc main_v5) = srcs (m ((c : Thread nD τ).loc main_arg1)) := by
  show StableHlo.after hostOps0_2 (StableHlo.after hostOps0_1 (StableHlo.after hostOps0 (W0 m ρ c))) (Proc.devRef .tc main_v5) = _
  host_results
  rfl

set_option maxHeartbeats 400000 in
/-- The destinations of the 3300000 edges. -/
theorem at3_v6 : W3 m ρ c (Proc.devRef .tc main_v6) = dsts (m ((c : Thread nD τ).loc main_arg1)) := by
  show StableHlo.after hostOps0_2 (StableHlo.after hostOps0_1 (StableHlo.after hostOps0 (W0 m ρ c))) (Proc.devRef .tc main_v6) = _
  host_results
  rfl

set_option maxHeartbeats 400000 in
/-- The edge weights `dinv[src] · dinv[dst]`, as a column. -/
theorem at3_v30 : W3 m ρ c (Proc.devRef .tc main_v30) = norm (m ((c : Thread nD τ).loc main_arg1)) := by
  show StableHlo.after hostOps0_2 (StableHlo.after hostOps0_1 (StableHlo.after hostOps0 (W0 m ρ c))) (Proc.devRef .tc main_v30) = _
  host_results
  rfl

set_option maxHeartbeats 400000 in
theorem at3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  host_results

set_option maxHeartbeats 400000 in
theorem at3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  host_results

set_option maxHeartbeats 400000 in
theorem at3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  host_results

set_option maxHeartbeats 400000 in
theorem at3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  host_results

set_option maxHeartbeats 400000 in
theorem at3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  host_results

set_option maxHeartbeats 400000 in
theorem at3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  host_results

set_option maxHeartbeats 400000 in
theorem at3_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  host_results

set_option maxHeartbeats 400000 in
theorem at3_arg8 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  host_results

set_option maxHeartbeats 400000 in
theorem at3_arg9 : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  host_results

set_option maxHeartbeats 400000 in
theorem at3_arg10 : W3 m ρ c (Proc.devRef .tc main_arg10) = m ((c : Thread nD τ).loc main_arg10) := by
  show StableHlo.after hostOps0_2 (StableHlo.after hostOps0_1 (StableHlo.after hostOps0 (W0 m ρ c))) (Proc.devRef .tc main_arg10) = _
  host_results

set_option maxHeartbeats 400000 in
theorem at3_arg11 : W3 m ρ c (Proc.devRef .tc main_arg11) = m ((c : Thread nD τ).loc main_arg11) := by
  show StableHlo.after hostOps0_2 (StableHlo.after hostOps0_1 (StableHlo.after hostOps0 (W0 m ρ c))) (Proc.devRef .tc main_arg11) = _
  host_results

set_option maxHeartbeats 400000 in
theorem at3_arg12 : W3 m ρ c (Proc.devRef .tc main_arg12) = m ((c : Thread nD τ).loc main_arg12) := by
  show StableHlo.after hostOps0_2 (StableHlo.after hostOps0_1 (StableHlo.after hostOps0 (W0 m ρ c))) (Proc.devRef .tc main_arg12) = _
  host_results

/-! ## Region 0: the first layer's product `x · W1` -/

set_option maxHeartbeats 400000 in
/-- The layer's matrix product. -/
theorem at4_v31 : W4 m ρ c (Proc.devRef .tc main_v31) = dense (m ((c : Thread nD τ).loc main_arg0)) (m ((c : Thread nD τ).loc main_arg2)) := by
  refine (W4_arr m ρ c 2).trans ?_
  rw [linear0_product]
  show product0 (W3 m ρ c (Proc.devRef .tc main_arg0)) (W3 m ρ c (Proc.devRef .tc main_arg2)) = _
  rw [at3_arg0, at3_arg2]
  rfl

/-! ### Boundary 4: what the step into it leaves untouched -/
theorem at4_v5 : W4 m ρ c (Proc.devRef .tc main_v5) = srcs (m ((c : Thread nD τ).loc main_arg1)) :=
  (W4_of_ne m ρ c main_v5 (by decide)).trans (at3_v5 m ρ c)
theorem at4_v6 : W4 m ρ c (Proc.devRef .tc main_v6) = dsts (m ((c : Thread nD τ).loc main_arg1)) :=
  (W4_of_ne m ρ c main_v6 (by decide)).trans (at3_v6 m ρ c)
theorem at4_v30 : W4 m ρ c (Proc.devRef .tc main_v30) = norm (m ((c : Thread nD τ).loc main_arg1)) :=
  (W4_of_ne m ρ c main_v30 (by decide)).trans (at3_v30 m ρ c)
theorem at4_arg3 : W4 m ρ c (Proc.devRef .tc main_arg3) = m ((c : Thread nD τ).loc main_arg3) :=
  (W4_of_ne m ρ c main_arg3 (by decide)).trans (at3_arg3 m ρ c)
theorem at4_arg4 : W4 m ρ c (Proc.devRef .tc main_arg4) = m ((c : Thread nD τ).loc main_arg4) :=
  (W4_of_ne m ρ c main_arg4 (by decide)).trans (at3_arg4 m ρ c)
theorem at4_arg5 : W4 m ρ c (Proc.devRef .tc main_arg5) = m ((c : Thread nD τ).loc main_arg5) :=
  (W4_of_ne m ρ c main_arg5 (by decide)).trans (at3_arg5 m ρ c)
theorem at4_arg6 : W4 m ρ c (Proc.devRef .tc main_arg6) = m ((c : Thread nD τ).loc main_arg6) :=
  (W4_of_ne m ρ c main_arg6 (by decide)).trans (at3_arg6 m ρ c)
theorem at4_arg7 : W4 m ρ c (Proc.devRef .tc main_arg7) = m ((c : Thread nD τ).loc main_arg7) :=
  (W4_of_ne m ρ c main_arg7 (by decide)).trans (at3_arg7 m ρ c)
theorem at4_arg8 : W4 m ρ c (Proc.devRef .tc main_arg8) = m ((c : Thread nD τ).loc main_arg8) :=
  (W4_of_ne m ρ c main_arg8 (by decide)).trans (at3_arg8 m ρ c)
theorem at4_arg9 : W4 m ρ c (Proc.devRef .tc main_arg9) = m ((c : Thread nD τ).loc main_arg9) :=
  (W4_of_ne m ρ c main_arg9 (by decide)).trans (at3_arg9 m ρ c)
theorem at4_arg10 : W4 m ρ c (Proc.devRef .tc main_arg10) = m ((c : Thread nD τ).loc main_arg10) :=
  (W4_of_ne m ρ c main_arg10 (by decide)).trans (at3_arg10 m ρ c)
theorem at4_arg11 : W4 m ρ c (Proc.devRef .tc main_arg11) = m ((c : Thread nD τ).loc main_arg11) :=
  (W4_of_ne m ρ c main_arg11 (by decide)).trans (at3_arg11 m ρ c)
theorem at4_arg12 : W4 m ρ c (Proc.devRef .tc main_arg12) = m ((c : Thread nD τ).loc main_arg12) :=
  (W4_of_ne m ρ c main_arg12 (by decide)).trans (at3_arg12 m ρ c)

/-! ## The first layer's aggregation, and its bias and slope as rows -/

set_option maxHeartbeats 400000 in
/-- The aggregation after this layer's product: the stretch's gather, product with the edge weights and scatter-add,
    as one function of the previous boundary's buffers. -/
theorem step5_v43 : W5 m ρ c (Proc.devRef .tc main_v43) = aggregate4 (W4 m ρ c (Proc.devRef .tc main_v5)) (W4 m ρ c (Proc.devRef .tc main_v6)) (W4 m ρ c (Proc.devRef .tc main_v30)) (W4 m ρ c (Proc.devRef .tc main_v31)) := by
  show StableHlo.after hostOps1 (W4 m ρ c) (Proc.devRef .tc main_v43) = _
  host_results
  rfl

theorem at5_v43 : W5 m ρ c (Proc.devRef .tc main_v43) = aggregate4 (srcs (m ((c : Thread nD τ).loc main_arg1))) (dsts (m ((c : Thread nD τ).loc main_arg1))) (norm (m ((c : Thread nD τ).loc main_arg1))) (dense (m ((c : Thread nD τ).loc main_arg0)) (m ((c : Thread nD τ).loc main_arg2))) := by
  rw [step5_v43, at4_v5, at4_v6, at4_v30, at4_v31]

set_option maxHeartbeats 400000 in
/-- A per-column parameter vector as a one-row matrix. -/
theorem at5_v44 : W5 m ρ c (Proc.devRef .tc main_v44) = shapeCast S1x4 (m ((c : Thread nD τ).loc main_arg3)) shapeCasts_S4_S1x4 := by
  refine (show StableHlo.after hostOps1 (W4 m ρ c) (Proc.devRef .tc main_v44) = shapeCast S1x4 (W4 m ρ c (Proc.devRef .tc main_arg3)) shapeCasts_S4_S1x4 from ?_).trans ?_
  · host_results
    rfl
  · rw [at4_arg3]

set_option maxHeartbeats 400000 in
/-- A per-column parameter vector as a one-row matrix. -/
theorem at5_v45 : W5 m ρ c (Proc.devRef .tc main_v45) = shapeCast S1x4 (m ((c : Thread nD τ).loc main_arg4)) shapeCasts_S4_S1x4 := by
  refine (show StableHlo.after hostOps1 (W4 m ρ c) (Proc.devRef .tc main_v45) = shapeCast S1x4 (W4 m ρ c (Proc.devRef .tc main_arg4)) shapeCasts_S4_S1x4 from ?_).trans ?_
  · host_results
    rfl
  · rw [at4_arg4]

/-! ### Boundary 5: what the step into it leaves untouched -/
theorem at5_v5 : W5 m ρ c (Proc.devRef .tc main_v5) = srcs (m ((c : Thread nD τ).loc main_arg1)) :=
  (show StableHlo.after hostOps1 (W4 m ρ c) (Proc.devRef .tc main_v5) = W4 m ρ c (Proc.devRef .tc main_v5) by host_results).trans (at4_v5 m ρ c)
theorem at5_v6 : W5 m ρ c (Proc.devRef .tc main_v6) = dsts (m ((c : Thread nD τ).loc main_arg1)) :=
  (show StableHlo.after hostOps1 (W4 m ρ c) (Proc.devRef .tc main_v6) = W4 m ρ c (Proc.devRef .tc main_v6) by host_results).trans (at4_v6 m ρ c)
theorem at5_v30 : W5 m ρ c (Proc.devRef .tc main_v30) = norm (m ((c : Thread nD τ).loc main_arg1)) :=
  (show StableHlo.after hostOps1 (W4 m ρ c) (Proc.devRef .tc main_v30) = W4 m ρ c (Proc.devRef .tc main_v30) by host_results).trans (at4_v30 m ρ c)
theorem at5_arg5 : W5 m ρ c (Proc.devRef .tc main_arg5) = m ((c : Thread nD τ).loc main_arg5) :=
  (show StableHlo.after hostOps1 (W4 m ρ c) (Proc.devRef .tc main_arg5) = W4 m ρ c (Proc.devRef .tc main_arg5) by host_results).trans (at4_arg5 m ρ c)
theorem at5_arg6 : W5 m ρ c (Proc.devRef .tc main_arg6) = m ((c : Thread nD τ).loc main_arg6) :=
  (show StableHlo.after hostOps1 (W4 m ρ c) (Proc.devRef .tc main_arg6) = W4 m ρ c (Proc.devRef .tc main_arg6) by host_results).trans (at4_arg6 m ρ c)
theorem at5_arg7 : W5 m ρ c (Proc.devRef .tc main_arg7) = m ((c : Thread nD τ).loc main_arg7) :=
  (show StableHlo.after hostOps1 (W4 m ρ c) (Proc.devRef .tc main_arg7) = W4 m ρ c (Proc.devRef .tc main_arg7) by host_results).trans (at4_arg7 m ρ c)
theorem at5_arg8 : W5 m ρ c (Proc.devRef .tc main_arg8) = m ((c : Thread nD τ).loc main_arg8) :=
  (show StableHlo.after hostOps1 (W4 m ρ c) (Proc.devRef .tc main_arg8) = W4 m ρ c (Proc.devRef .tc main_arg8) by host_results).trans (at4_arg8 m ρ c)
theorem at5_arg9 : W5 m ρ c (Proc.devRef .tc main_arg9) = m ((c : Thread nD τ).loc main_arg9) :=
  (show StableHlo.after hostOps1 (W4 m ρ c) (Proc.devRef .tc main_arg9) = W4 m ρ c (Proc.devRef .tc main_arg9) by host_results).trans (at4_arg9 m ρ c)
theorem at5_arg10 : W5 m ρ c (Proc.devRef .tc main_arg10) = m ((c : Thread nD τ).loc main_arg10) :=
  (show StableHlo.after hostOps1 (W4 m ρ c) (Proc.devRef .tc main_arg10) = W4 m ρ c (Proc.devRef .tc main_arg10) by host_results).trans (at4_arg10 m ρ c)
theorem at5_arg11 : W5 m ρ c (Proc.devRef .tc main_arg11) = m ((c : Thread nD τ).loc main_arg11) :=
  (show StableHlo.after hostOps1 (W4 m ρ c) (Proc.devRef .tc main_arg11) = W4 m ρ c (Proc.devRef .tc main_arg11) by host_results).trans (at4_arg11 m ρ c)
theorem at5_arg12 : W5 m ρ c (Proc.devRef .tc main_arg12) = m ((c : Thread nD τ).loc main_arg12) :=
  (show StableHlo.after hostOps1 (W4 m ρ c) (Proc.devRef .tc main_arg12) = W4 m ρ c (Proc.devRef .tc main_arg12) by host_results).trans (at4_arg12 m ρ c)

/-! ## Region 1: the first layer's bias and PReLU -/

set_option maxHeartbeats 400000 in
/-- Bias and PReLU of the aggregated features: this layer's output. -/
theorem at6_v46 : W6 m ρ c (Proc.devRef .tc main_v46) = (layer1 (m ((c : Thread nD τ).loc main_arg0)) (m ((c : Thread nD τ).loc main_arg1)) (m ((c : Thread nD τ).loc main_arg2)) (m ((c : Thread nD τ).loc main_arg3)) (m ((c : Thread nD τ).loc main_arg4))) := by
  refine (W6_arr m ρ c 3).trans ?_
  rw [biasPrelu1]
  funext i
  show prelu (FloatOps.addf (F := Ideal) (φ := .f32) (W5 m ρ c (Proc.devRef .tc main_v43) i) (W5 m ρ c (Proc.devRef .tc main_v44) (ix2 (n0 := 1) (n1 := 4) 0 (i 1)))) (W5 m ρ c (Proc.devRef .tc main_v45) (ix2 (n0 := 1) (n1 := 4) 0 (i 1))) = _
  rw [at5_v43, at5_v44, at5_v45]
  rw [shapeCast_a_1a_apply (a := 4) (m ((c : Thread nD τ).loc main_arg3)) shapeCasts_S4_S1x4 (0 : Fin 1) (i 1),
    shapeCast_a_1a_apply (a := 4) (m ((c : Thread nD τ).loc main_arg4)) shapeCasts_S4_S1x4 (0 : Fin 1) (i 1)]
  rfl

/-! ### Boundary 6: what the step into it leaves untouched -/
theorem at6_v5 : W6 m ρ c (Proc.devRef .tc main_v5) = srcs (m ((c : Thread nD τ).loc main_arg1)) :=
  (W6_of_ne m ρ c main_v5 (by decide)).trans (at5_v5 m ρ c)
theorem at6_v6 : W6 m ρ c (Proc.devRef .tc main_v6) = dsts (m ((c : Thread nD τ).loc main_arg1)) :=
  (W6_of_ne m ρ c main_v6 (by decide)).trans (at5_v6 m ρ c)
theorem at6_v30 : W6 m ρ c (Proc.devRef .tc main_v30) = norm (m ((c : Thread nD τ).loc main_arg1)) :=
  (W6_of_ne m ρ c main_v30 (by decide)).trans (at5_v30 m ρ c)
theorem at6_arg5 : W6 m ρ c (Proc.devRef .tc main_arg5) = m ((c : Thread nD τ).loc main_arg5) :=
  (W6_of_ne m ρ c main_arg5 (by decide)).trans (at5_arg5 m ρ c)
theorem at6_arg6 : W6 m ρ c (Proc.devRef .tc main_arg6) = m ((c : Thread nD τ).loc main_arg6) :=
  (W6_of_ne m ρ c main_arg6 (by decide)).trans (at5_arg6 m ρ c)
theorem at6_arg7 : W6 m ρ c (Proc.devRef .tc main_arg7) = m ((c : Thread nD τ).loc main_arg7) :=
  (W6_of_ne m ρ c main_arg7 (by decide)).trans (at5_arg7 m ρ c)
theorem at6_arg8 : W6 m ρ c (Proc.devRef .tc main_arg8) = m ((c : Thread nD τ).loc main_arg8) :=
  (W6_of_ne m ρ c main_arg8 (by decide)).trans (at5_arg8 m ρ c)
theorem at6_arg9 : W6 m ρ c (Proc.devRef .tc main_arg9) = m ((c : Thread nD τ).loc main_arg9) :=
  (W6_of_ne m ρ c main_arg9 (by decide)).trans (at5_arg9 m ρ c)
theorem at6_arg10 : W6 m ρ c (Proc.devRef .tc main_arg10) = m ((c : Thread nD τ).loc main_arg10) :=
  (W6_of_ne m ρ c main_arg10 (by decide)).trans (at5_arg10 m ρ c)
theorem at6_arg11 : W6 m ρ c (Proc.devRef .tc main_arg11) = m ((c : Thread nD τ).loc main_arg11) :=
  (W6_of_ne m ρ c main_arg11 (by decide)).trans (at5_arg11 m ρ c)
theorem at6_arg12 : W6 m ρ c (Proc.devRef .tc main_arg12) = m ((c : Thread nD τ).loc main_arg12) :=
  (W6_of_ne m ρ c main_arg12 (by decide)).trans (at5_arg12 m ρ c)

/-! ## Region 2: the second layer's product -/

set_option maxHeartbeats 400000 in
/-- The layer's matrix product. -/
theorem at7_v47 : W7 m ρ c (Proc.devRef .tc main_v47) = dense (layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) := by
  refine (W7_arr m ρ c 2).trans ?_
  rw [linear2_product]
  show product2 (W6 m ρ c (Proc.devRef .tc main_v46)) (W6 m ρ c (Proc.devRef .tc main_arg5)) = _
  rw [at6_v46, at6_arg5]
  rfl

/-! ### Boundary 7: what the step into it leaves untouched -/
theorem at7_v5 : W7 m ρ c (Proc.devRef .tc main_v5) = srcs (m ((c : Thread nD τ).loc main_arg1)) :=
  (W7_of_ne m ρ c main_v5 (by decide)).trans (at6_v5 m ρ c)
theorem at7_v6 : W7 m ρ c (Proc.devRef .tc main_v6) = dsts (m ((c : Thread nD τ).loc main_arg1)) :=
  (W7_of_ne m ρ c main_v6 (by decide)).trans (at6_v6 m ρ c)
theorem at7_v30 : W7 m ρ c (Proc.devRef .tc main_v30) = norm (m ((c : Thread nD τ).loc main_arg1)) :=
  (W7_of_ne m ρ c main_v30 (by decide)).trans (at6_v30 m ρ c)
theorem at7_arg6 : W7 m ρ c (Proc.devRef .tc main_arg6) = m ((c : Thread nD τ).loc main_arg6) :=
  (W7_of_ne m ρ c main_arg6 (by decide)).trans (at6_arg6 m ρ c)
theorem at7_arg7 : W7 m ρ c (Proc.devRef .tc main_arg7) = m ((c : Thread nD τ).loc main_arg7) :=
  (W7_of_ne m ρ c main_arg7 (by decide)).trans (at6_arg7 m ρ c)
theorem at7_arg8 : W7 m ρ c (Proc.devRef .tc main_arg8) = m ((c : Thread nD τ).loc main_arg8) :=
  (W7_of_ne m ρ c main_arg8 (by decide)).trans (at6_arg8 m ρ c)
theorem at7_arg9 : W7 m ρ c (Proc.devRef .tc main_arg9) = m ((c : Thread nD τ).loc main_arg9) :=
  (W7_of_ne m ρ c main_arg9 (by decide)).trans (at6_arg9 m ρ c)
theorem at7_arg10 : W7 m ρ c (Proc.devRef .tc main_arg10) = m ((c : Thread nD τ).loc main_arg10) :=
  (W7_of_ne m ρ c main_arg10 (by decide)).trans (at6_arg10 m ρ c)
theorem at7_arg11 : W7 m ρ c (Proc.devRef .tc main_arg11) = m ((c : Thread nD τ).loc main_arg11) :=
  (W7_of_ne m ρ c main_arg11 (by decide)).trans (at6_arg11 m ρ c)
theorem at7_arg12 : W7 m ρ c (Proc.devRef .tc main_arg12) = m ((c : Thread nD τ).loc main_arg12) :=
  (W7_of_ne m ρ c main_arg12 (by decide)).trans (at6_arg12 m ρ c)

/-! ## The second layer's aggregation -/

set_option maxHeartbeats 400000 in
/-- The aggregation after this layer's product: the stretch's gather, product with the edge weights and scatter-add,
    as one function of the previous boundary's buffers. -/
theorem step8_v59 : W8 m ρ c (Proc.devRef .tc main_v59) = aggregate4 (W7 m ρ c (Proc.devRef .tc main_v5)) (W7 m ρ c (Proc.devRef .tc main_v6)) (W7 m ρ c (Proc.devRef .tc main_v30)) (W7 m ρ c (Proc.devRef .tc main_v47)) := by
  show StableHlo.after hostOps3 (W7 m ρ c) (Proc.devRef .tc main_v59) = _
  host_results
  rfl

theorem at8_v59 : W8 m ρ c (Proc.devRef .tc main_v59) = aggregate4 (srcs (m ((c : Thread nD τ).loc main_arg1))) (dsts (m ((c : Thread nD τ).loc main_arg1))) (norm (m ((c : Thread nD τ).loc main_arg1))) (dense (layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) := by
  rw [step8_v59, at7_v5, at7_v6, at7_v30, at7_v47]

set_option maxHeartbeats 400000 in
/-- A per-column parameter vector as a one-row matrix. -/
theorem at8_v60 : W8 m ρ c (Proc.devRef .tc main_v60) = shapeCast S1x4 (m ((c : Thread nD τ).loc main_arg6)) shapeCasts_S4_S1x4 := by
  refine (show StableHlo.after hostOps3 (W7 m ρ c) (Proc.devRef .tc main_v60) = shapeCast S1x4 (W7 m ρ c (Proc.devRef .tc main_arg6)) shapeCasts_S4_S1x4 from ?_).trans ?_
  · host_results
    rfl
  · rw [at7_arg6]

set_option maxHeartbeats 400000 in
/-- A per-column parameter vector as a one-row matrix. -/
theorem at8_v61 : W8 m ρ c (Proc.devRef .tc main_v61) = shapeCast S1x4 (m ((c : Thread nD τ).loc main_arg7)) shapeCasts_S4_S1x4 := by
  refine (show StableHlo.after hostOps3 (W7 m ρ c) (Proc.devRef .tc main_v61) = shapeCast S1x4 (W7 m ρ c (Proc.devRef .tc main_arg7)) shapeCasts_S4_S1x4 from ?_).trans ?_
  · host_results
    rfl
  · rw [at7_arg7]

/-! ### Boundary 8: what the step into it leaves untouched -/
theorem at8_v5 : W8 m ρ c (Proc.devRef .tc main_v5) = srcs (m ((c : Thread nD τ).loc main_arg1)) :=
  (show StableHlo.after hostOps3 (W7 m ρ c) (Proc.devRef .tc main_v5) = W7 m ρ c (Proc.devRef .tc main_v5) by host_results).trans (at7_v5 m ρ c)
theorem at8_v6 : W8 m ρ c (Proc.devRef .tc main_v6) = dsts (m ((c : Thread nD τ).loc main_arg1)) :=
  (show StableHlo.after hostOps3 (W7 m ρ c) (Proc.devRef .tc main_v6) = W7 m ρ c (Proc.devRef .tc main_v6) by host_results).trans (at7_v6 m ρ c)
theorem at8_v30 : W8 m ρ c (Proc.devRef .tc main_v30) = norm (m ((c : Thread nD τ).loc main_arg1)) :=
  (show StableHlo.after hostOps3 (W7 m ρ c) (Proc.devRef .tc main_v30) = W7 m ρ c (Proc.devRef .tc main_v30) by host_results).trans (at7_v30 m ρ c)
theorem at8_arg8 : W8 m ρ c (Proc.devRef .tc main_arg8) = m ((c : Thread nD τ).loc main_arg8) :=
  (show StableHlo.after hostOps3 (W7 m ρ c) (Proc.devRef .tc main_arg8) = W7 m ρ c (Proc.devRef .tc main_arg8) by host_results).trans (at7_arg8 m ρ c)
theorem at8_arg9 : W8 m ρ c (Proc.devRef .tc main_arg9) = m ((c : Thread nD τ).loc main_arg9) :=
  (show StableHlo.after hostOps3 (W7 m ρ c) (Proc.devRef .tc main_arg9) = W7 m ρ c (Proc.devRef .tc main_arg9) by host_results).trans (at7_arg9 m ρ c)
theorem at8_arg10 : W8 m ρ c (Proc.devRef .tc main_arg10) = m ((c : Thread nD τ).loc main_arg10) :=
  (show StableHlo.after hostOps3 (W7 m ρ c) (Proc.devRef .tc main_arg10) = W7 m ρ c (Proc.devRef .tc main_arg10) by host_results).trans (at7_arg10 m ρ c)
theorem at8_arg11 : W8 m ρ c (Proc.devRef .tc main_arg11) = m ((c : Thread nD τ).loc main_arg11) :=
  (show StableHlo.after hostOps3 (W7 m ρ c) (Proc.devRef .tc main_arg11) = W7 m ρ c (Proc.devRef .tc main_arg11) by host_results).trans (at7_arg11 m ρ c)
theorem at8_arg12 : W8 m ρ c (Proc.devRef .tc main_arg12) = m ((c : Thread nD τ).loc main_arg12) :=
  (show StableHlo.after hostOps3 (W7 m ρ c) (Proc.devRef .tc main_arg12) = W7 m ρ c (Proc.devRef .tc main_arg12) by host_results).trans (at7_arg12 m ρ c)

/-! ## Region 3: the second layer's bias and PReLU -/

set_option maxHeartbeats 400000 in
/-- Bias and PReLU of the aggregated features: this layer's output. -/
theorem at9_v62 : W9 m ρ c (Proc.devRef .tc main_v62) = (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W9_arr m ρ c 3).trans ?_
  rw [biasPrelu3]
  funext i
  show prelu (FloatOps.addf (F := Ideal) (φ := .f32) (W8 m ρ c (Proc.devRef .tc main_v59) i) (W8 m ρ c (Proc.devRef .tc main_v60) (ix2 (n0 := 1) (n1 := 4) 0 (i 1)))) (W8 m ρ c (Proc.devRef .tc main_v61) (ix2 (n0 := 1) (n1 := 4) 0 (i 1))) = _
  rw [at8_v59, at8_v60, at8_v61]
  rw [shapeCast_a_1a_apply (a := 4) (m ((c : Thread nD τ).loc main_arg6)) shapeCasts_S4_S1x4 (0 : Fin 1) (i 1),
    shapeCast_a_1a_apply (a := 4) (m ((c : Thread nD τ).loc main_arg7)) shapeCasts_S4_S1x4 (0 : Fin 1) (i 1)]
  rfl

/-! ### Boundary 9: what the step into it leaves untouched -/
theorem at9_v5 : W9 m ρ c (Proc.devRef .tc main_v5) = srcs (m ((c : Thread nD τ).loc main_arg1)) :=
  (W9_of_ne m ρ c main_v5 (by decide)).trans (at8_v5 m ρ c)
theorem at9_v6 : W9 m ρ c (Proc.devRef .tc main_v6) = dsts (m ((c : Thread nD τ).loc main_arg1)) :=
  (W9_of_ne m ρ c main_v6 (by decide)).trans (at8_v6 m ρ c)
theorem at9_v30 : W9 m ρ c (Proc.devRef .tc main_v30) = norm (m ((c : Thread nD τ).loc main_arg1)) :=
  (W9_of_ne m ρ c main_v30 (by decide)).trans (at8_v30 m ρ c)
theorem at9_arg8 : W9 m ρ c (Proc.devRef .tc main_arg8) = m ((c : Thread nD τ).loc main_arg8) :=
  (W9_of_ne m ρ c main_arg8 (by decide)).trans (at8_arg8 m ρ c)
theorem at9_arg9 : W9 m ρ c (Proc.devRef .tc main_arg9) = m ((c : Thread nD τ).loc main_arg9) :=
  (W9_of_ne m ρ c main_arg9 (by decide)).trans (at8_arg9 m ρ c)
theorem at9_arg10 : W9 m ρ c (Proc.devRef .tc main_arg10) = m ((c : Thread nD τ).loc main_arg10) :=
  (W9_of_ne m ρ c main_arg10 (by decide)).trans (at8_arg10 m ρ c)
theorem at9_arg11 : W9 m ρ c (Proc.devRef .tc main_arg11) = m ((c : Thread nD τ).loc main_arg11) :=
  (W9_of_ne m ρ c main_arg11 (by decide)).trans (at8_arg11 m ρ c)
theorem at9_arg12 : W9 m ρ c (Proc.devRef .tc main_arg12) = m ((c : Thread nD τ).loc main_arg12) :=
  (W9_of_ne m ρ c main_arg12 (by decide)).trans (at8_arg12 m ρ c)

/-! ## Region 4: the third layer's product -/

set_option maxHeartbeats 400000 in
/-- The layer's matrix product. -/
theorem at10_v63 : W10 m ρ c (Proc.devRef .tc main_v63) = dense (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) := by
  refine (W10_arr m ρ c 2).trans ?_
  rw [linear4_product]
  show product4 (W9 m ρ c (Proc.devRef .tc main_v62)) (W9 m ρ c (Proc.devRef .tc main_arg8)) = _
  rw [at9_v62, at9_arg8]
  rfl

/-! ### Boundary 10: what the step into it leaves untouched -/
theorem at10_v5 : W10 m ρ c (Proc.devRef .tc main_v5) = srcs (m ((c : Thread nD τ).loc main_arg1)) :=
  (W10_of_ne m ρ c main_v5 (by decide)).trans (at9_v5 m ρ c)
theorem at10_v6 : W10 m ρ c (Proc.devRef .tc main_v6) = dsts (m ((c : Thread nD τ).loc main_arg1)) :=
  (W10_of_ne m ρ c main_v6 (by decide)).trans (at9_v6 m ρ c)
theorem at10_v30 : W10 m ρ c (Proc.devRef .tc main_v30) = norm (m ((c : Thread nD τ).loc main_arg1)) :=
  (W10_of_ne m ρ c main_v30 (by decide)).trans (at9_v30 m ρ c)
theorem at10_arg9 : W10 m ρ c (Proc.devRef .tc main_arg9) = m ((c : Thread nD τ).loc main_arg9) :=
  (W10_of_ne m ρ c main_arg9 (by decide)).trans (at9_arg9 m ρ c)
theorem at10_arg10 : W10 m ρ c (Proc.devRef .tc main_arg10) = m ((c : Thread nD τ).loc main_arg10) :=
  (W10_of_ne m ρ c main_arg10 (by decide)).trans (at9_arg10 m ρ c)
theorem at10_arg11 : W10 m ρ c (Proc.devRef .tc main_arg11) = m ((c : Thread nD τ).loc main_arg11) :=
  (W10_of_ne m ρ c main_arg11 (by decide)).trans (at9_arg11 m ρ c)
theorem at10_arg12 : W10 m ρ c (Proc.devRef .tc main_arg12) = m ((c : Thread nD τ).loc main_arg12) :=
  (W10_of_ne m ρ c main_arg12 (by decide)).trans (at9_arg12 m ρ c)

/-! ## The third layer's aggregation -/

set_option maxHeartbeats 400000 in
/-- The aggregation after this layer's product: the stretch's gather, product with the edge weights and scatter-add,
    as one function of the previous boundary's buffers. -/
theorem step11_v75 : W11 m ρ c (Proc.devRef .tc main_v75) = aggregate2 (W10 m ρ c (Proc.devRef .tc main_v5)) (W10 m ρ c (Proc.devRef .tc main_v6)) (W10 m ρ c (Proc.devRef .tc main_v30)) (W10 m ρ c (Proc.devRef .tc main_v63)) := by
  show StableHlo.after hostOps5 (W10 m ρ c) (Proc.devRef .tc main_v75) = _
  host_results
  rfl

theorem at11_v75 : W11 m ρ c (Proc.devRef .tc main_v75) = aggregate2 (srcs (m ((c : Thread nD τ).loc main_arg1))) (dsts (m ((c : Thread nD τ).loc main_arg1))) (norm (m ((c : Thread nD τ).loc main_arg1))) (dense (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) := by
  rw [step11_v75, at10_v5, at10_v6, at10_v30, at10_v63]

set_option maxHeartbeats 400000 in
/-- A per-column parameter vector as a one-row matrix. -/
theorem at11_v76 : W11 m ρ c (Proc.devRef .tc main_v76) = shapeCast S1x2 (m ((c : Thread nD τ).loc main_arg9)) shapeCasts_S2_S1x2 := by
  refine (show StableHlo.after hostOps5 (W10 m ρ c) (Proc.devRef .tc main_v76) = shapeCast S1x2 (W10 m ρ c (Proc.devRef .tc main_arg9)) shapeCasts_S2_S1x2 from ?_).trans ?_
  · host_results
    rfl
  · rw [at10_arg9]

set_option maxHeartbeats 400000 in
/-- A per-column parameter vector as a one-row matrix. -/
theorem at11_v77 : W11 m ρ c (Proc.devRef .tc main_v77) = shapeCast S1x2 (m ((c : Thread nD τ).loc main_arg10)) shapeCasts_S2_S1x2 := by
  refine (show StableHlo.after hostOps5 (W10 m ρ c) (Proc.devRef .tc main_v77) = shapeCast S1x2 (W10 m ρ c (Proc.devRef .tc main_arg10)) shapeCasts_S2_S1x2 from ?_).trans ?_
  · host_results
    rfl
  · rw [at10_arg10]

/-! ### Boundary 11: what the step into it leaves untouched -/
theorem at11_arg11 : W11 m ρ c (Proc.devRef .tc main_arg11) = m ((c : Thread nD τ).loc main_arg11) :=
  (show StableHlo.after hostOps5 (W10 m ρ c) (Proc.devRef .tc main_arg11) = W10 m ρ c (Proc.devRef .tc main_arg11) by host_results).trans (at10_arg11 m ρ c)
theorem at11_arg12 : W11 m ρ c (Proc.devRef .tc main_arg12) = m ((c : Thread nD τ).loc main_arg12) :=
  (show StableHlo.after hostOps5 (W10 m ρ c) (Proc.devRef .tc main_arg12) = W10 m ρ c (Proc.devRef .tc main_arg12) by host_results).trans (at10_arg12 m ρ c)

/-! ## Region 5: the third layer's bias and PReLU — the second result -/

set_option maxHeartbeats 400000 in
/-- Bias and PReLU of the aggregated features: this layer's output. -/
theorem at12_v78 : W12 m ρ c (Proc.devRef .tc main_v78) = (layer3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W12_arr m ρ c 3).trans ?_
  rw [biasPrelu5]
  funext i
  show prelu (FloatOps.addf (F := Ideal) (φ := .f32) (W11 m ρ c (Proc.devRef .tc main_v75) i) (W11 m ρ c (Proc.devRef .tc main_v76) (ix2 (n0 := 1) (n1 := 2) 0 (i 1)))) (W11 m ρ c (Proc.devRef .tc main_v77) (ix2 (n0 := 1) (n1 := 2) 0 (i 1))) = _
  rw [at11_v75, at11_v76, at11_v77]
  rw [shapeCast_a_1a_apply (a := 2) (m ((c : Thread nD τ).loc main_arg9)) shapeCasts_S2_S1x2 (0 : Fin 1) (i 1),
    shapeCast_a_1a_apply (a := 2) (m ((c : Thread nD τ).loc main_arg10)) shapeCasts_S2_S1x2 (0 : Fin 1) (i 1)]
  rfl

/-! ### Boundary 12: what the step into it leaves untouched -/
theorem at12_arg11 : W12 m ρ c (Proc.devRef .tc main_arg11) = m ((c : Thread nD τ).loc main_arg11) :=
  (W12_of_ne m ρ c main_arg11 (by decide)).trans (at11_arg11 m ρ c)
theorem at12_arg12 : W12 m ρ c (Proc.devRef .tc main_arg12) = m ((c : Thread nD τ).loc main_arg12) :=
  (W12_of_ne m ρ c main_arg12 (by decide)).trans (at11_arg12 m ρ c)

/-! ## The last layer's bias as a row; the third layer's output untouched -/

set_option maxHeartbeats 400000 in
/-- A per-column parameter vector as a one-row matrix. -/
theorem at13_v79 : W13 m ρ c (Proc.devRef .tc main_v79) = shapeCast S1x2 (m ((c : Thread nD τ).loc main_arg12)) shapeCasts_S2_S1x2 := by
  refine (show StableHlo.after hostOps6 (W12 m ρ c) (Proc.devRef .tc main_v79) = shapeCast S1x2 (W12 m ρ c (Proc.devRef .tc main_arg12)) shapeCasts_S2_S1x2 from ?_).trans ?_
  · host_results
    rfl
  · rw [at12_arg12]

theorem at13_v78 : W13 m ρ c (Proc.devRef .tc main_v78) = (layer3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (show StableHlo.after hostOps6 (W12 m ρ c) (Proc.devRef .tc main_v78) = W12 m ρ c (Proc.devRef .tc main_v78) by host_results).trans (at12_v78 m ρ c)

/-! ### Boundary 13: what the step into it leaves untouched -/
theorem at13_arg11 : W13 m ρ c (Proc.devRef .tc main_arg11) = m ((c : Thread nD τ).loc main_arg11) :=
  (show StableHlo.after hostOps6 (W12 m ρ c) (Proc.devRef .tc main_arg11) = W12 m ρ c (Proc.devRef .tc main_arg11) by host_results).trans (at12_arg11 m ρ c)

/-! ## Region 6: the last dense layer with bias — the first result; its input, the second result, is left as it was -/

set_option maxHeartbeats 400000 in
theorem at14_v80 : W14 m ρ c (Proc.devRef .tc main_v80) = (output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  refine (W14_arr m ρ c 3).trans ?_
  rw [linear6_affine]
  show affine6 (W13 m ρ c (Proc.devRef .tc main_v78)) (W13 m ρ c (Proc.devRef .tc main_arg11)) (W13 m ρ c (Proc.devRef .tc main_v79)) = _
  rw [at13_v78, at13_arg11, at13_v79]
  funext i
  show _ + shapeCast S1x2 (m ((c : Thread nD τ).loc main_arg12)) shapeCasts_S2_S1x2 (ix2 (0 : Fin 1) (i 1)) = _
  rw [shapeCast_a_1a_apply (a := 2) (m ((c : Thread nD τ).loc main_arg12)) shapeCasts_S2_S1x2 (0 : Fin 1) (i 1)]
  rfl

theorem at14_v78 : W14 m ρ c (Proc.devRef .tc main_v78) = (layer3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (W14_arr m ρ c 0).trans (((dat6 (V13 m ρ) c).arrAt_in 0 rfl _).trans ((A_eq6 (V13 m ρ) c 0).trans (at13_v78 m ρ c)))

end Values

end Cert.KernelIdeal.KValue

end
-- ==== Proof.RefStages.lean ====
import proofs.«109522_j30880814859094_1_alg».proof.Proof.RefOps
import proofs.«109522_j30880814859094_1_alg».proof.Proof.Spec
import Idealize.ShloMosaic.Lib.StableHlo.Run

set_option maxRecDepth 16384

noncomputable section

namespace Cert.ReferenceIdeal.Stages

open Cert.ReferenceIdeal Cert.ReferenceIdeal.Gen Cert.ReferenceIdeal.Ops Idealize.ShloMosaic Idealize.ShloMosaic.TcCoe Idealize.SL.Sem Idealize.ShloMosaic.StableHlo

/-! ## A line of operations cut in two -/

section Lines

variable {τ' : Topo} {sig' : RefSig} {Val : EltTy → Type}

/-- Running two lines of operations one after the other is running their concatenation. -/
theorem after_append (l₁ l₂ : List (HloOp τ' sig' Val)) (V : Valuation τ' sig' Val) :
    after (l₁ ++ l₂) V = after l₂ (after l₁ V) := by
  induction l₁ generalizing V with
  | nil => rfl
  | cons op l ih => rw [List.cons_append, after_cons, after_cons, ih]

/-- A property of every element of two lists is a property of every element of their concatenation. -/
theorem forall_append {α : Type} {p : α → Prop} {l₁ l₂ : List α} (h₁ : l₁.Forall p) (h₂ : l₂.Forall p) :
    (l₁ ++ l₂).Forall p := by
  rw [List.forall_iff_forall_mem] at h₁ h₂ ⊢
  intro x hx
  rcases List.mem_append.mp hx with h | h
  · exact h₁ x h
  · exact h₂ x h

end Lines

/-! ## The whole run -/

section Run

variable {F : FTy → Type} [FloatOps F]

/-- Every operation touches buffers of the device only. -/
theorem ops_sub : (ops : List (HloOp τ sig (Elt F))).Forall fun op => op.bufs ⊆ tcRefs τ sig :=
  forall_append seg1_sub (forall_append seg2_sub (forall_append seg3_sub (forall_append seg4_sub
    (forall_append seg5_sub (forall_append seg6_sub seg7_sub)))))

/-- Every operation of part 1 determines all it writes. -/
theorem seg1_fresh : (seg1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Every operation of part 2 determines all it writes. -/
theorem seg2_fresh : (seg2 : List (HloOp τ sig (Elt F))).Forall fun op => op.fresh = ∅ :=
  ⟨rfl, rfl, rfl, rfl, rfl, rfl, rfl, rfl, rfl, rfl⟩
/-- Every operation of part 3 determines all it writes. -/
theorem seg3_fresh : (seg3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Every operation of part 4 determines all it writes. -/
theorem seg4_fresh : (seg4 : List (HloOp τ sig (Elt F))).Forall fun op => op.fresh = ∅ :=
  ⟨rfl, rfl, rfl, rfl, rfl, rfl, rfl, rfl, rfl, rfl⟩
/-- Every operation of part 5 determines all it writes. -/
theorem seg5_fresh : (seg5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- Every operation of part 6 determines all it writes. -/
theorem seg6_fresh : (seg6 : List (HloOp τ sig (Elt F))).Forall fun op => op.fresh = ∅ :=
  ⟨rfl, rfl, rfl, rfl, rfl, rfl, rfl, rfl, rfl, rfl⟩
/-- Every operation of part 7 determines all it writes. -/
theorem seg7_fresh : (seg7 : List (HloOp τ sig (Elt F))).Forall fun op => op.fresh = ∅ :=
  ⟨rfl, rfl, rfl, rfl⟩

/-- Every operation determines all it writes. -/
theorem ops_fresh : ∀ op ∈ (ops : List (HloOp τ sig (Elt F))), op.fresh = ∅ :=
  List.forall_iff_forall_mem.mp (forall_append seg1_fresh (forall_append seg2_fresh (forall_append seg3_fresh
    (forall_append seg4_fresh (forall_append seg5_fresh (forall_append seg6_fresh seg7_fresh))))))

/-- The whole program terminates from any memory, and every buffer of every device then holds what the 197
    operations, applied in order to the launch contents, leave in it. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

end Run

/-! ## The contents at the boundaries of the seven parts -/

section Boundaries

variable (m : (ℓ : Loc nD τ sig) → Buf (Elt Ideal) ℓ) (c : Dev nD)

/-- The device's buffers at launch. -/
abbrev U0 : Valuation τ sig (Elt Ideal) := launchContents m c
/-- The device's buffers after the first layer's product and aggregation. -/
abbrev U1 : Valuation τ sig (Elt Ideal) := after seg1 (U0 m c)
/-- After the first layer's bias and PReLU. -/
abbrev U2 : Valuation τ sig (Elt Ideal) := after seg2 (U1 m c)
/-- After the second layer's product and aggregation. -/
abbrev U3 : Valuation τ sig (Elt Ideal) := after seg3 (U2 m c)
/-- After the second layer's bias and PReLU. -/
abbrev U4 : Valuation τ sig (Elt Ideal) := after seg4 (U3 m c)
/-- After the third layer's product and aggregation. -/
abbrev U5 : Valuation τ sig (Elt Ideal) := after seg5 (U4 m c)
/-- After the third layer's bias and PReLU. -/
abbrev U6 : Valuation τ sig (Elt Ideal) := after seg6 (U5 m c)
/-- After the last dense layer: the end of the program. -/
abbrev U7 : Valuation τ sig (Elt Ideal) := after seg7 (U6 m c)

/-- The whole line of operations from the launch contents ends at the last boundary's contents. -/
theorem after_ops : after ops (U0 m c) = U7 m c := by
  show after (seg1 ++ (seg2 ++ (seg3 ++ (seg4 ++ (seg5 ++ (seg6 ++ seg7)))))) (U0 m c) = _
  rw [after_append, after_append, after_append, after_append, after_append, after_append]

end Boundaries

/-! ## What a part of the program leaves alone -/

section Keeps

variable {F : FTy → Type} [FloatOps F]

/-- A single written buffer is among a list of references that names it. -/
theorem single_sub_of_mem {Wl : List (Ref sig .tc)} {y : Ref sig .tc} (h : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map.mpr ⟨y, h, rfl⟩))

/-- The buffers part 1 writes, in order. -/
abbrev seg1_written : List (Ref sig .tc) := [main_v0, main_v1, main_v2, main_v3, main_v4, main_v5, main_v6, main_v7, main_cst, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_c_4, main_v23, main_v24, main_c_5, main_v25, main_v26, main_v27, main_v28, main_v29, main_v30, main_c_6, main_v31, main_v32, main_c_7, main_v33, main_v34, main_v35, main_v36, main_v37, main_v38, main_v39, main_v40, main_cst_8, main_v41, main_v42, main_v43]

/-- Each operation of part 1 writes only its own result, which the list names. -/
theorem seg1_writes : (seg1 : List (HloOp τ sig (Elt F))).Forall fun op =>
    op.writes ⊆ (seg1_written.map (Proc.devRef (τ := τ) .tc)).toFinset :=
  ⟨single_sub_of_mem (y := main_v0) (by decide), single_sub_of_mem (y := main_v1) (by decide), single_sub_of_mem (y := main_v2) (by decide), single_sub_of_mem (y := main_v3) (by decide), single_sub_of_mem (y := main_v4) (by decide), single_sub_of_mem (y := main_v5) (by decide), single_sub_of_mem (y := main_v6) (by decide), single_sub_of_mem (y := main_v7) (by decide), single_sub_of_mem (y := main_cst) (by decide), single_sub_of_mem (y := main_v8) (by decide), single_sub_of_mem (y := main_cst_0) (by decide), single_sub_of_mem (y := main_v9) (by decide), single_sub_of_mem (y := main_v10) (by decide), single_sub_of_mem (y := main_v11) (by decide), single_sub_of_mem (y := main_cst_1) (by decide), single_sub_of_mem (y := main_v12) (by decide), single_sub_of_mem (y := main_v13) (by decide), single_sub_of_mem (y := main_v14) (by decide), single_sub_of_mem (y := main_cst_2) (by decide), single_sub_of_mem (y := main_call0_v0) (by decide), single_sub_of_mem (y := main_call0_v1) (by decide), single_sub_of_mem (y := main_v15) (by decide), single_sub_of_mem (y := main_c) (by decide), single_sub_of_mem (y := main_v16) (by decide), single_sub_of_mem (y := main_v17) (by decide), single_sub_of_mem (y := main_c_3) (by decide), single_sub_of_mem (y := main_v18) (by decide), single_sub_of_mem (y := main_v19) (by decide), single_sub_of_mem (y := main_v20) (by decide), single_sub_of_mem (y := main_v21) (by decide), single_sub_of_mem (y := main_v22) (by decide), single_sub_of_mem (y := main_c_4) (by decide), single_sub_of_mem (y := main_v23) (by decide), single_sub_of_mem (y := main_v24) (by decide), single_sub_of_mem (y := main_c_5) (by decide), single_sub_of_mem (y := main_v25) (by decide), single_sub_of_mem (y := main_v26) (by decide), single_sub_of_mem (y := main_v27) (by decide), single_sub_of_mem (y := main_v28) (by decide), single_sub_of_mem (y := main_v29) (by decide), single_sub_of_mem (y := main_v30) (by decide), single_sub_of_mem (y := main_c_6) (by decide), single_sub_of_mem (y := main_v31) (by decide), single_sub_of_mem (y := main_v32) (by decide), single_sub_of_mem (y := main_c_7) (by decide), single_sub_of_mem (y := main_v33) (by decide), single_sub_of_mem (y := main_v34) (by decide), single_sub_of_mem (y := main_v35) (by decide), single_sub_of_mem (y := main_v36) (by decide), single_sub_of_mem (y := main_v37) (by decide), single_sub_of_mem (y := main_v38) (by decide), single_sub_of_mem (y := main_v39) (by decide), single_sub_of_mem (y := main_v40) (by decide), single_sub_of_mem (y := main_cst_8) (by decide), single_sub_of_mem (y := main_v41) (by decide), single_sub_of_mem (y := main_v42) (by decide), single_sub_of_mem (y := main_v43) (by decide)⟩

/-- Part 1 leaves every buffer it does not write as it found it. -/
theorem seg1_keep (W : Valuation τ sig (Elt F)) {r : Ref sig .tc} (hr : r ∉ seg1_written) :
    after seg1 W (Proc.devRef .tc r) = W (Proc.devRef .tc r) :=
  after_of_writes_sub seg1 W seg1_writes hr

/-- The buffers part 2 writes, in order. -/
abbrev seg2_written : List (Ref sig .tc) := [main_v44, main_v45, main_v46, main_cst_9, main_v47, main_v48, main_v49, main_v50, main_v51, main_v52]

/-- Each operation of part 2 writes only its own result, which the list names. -/
theorem seg2_writes : (seg2 : List (HloOp τ sig (Elt F))).Forall fun op =>
    op.writes ⊆ (seg2_written.map (Proc.devRef (τ := τ) .tc)).toFinset :=
  ⟨single_sub_of_mem (y := main_v44) (by decide), single_sub_of_mem (y := main_v45) (by decide), single_sub_of_mem (y := main_v46) (by decide), single_sub_of_mem (y := main_cst_9) (by decide), single_sub_of_mem (y := main_v47) (by decide), single_sub_of_mem (y := main_v48) (by decide), single_sub_of_mem (y := main_v49) (by decide), single_sub_of_mem (y := main_v50) (by decide), single_sub_of_mem (y := main_v51) (by decide), single_sub_of_mem (y := main_v52) (by decide)⟩

/-- Part 2 leaves every buffer it does not write as it found it. -/
theorem seg2_keep (W : Valuation τ sig (Elt F)) {r : Ref sig .tc} (hr : r ∉ seg2_written) :
    after seg2 W (Proc.devRef .tc r) = W (Proc.devRef .tc r) :=
  after_of_writes_sub seg2 W seg2_writes hr

/-- The buffers part 3 writes, in order. -/
abbrev seg3_written : List (Ref sig .tc) := [main_v53, main_v54, main_v55, main_v56, main_cst_10, main_v57, main_cst_11, main_v58, main_v59, main_v60, main_cst_12, main_v61, main_v62, main_v63, main_cst_13, main_call2_v0, main_call2_v1, main_v64, main_c_14, main_v65, main_v66, main_c_15, main_v67, main_v68, main_v69, main_v70, main_v71, main_c_16, main_v72, main_v73, main_c_17, main_v74, main_v75, main_v76, main_v77, main_v78, main_v79, main_c_18, main_v80, main_v81, main_c_19, main_v82, main_v83, main_v84, main_v85, main_v86, main_v87, main_v88, main_v89, main_cst_20, main_v90, main_v91, main_v92]

/-- Each operation of part 3 writes only its own result, which the list names. -/
theorem seg3_writes : (seg3 : List (HloOp τ sig (Elt F))).Forall fun op =>
    op.writes ⊆ (seg3_written.map (Proc.devRef (τ := τ) .tc)).toFinset :=
  ⟨single_sub_of_mem (y := main_v53) (by decide), single_sub_of_mem (y := main_v54) (by decide), single_sub_of_mem (y := main_v55) (by decide), single_sub_of_mem (y := main_v56) (by decide), single_sub_of_mem (y := main_cst_10) (by decide), single_sub_of_mem (y := main_v57) (by decide), single_sub_of_mem (y := main_cst_11) (by decide), single_sub_of_mem (y := main_v58) (by decide), single_sub_of_mem (y := main_v59) (by decide), single_sub_of_mem (y := main_v60) (by decide), single_sub_of_mem (y := main_cst_12) (by decide), single_sub_of_mem (y := main_v61) (by decide), single_sub_of_mem (y := main_v62) (by decide), single_sub_of_mem (y := main_v63) (by decide), single_sub_of_mem (y := main_cst_13) (by decide), single_sub_of_mem (y := main_call2_v0) (by decide), single_sub_of_mem (y := main_call2_v1) (by decide), single_sub_of_mem (y := main_v64) (by decide), single_sub_of_mem (y := main_c_14) (by decide), single_sub_of_mem (y := main_v65) (by decide), single_sub_of_mem (y := main_v66) (by decide), single_sub_of_mem (y := main_c_15) (by decide), single_sub_of_mem (y := main_v67) (by decide), single_sub_of_mem (y := main_v68) (by decide), single_sub_of_mem (y := main_v69) (by decide), single_sub_of_mem (y := main_v70) (by decide), single_sub_of_mem (y := main_v71) (by decide), single_sub_of_mem (y := main_c_16) (by decide), single_sub_of_mem (y := main_v72) (by decide), single_sub_of_mem (y := main_v73) (by decide), single_sub_of_mem (y := main_c_17) (by decide), single_sub_of_mem (y := main_v74) (by decide), single_sub_of_mem (y := main_v75) (by decide), single_sub_of_mem (y := main_v76) (by decide), single_sub_of_mem (y := main_v77) (by decide), single_sub_of_mem (y := main_v78) (by decide), single_sub_of_mem (y := main_v79) (by decide), single_sub_of_mem (y := main_c_18) (by decide), single_sub_of_mem (y := main_v80) (by decide), single_sub_of_mem (y := main_v81) (by decide), single_sub_of_mem (y := main_c_19) (by decide), single_sub_of_mem (y := main_v82) (by decide), single_sub_of_mem (y := main_v83) (by decide), single_sub_of_mem (y := main_v84) (by decide), single_sub_of_mem (y := main_v85) (by decide), single_sub_of_mem (y := main_v86) (by decide), single_sub_of_mem (y := main_v87) (by decide), single_sub_of_mem (y := main_v88) (by decide), single_sub_of_mem (y := main_v89) (by decide), single_sub_of_mem (y := main_cst_20) (by decide), single_sub_of_mem (y := main_v90) (by decide), single_sub_of_mem (y := main_v91) (by decide), single_sub_of_mem (y := main_v92) (by decide)⟩

/-- Part 3 leaves every buffer it does not write as it found it. -/
theorem seg3_keep (W : Valuation τ sig (Elt F)) {r : Ref sig .tc} (hr : r ∉ seg3_written) :
    after seg3 W (Proc.devRef .tc r) = W (Proc.devRef .tc r) :=
  after_of_writes_sub seg3 W seg3_writes hr

/-- The buffers part 4 writes, in order. -/
abbrev seg4_written : List (Ref sig .tc) := [main_v93, main_v94, main_v95, main_cst_21, main_v96, main_v97, main_v98, main_v99, main_v100, main_v101]

/-- Each operation of part 4 writes only its own result, which the list names. -/
theorem seg4_writes : (seg4 : List (HloOp τ sig (Elt F))).Forall fun op =>
    op.writes ⊆ (seg4_written.map (Proc.devRef (τ := τ) .tc)).toFinset :=
  ⟨single_sub_of_mem (y := main_v93) (by decide), single_sub_of_mem (y := main_v94) (by decide), single_sub_of_mem (y := main_v95) (by decide), single_sub_of_mem (y := main_cst_21) (by decide), single_sub_of_mem (y := main_v96) (by decide), single_sub_of_mem (y := main_v97) (by decide), single_sub_of_mem (y := main_v98) (by decide), single_sub_of_mem (y := main_v99) (by decide), single_sub_of_mem (y := main_v100) (by decide), single_sub_of_mem (y := main_v101) (by decide)⟩

/-- Part 4 leaves every buffer it does not write as it found it. -/
theorem seg4_keep (W : Valuation τ sig (Elt F)) {r : Ref sig .tc} (hr : r ∉ seg4_written) :
    after seg4 W (Proc.devRef .tc r) = W (Proc.devRef .tc r) :=
  after_of_writes_sub seg4 W seg4_writes hr

/-- The buffers part 5 writes, in order. -/
abbrev seg5_written : List (Ref sig .tc) := [main_v102, main_v103, main_v104, main_v105, main_cst_22, main_v106, main_cst_23, main_v107, main_v108, main_v109, main_cst_24, main_v110, main_v111, main_v112, main_cst_25, main_call4_v0, main_call4_v1, main_v113, main_c_26, main_v114, main_v115, main_c_27, main_v116, main_v117, main_v118, main_v119, main_v120, main_c_28, main_v121, main_v122, main_c_29, main_v123, main_v124, main_v125, main_v126, main_v127, main_v128, main_c_30, main_v129, main_v130, main_c_31, main_v131, main_v132, main_v133, main_v134, main_v135, main_v136, main_v137, main_v138, main_cst_32, main_v139, main_v140, main_v141]

/-- Each operation of part 5 writes only its own result, which the list names. -/
theorem seg5_writes : (seg5 : List (HloOp τ sig (Elt F))).Forall fun op =>
    op.writes ⊆ (seg5_written.map (Proc.devRef (τ := τ) .tc)).toFinset :=
  ⟨single_sub_of_mem (y := main_v102) (by decide), single_sub_of_mem (y := main_v103) (by decide), single_sub_of_mem (y := main_v104) (by decide), single_sub_of_mem (y := main_v105) (by decide), single_sub_of_mem (y := main_cst_22) (by decide), single_sub_of_mem (y := main_v106) (by decide), single_sub_of_mem (y := main_cst_23) (by decide), single_sub_of_mem (y := main_v107) (by decide), single_sub_of_mem (y := main_v108) (by decide), single_sub_of_mem (y := main_v109) (by decide), single_sub_of_mem (y := main_cst_24) (by decide), single_sub_of_mem (y := main_v110) (by decide), single_sub_of_mem (y := main_v111) (by decide), single_sub_of_mem (y := main_v112) (by decide), single_sub_of_mem (y := main_cst_25) (by decide), single_sub_of_mem (y := main_call4_v0) (by decide), single_sub_of_mem (y := main_call4_v1) (by decide), single_sub_of_mem (y := main_v113) (by decide), single_sub_of_mem (y := main_c_26) (by decide), single_sub_of_mem (y := main_v114) (by decide), single_sub_of_mem (y := main_v115) (by decide), single_sub_of_mem (y := main_c_27) (by decide), single_sub_of_mem (y := main_v116) (by decide), single_sub_of_mem (y := main_v117) (by decide), single_sub_of_mem (y := main_v118) (by decide), single_sub_of_mem (y := main_v119) (by decide), single_sub_of_mem (y := main_v120) (by decide), single_sub_of_mem (y := main_c_28) (by decide), single_sub_of_mem (y := main_v121) (by decide), single_sub_of_mem (y := main_v122) (by decide), single_sub_of_mem (y := main_c_29) (by decide), single_sub_of_mem (y := main_v123) (by decide), single_sub_of_mem (y := main_v124) (by decide), single_sub_of_mem (y := main_v125) (by decide), single_sub_of_mem (y := main_v126) (by decide), single_sub_of_mem (y := main_v127) (by decide), single_sub_of_mem (y := main_v128) (by decide), single_sub_of_mem (y := main_c_30) (by decide), single_sub_of_mem (y := main_v129) (by decide), single_sub_of_mem (y := main_v130) (by decide), single_sub_of_mem (y := main_c_31) (by decide), single_sub_of_mem (y := main_v131) (by decide), single_sub_of_mem (y := main_v132) (by decide), single_sub_of_mem (y := main_v133) (by decide), single_sub_of_mem (y := main_v134) (by decide), single_sub_of_mem (y := main_v135) (by decide), single_sub_of_mem (y := main_v136) (by decide), single_sub_of_mem (y := main_v137) (by decide), single_sub_of_mem (y := main_v138) (by decide), single_sub_of_mem (y := main_cst_32) (by decide), single_sub_of_mem (y := main_v139) (by decide), single_sub_of_mem (y := main_v140) (by decide), single_sub_of_mem (y := main_v141) (by decide)⟩

/-- Part 5 leaves every buffer it does not write as it found it. -/
theorem seg5_keep (W : Valuation τ sig (Elt F)) {r : Ref sig .tc} (hr : r ∉ seg5_written) :
    after seg5 W (Proc.devRef .tc r) = W (Proc.devRef .tc r) :=
  after_of_writes_sub seg5 W seg5_writes hr

/-- The buffers part 6 writes, in order. -/
abbrev seg6_written : List (Ref sig .tc) := [main_v142, main_v143, main_v144, main_cst_33, main_v145, main_v146, main_v147, main_v148, main_v149, main_v150]

/-- Each operation of part 6 writes only its own result, which the list names. -/
theorem seg6_writes : (seg6 : List (HloOp τ sig (Elt F))).Forall fun op =>
    op.writes ⊆ (seg6_written.map (Proc.devRef (τ := τ) .tc)).toFinset :=
  ⟨single_sub_of_mem (y := main_v142) (by decide), single_sub_of_mem (y := main_v143) (by decide), single_sub_of_mem (y := main_v144) (by decide), single_sub_of_mem (y := main_cst_33) (by decide), single_sub_of_mem (y := main_v145) (by decide), single_sub_of_mem (y := main_v146) (by decide), single_sub_of_mem (y := main_v147) (by decide), single_sub_of_mem (y := main_v148) (by decide), single_sub_of_mem (y := main_v149) (by decide), single_sub_of_mem (y := main_v150) (by decide)⟩

/-- Part 6 leaves every buffer it does not write as it found it. -/
theorem seg6_keep (W : Valuation τ sig (Elt F)) {r : Ref sig .tc} (hr : r ∉ seg6_written) :
    after seg6 W (Proc.devRef .tc r) = W (Proc.devRef .tc r) :=
  after_of_writes_sub seg6 W seg6_writes hr

/-- The buffers part 7 writes, in order. -/
abbrev seg7_written : List (Ref sig .tc) := [main_v151, main_v152, main_v153, main_v154]

/-- Each operation of part 7 writes only its own result, which the list names. -/
theorem seg7_writes : (seg7 : List (HloOp τ sig (Elt F))).Forall fun op =>
    op.writes ⊆ (seg7_written.map (Proc.devRef (τ := τ) .tc)).toFinset :=
  ⟨single_sub_of_mem (y := main_v151) (by decide), single_sub_of_mem (y := main_v152) (by decide), single_sub_of_mem (y := main_v153) (by decide), single_sub_of_mem (y := main_v154) (by decide)⟩

/-- Part 7 leaves every buffer it does not write as it found it. -/
theorem seg7_keep (W : Valuation τ sig (Elt F)) {r : Ref sig .tc} (hr : r ∉ seg7_written) :
    after seg7 W (Proc.devRef .tc r) = W (Proc.devRef .tc r) :=
  after_of_writes_sub seg7 W seg7_writes hr

end Keeps

/-! ## The joins of the edge rows with the self-loops and the called selection's operations, each read at its own buffer as a function of its operands' contents -/

section PreLemmas

variable {F : FTy → Type} [FloatOps F]

/-- The edge rows joined with the self-loops, written to `main_v6`: the join of the two operands' contents. -/
theorem join_main_v6' (h : Shape.Concatenates [S3200000, S100000] S3300000 0) (ha hb hy) (V : Valuation τ sig (Elt F)) :
    (binary (τ := τ) main_v1 main_v5 main_v6 ((fun p q => concatenate S3300000 0 [⟨S3200000, p⟩, ⟨S100000, q⟩] h) : (⟨S3200000, .i32⟩ : BufTy).Contents (Elt F) → (⟨S100000, .i32⟩ : BufTy).Contents (Elt F) → (⟨S3300000, .i32⟩ : BufTy).Contents (Elt F)) ha hb hy).result V (no_index (Proc.devRef .tc main_v6))
      = Cert.Gcn.joinEdges (V (Proc.devRef .tc main_v1)) (V (Proc.devRef .tc main_v5)) :=
  binary_result main_v1 main_v5 main_v6 _ ha hb hy V

/-- The edge rows joined with the self-loops, written to `main_v7`: the join of the two operands' contents. -/
theorem join_main_v7' (h : Shape.Concatenates [S3200000, S100000] S3300000 0) (ha hb hy) (V : Valuation τ sig (Elt F)) :
    (binary (τ := τ) main_v3 main_v5 main_v7 ((fun p q => concatenate S3300000 0 [⟨S3200000, p⟩, ⟨S100000, q⟩] h) : (⟨S3200000, .i32⟩ : BufTy).Contents (Elt F) → (⟨S100000, .i32⟩ : BufTy).Contents (Elt F) → (⟨S3300000, .i32⟩ : BufTy).Contents (Elt F)) ha hb hy).result V (no_index (Proc.devRef .tc main_v7))
      = Cert.Gcn.joinEdges (V (Proc.devRef .tc main_v3)) (V (Proc.devRef .tc main_v5)) :=
  binary_result main_v3 main_v5 main_v7 _ ha hb hy V

/-- The edge rows joined with the self-loops, written to `main_v55`: the join of the two operands' contents. -/
theorem join_main_v55' (h : Shape.Concatenates [S3200000, S100000] S3300000 0) (ha hb hy) (V : Valuation τ sig (Elt F)) :
    (binary (τ := τ) main_v1 main_v54 main_v55 ((fun p q => concatenate S3300000 0 [⟨S3200000, p⟩, ⟨S100000, q⟩] h) : (⟨S3200000, .i32⟩ : BufTy).Contents (Elt F) → (⟨S100000, .i32⟩ : BufTy).Contents (Elt F) → (⟨S3300000, .i32⟩ : BufTy).Contents (Elt F)) ha hb hy).result V (no_index (Proc.devRef .tc main_v55))
      = Cert.Gcn.joinEdges (V (Proc.devRef .tc main_v1)) (V (Proc.devRef .tc main_v54)) :=
  binary_result main_v1 main_v54 main_v55 _ ha hb hy V

/-- The edge rows joined with the self-loops, written to `main_v56`: the join of the two operands' contents. -/
theorem join_main_v56' (h : Shape.Concatenates [S3200000, S100000] S3300000 0) (ha hb hy) (V : Valuation τ sig (Elt F)) :
    (binary (τ := τ) main_v3 main_v54 main_v56 ((fun p q => concatenate S3300000 0 [⟨S3200000, p⟩, ⟨S100000, q⟩] h) : (⟨S3200000, .i32⟩ : BufTy).Contents (Elt F) → (⟨S100000, .i32⟩ : BufTy).Contents (Elt F) → (⟨S3300000, .i32⟩ : BufTy).Contents (Elt F)) ha hb hy).result V (no_index (Proc.devRef .tc main_v56))
      = Cert.Gcn.joinEdges (V (Proc.devRef .tc main_v3)) (V (Proc.devRef .tc main_v54)) :=
  binary_result main_v3 main_v54 main_v56 _ ha hb hy V

/-- The edge rows joined with the self-loops, written to `main_v104`: the join of the two operands' contents. -/
theorem join_main_v104' (h : Shape.Concatenates [S3200000, S100000] S3300000 0) (ha hb hy) (V : Valuation τ sig (Elt F)) :
    (binary (τ := τ) main_v1 main_v103 main_v104 ((fun p q => concatenate S3300000 0 [⟨S3200000, p⟩, ⟨S100000, q⟩] h) : (⟨S3200000, .i32⟩ : BufTy).Contents (Elt F) → (⟨S100000, .i32⟩ : BufTy).Contents (Elt F) → (⟨S3300000, .i32⟩ : BufTy).Contents (Elt F)) ha hb hy).result V (no_index (Proc.devRef .tc main_v104))
      = Cert.Gcn.joinEdges (V (Proc.devRef .tc main_v1)) (V (Proc.devRef .tc main_v103)) :=
  binary_result main_v1 main_v103 main_v104 _ ha hb hy V

/-- The edge rows joined with the self-loops, written to `main_v105`: the join of the two operands' contents. -/
theorem join_main_v105' (h : Shape.Concatenates [S3200000, S100000] S3300000 0) (ha hb hy) (V : Valuation τ sig (Elt F)) :
    (binary (τ := τ) main_v3 main_v103 main_v105 ((fun p q => concatenate S3300000 0 [⟨S3200000, p⟩, ⟨S100000, q⟩] h) : (⟨S3200000, .i32⟩ : BufTy).Contents (Elt F) → (⟨S100000, .i32⟩ : BufTy).Contents (Elt F) → (⟨S3300000, .i32⟩ : BufTy).Contents (Elt F)) ha hb hy).result V (no_index (Proc.devRef .tc main_v105))
      = Cert.Gcn.joinEdges (V (Proc.devRef .tc main_v3)) (V (Proc.devRef .tc main_v103)) :=
  binary_result main_v3 main_v103 main_v105 _ ha hb hy V

/-- The called selection's first operation: the zero constant passed through unchanged. -/
theorem where0_id' (V : Valuation τ sig (Elt F)) :
    (TRef.unary (τ := τ) (TRef.of (T := ⟨S_, .f32⟩) main_cst_2) (TRef.of (T := ⟨S_, .f32⟩) main_call0_v0) id).result V (no_index (Proc.devRef .tc main_call0_v0))
      = (id (V (Proc.devRef .tc main_cst_2)) : (⟨S_, .f32⟩ : BufTy).Contents (Elt F)) :=
  (unary_result _ _ _ _ _ V).trans rfl
/-- Its second: the constant spread over the nodes. -/
theorem where0_bcast' (V : Valuation τ sig (Elt F)) :
    (TRef.unary (τ := τ) (TRef.of (T := ⟨S_, .f32⟩) main_call0_v0) (TRef.of (T := ⟨S100000, .f32⟩) main_call0_v1) (broadcastInDim S100000 ![] bcast_S_S100000)).result V (no_index (Proc.devRef .tc main_call0_v1))
      = (broadcastInDim S100000 ![] bcast_S_S100000 (V (Proc.devRef .tc main_call0_v0)) : (⟨S100000, .f32⟩ : BufTy).Contents (Elt F)) :=
  (unary_result _ _ _ _ _ V).trans rfl
/-- Its third: the selection itself. -/
theorem where0_select' (V : Valuation τ sig (Elt F)) :
    (TRef.ternary (τ := τ) (TRef.of (T := ⟨S100000, .i1⟩) main_v13) (TRef.of (T := ⟨S100000, .f32⟩) main_v14) (TRef.of (T := ⟨S100000, .f32⟩) main_call0_v1) (TRef.of (T := ⟨S100000, .f32⟩) main_v15) select).result V (no_index (Proc.devRef .tc main_v15))
      = (select (V (Proc.devRef .tc main_v13)) (V (Proc.devRef .tc main_v14)) (V (Proc.devRef .tc main_call0_v1)) : (⟨S100000, .f32⟩ : BufTy).Contents (Elt F)) :=
  (ternary_result _ _ _ _ _ _ _ _ _ V).trans rfl

/-- The called selection's first operation: the zero constant passed through unchanged. -/
theorem where2_id' (V : Valuation τ sig (Elt F)) :
    (TRef.unary (τ := τ) (TRef.of (T := ⟨S_, .f32⟩) main_cst_13) (TRef.of (T := ⟨S_, .f32⟩) main_call2_v0) id).result V (no_index (Proc.devRef .tc main_call2_v0))
      = (id (V (Proc.devRef .tc main_cst_13)) : (⟨S_, .f32⟩ : BufTy).Contents (Elt F)) :=
  (unary_result _ _ _ _ _ V).trans rfl
/-- Its second: the constant spread over the nodes. -/
theorem where2_bcast' (V : Valuation τ sig (Elt F)) :
    (TRef.unary (τ := τ) (TRef.of (T := ⟨S_, .f32⟩) main_call2_v0) (TRef.of (T := ⟨S100000, .f32⟩) main_call2_v1) (broadcastInDim S100000 ![] bcast_S_S100000)).result V (no_index (Proc.devRef .tc main_call2_v1))
      = (broadcastInDim S100000 ![] bcast_S_S100000 (V (Proc.devRef .tc main_call2_v0)) : (⟨S100000, .f32⟩ : BufTy).Contents (Elt F)) :=
  (unary_result _ _ _ _ _ V).trans rfl
/-- Its third: the selection itself. -/
theorem where2_select' (V : Valuation τ sig (Elt F)) :
    (TRef.ternary (τ := τ) (TRef.of (T := ⟨S100000, .i1⟩) main_v62) (TRef.of (T := ⟨S100000, .f32⟩) main_v63) (TRef.of (T := ⟨S100000, .f32⟩) main_call2_v1) (TRef.of (T := ⟨S100000, .f32⟩) main_v64) select).result V (no_index (Proc.devRef .tc main_v64))
      = (select (V (Proc.devRef .tc main_v62)) (V (Proc.devRef .tc main_v63)) (V (Proc.devRef .tc main_call2_v1)) : (⟨S100000, .f32⟩ : BufTy).Contents (Elt F)) :=
  (ternary_result _ _ _ _ _ _ _ _ _ V).trans rfl

/-- The called selection's first operation: the zero constant passed through unchanged. -/
theorem where4_id' (V : Valuation τ sig (Elt F)) :
    (TRef.unary (τ := τ) (TRef.of (T := ⟨S_, .f32⟩) main_cst_25) (TRef.of (T := ⟨S_, .f32⟩) main_call4_v0) id).result V (no_index (Proc.devRef .tc main_call4_v0))
      = (id (V (Proc.devRef .tc main_cst_25)) : (⟨S_, .f32⟩ : BufTy).Contents (Elt F)) :=
  (unary_result _ _ _ _ _ V).trans rfl
/-- Its second: the constant spread over the nodes. -/
theorem where4_bcast' (V : Valuation τ sig (Elt F)) :
    (TRef.unary (τ := τ) (TRef.of (T := ⟨S_, .f32⟩) main_call4_v0) (TRef.of (T := ⟨S100000, .f32⟩) main_call4_v1) (broadcastInDim S100000 ![] bcast_S_S100000)).result V (no_index (Proc.devRef .tc main_call4_v1))
      = (broadcastInDim S100000 ![] bcast_S_S100000 (V (Proc.devRef .tc main_call4_v0)) : (⟨S100000, .f32⟩ : BufTy).Contents (Elt F)) :=
  (unary_result _ _ _ _ _ V).trans rfl
/-- Its third: the selection itself. -/
theorem where4_select' (V : Valuation τ sig (Elt F)) :
    (TRef.ternary (τ := τ) (TRef.of (T := ⟨S100000, .i1⟩) main_v111) (TRef.of (T := ⟨S100000, .f32⟩) main_v112) (TRef.of (T := ⟨S100000, .f32⟩) main_call4_v1) (TRef.of (T := ⟨S100000, .f32⟩) main_v113) select).result V (no_index (Proc.devRef .tc main_v113))
      = (select (V (Proc.devRef .tc main_v111)) (V (Proc.devRef .tc main_v112)) (V (Proc.devRef .tc main_call4_v1)) : (⟨S100000, .f32⟩ : BufTy).Contents (Elt F)) :=
  (ternary_result _ _ _ _ _ _ _ _ _ V).trans rfl

/-- The selection written to `main_v52`, between `main_v46` and `main_v51` by `main_v48`. -/
theorem select_main_v52' (V : Valuation τ sig (Elt F)) :
    (TRef.ternary (τ := τ) (TRef.of (T := ⟨S100000x4, .i1⟩) main_v48) (TRef.of (T := ⟨S100000x4, .f32⟩) main_v46) (TRef.of (T := ⟨S100000x4, .f32⟩) main_v51) (TRef.of (T := ⟨S100000x4, .f32⟩) main_v52) select).result V (no_index (Proc.devRef .tc main_v52))
      = (select (V (Proc.devRef .tc main_v48)) (V (Proc.devRef .tc main_v46)) (V (Proc.devRef .tc main_v51)) : (⟨S100000x4, .f32⟩ : BufTy).Contents (Elt F)) :=
  (ternary_result _ _ _ _ _ _ _ _ _ V).trans rfl

/-- The selection written to `main_v101`, between `main_v95` and `main_v100` by `main_v97`. -/
theorem select_main_v101' (V : Valuation τ sig (Elt F)) :
    (TRef.ternary (τ := τ) (TRef.of (T := ⟨S100000x4, .i1⟩) main_v97) (TRef.of (T := ⟨S100000x4, .f32⟩) main_v95) (TRef.of (T := ⟨S100000x4, .f32⟩) main_v100) (TRef.of (T := ⟨S100000x4, .f32⟩) main_v101) select).result V (no_index (Proc.devRef .tc main_v101))
      = (select (V (Proc.devRef .tc main_v97)) (V (Proc.devRef .tc main_v95)) (V (Proc.devRef .tc main_v100)) : (⟨S100000x4, .f32⟩ : BufTy).Contents (Elt F)) :=
  (ternary_result _ _ _ _ _ _ _ _ _ V).trans rfl

/-- The selection written to `main_v150`, between `main_v144` and `main_v149` by `main_v146`. -/
theorem select_main_v150' (V : Valuation τ sig (Elt F)) :
    (TRef.ternary (τ := τ) (TRef.of (T := ⟨S100000x2, .i1⟩) main_v146) (TRef.of (T := ⟨S100000x2, .f32⟩) main_v144) (TRef.of (T := ⟨S100000x2, .f32⟩) main_v149) (TRef.of (T := ⟨S100000x2, .f32⟩) main_v150) select).result V (no_index (Proc.devRef .tc main_v150))
      = (select (V (Proc.devRef .tc main_v146)) (V (Proc.devRef .tc main_v144)) (V (Proc.devRef .tc main_v149)) : (⟨S100000x2, .f32⟩ : BufTy).Contents (Elt F)) :=
  (ternary_result _ _ _ _ _ _ _ _ _ V).trans rfl

end PreLemmas

/-! ## The dense steps as the host operations the program prints -/

section HostTerms

/-- Row 0 of the edge list as a vector: the edges' sources. -/
abbrev edgeRow0 (ei : (⟨S2x3200000, .i32⟩ : BufTy).Contents (Elt Ideal)) : (⟨S3200000, .i32⟩ : BufTy).Contents (Elt Ideal) :=
  shapeCast S3200000 (extractStridedSlice S1x3200000 ![0, 0] ei slices_S2x3200000_S1x3200000_0_0) shapeCasts_S1x3200000_S3200000
/-- Row 1 of the edge list as a vector: the edges' destinations. -/
abbrev edgeRow1 (ei : (⟨S2x3200000, .i32⟩ : BufTy).Contents (Elt Ideal)) : (⟨S3200000, .i32⟩ : BufTy).Contents (Elt Ideal) :=
  shapeCast S3200000 (extractStridedSlice S1x3200000 ![1, 0] ei slices_S2x3200000_S1x3200000_1_0) shapeCasts_S1x3200000_S3200000

/-- Bias and PReLU on four-wide node features, as the host operations the program prints: the bias row spread over
    the nodes and added; the sum compared with zero; the slope row spread over the nodes and multiplied with the sum; the
    sum kept where it is nonnegative and the product taken elsewhere. -/
def hostBiasPrelu4 (g : FVec Ideal S100000x4 .f32) (b a : FVec Ideal S4 .f32) : FVec Ideal S100000x4 .f32 :=
  select
    (cmpf .oge (addf g (broadcastInDim S100000x4 ![0, 1] bcast_S1x4_S100000x4_0_1 (broadcastInDim S1x4 ![1] bcast_S4_S1x4_1 b)))
      (broadcastInDim S100000x4 ![] bcast_S_S100000x4 (constant (F := Ideal) S_ .f32 0x00000000#32)))
    (addf g (broadcastInDim S100000x4 ![0, 1] bcast_S1x4_S100000x4_0_1 (broadcastInDim S1x4 ![1] bcast_S4_S1x4_1 b)))
    (mulf (broadcastInDim S100000x4 ![0, 1] bcast_S1x4_S100000x4_0_1 (broadcastInDim S1x4 ![1] bcast_S4_S1x4_1 a))
      (addf g (broadcastInDim S100000x4 ![0, 1] bcast_S1x4_S100000x4_0_1 (broadcastInDim S1x4 ![1] bcast_S4_S1x4_1 b))))

/-- Bias and PReLU on two-wide node features, as the host operations the program prints: the bias row spread over
    the nodes and added; the sum compared with zero; the slope row spread over the nodes and multiplied with the sum; the
    sum kept where it is nonnegative and the product taken elsewhere. -/
def hostBiasPrelu2 (g : FVec Ideal S100000x2 .f32) (b a : FVec Ideal S2 .f32) : FVec Ideal S100000x2 .f32 :=
  select
    (cmpf .oge (addf g (broadcastInDim S100000x2 ![0, 1] bcast_S1x2_S100000x2_0_1 (broadcastInDim S1x2 ![1] bcast_S2_S1x2_1 b)))
      (broadcastInDim S100000x2 ![] bcast_S_S100000x2 (constant (F := Ideal) S_ .f32 0x00000000#32)))
    (addf g (broadcastInDim S100000x2 ![0, 1] bcast_S1x2_S100000x2_0_1 (broadcastInDim S1x2 ![1] bcast_S2_S1x2_1 b)))
    (mulf (broadcastInDim S100000x2 ![0, 1] bcast_S1x2_S100000x2_0_1 (broadcastInDim S1x2 ![1] bcast_S2_S1x2_1 a))
      (addf g (broadcastInDim S100000x2 ![0, 1] bcast_S1x2_S100000x2_0_1 (broadcastInDim S1x2 ![1] bcast_S2_S1x2_1 b))))

/-- The last dense layer as the host operations the program prints: the matrix product, and the bias row spread over the
    nodes and added. -/
def hostDenseBias (h : FVec Ideal S100000x2 .f32) (wl : FVec Ideal S2x2 .f32) (bl : FVec Ideal S2 .f32) : FVec Ideal S100000x2 .f32 :=
  addf (Host.dotGeneral dot_S100000x2_S2x2_S100000x2_1_0_0_1_n_n none h wl)
    (broadcastInDim S100000x2 ![0, 1] bcast_S1x2_S100000x2_0_1 (broadcastInDim S1x2 ![1] bcast_S2_S1x2_1 bl))

end HostTerms

/-! ## Each part's results, from ANY contents `W` it starts at -/

section SegValues

variable (W : Valuation τ sig (Elt Ideal))

set_option maxHeartbeats 400000 in
/-- The first layer's aggregated features: the neighbourhood aggregation, over the graph read from the edge list, of
    the node features multiplied by the first weight matrix. -/
theorem seg1_v43 :
    after seg1 W (Proc.devRef .tc main_v43)
      = Cert.Gcn.aggregate4 (F := Ideal) (Cert.Gcn.srcs (W (Proc.devRef .tc main_arg1))) (Cert.Gcn.dsts (W (Proc.devRef .tc main_arg1)))
          (Cert.Gcn.norm (W (Proc.devRef .tc main_arg1)))
          (Host.dotGeneral (F := Ideal) (φ₁ := .f32) (φ₂ := .f32) dot_S100000x128_S128x4_S100000x4_1_0_0_1_n_n none (W (Proc.devRef .tc main_arg0)) (W (Proc.devRef .tc main_arg2)) : (⟨S100000x4, .f32⟩ : BufTy).Contents (Elt Ideal)) := by
  simp (disch := decide) only [after_cons, after_nil, ↓join_main_v6', ↓join_main_v7', ↓where0_id', ↓where0_bcast', ↓where0_select', nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

/-- The first part leaves row 0 of the edge list in `main_v1`. -/
theorem seg1_v1 : after seg1 W (Proc.devRef .tc main_v1) = edgeRow0 (W (Proc.devRef .tc main_arg1)) := by
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

/-- The first part leaves row 1 of the edge list in `main_v3`. -/
theorem seg1_v3 : after seg1 W (Proc.devRef .tc main_v3) = edgeRow1 (W (Proc.devRef .tc main_arg1)) := by
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

set_option maxHeartbeats 400000 in
/-- Part 2: bias and PReLU of the aggregated features it finds, with the bias and the slope it finds. -/
theorem seg2_v52 :
    after seg2 W (Proc.devRef .tc main_v52) = hostBiasPrelu4 (W (Proc.devRef .tc main_v43)) (W (Proc.devRef .tc main_arg3)) (W (Proc.devRef .tc main_arg4)) := by
  simp (disch := decide) only [after_cons, after_nil, ↓select_main_v52', nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

set_option maxHeartbeats 400000 in
/-- The aggregated features this part computes, over the edge rows as it finds them joined with the self-loops. -/
theorem seg3_v92_raw :
    after seg3 W (Proc.devRef .tc main_v92)
      = Cert.Gcn.aggregate4 (F := Ideal) (Cert.Gcn.joinEdges (F := Ideal) (W (Proc.devRef .tc main_v1)) (iotaInDim S100000 32 0)) (Cert.Gcn.joinEdges (F := Ideal) (W (Proc.devRef .tc main_v3)) (iotaInDim S100000 32 0))
          (Cert.Gcn.weightColumn (Cert.Gcn.edgeWeight (Cert.Gcn.joinEdges (F := Ideal) (W (Proc.devRef .tc main_v1)) (iotaInDim S100000 32 0)) (Cert.Gcn.joinEdges (F := Ideal) (W (Proc.devRef .tc main_v3)) (iotaInDim S100000 32 0))))
          (Host.dotGeneral (F := Ideal) (φ₁ := .f32) (φ₂ := .f32) dot_S100000x4_S4x4_S100000x4_1_0_0_1_n_n none (W (Proc.devRef .tc main_v52)) (W (Proc.devRef .tc main_arg5)) : (⟨S100000x4, .f32⟩ : BufTy).Contents (Elt Ideal)) := by
  simp (disch := decide) only [after_cons, after_nil, ↓join_main_v55', ↓join_main_v56', ↓where2_id', ↓where2_bcast', ↓where2_select', nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

/-- When the two buffers of edge rows hold the rows of the edge list `ei`, the aggregated features are the
    neighbourhood aggregation over the graph of `ei` of this layer's matrix product. -/
theorem seg3_v92 (ei : (⟨S2x3200000, .i32⟩ : BufTy).Contents (Elt Ideal)) (h1 : W (Proc.devRef .tc main_v1) = edgeRow0 ei) (h3 : W (Proc.devRef .tc main_v3) = edgeRow1 ei) :
    after seg3 W (Proc.devRef .tc main_v92)
      = Cert.Gcn.aggregate4 (F := Ideal) (Cert.Gcn.srcs ei) (Cert.Gcn.dsts ei) (Cert.Gcn.norm ei)
          (Host.dotGeneral (F := Ideal) (φ₁ := .f32) (φ₂ := .f32) dot_S100000x4_S4x4_S100000x4_1_0_0_1_n_n none (W (Proc.devRef .tc main_v52)) (W (Proc.devRef .tc main_arg5)) : (⟨S100000x4, .f32⟩ : BufTy).Contents (Elt Ideal)) := by
  rw [seg3_v92_raw, h1, h3]
  rfl

set_option maxHeartbeats 400000 in
/-- Part 4: bias and PReLU of the aggregated features it finds, with the bias and the slope it finds. -/
theorem seg4_v101 :
    after seg4 W (Proc.devRef .tc main_v101) = hostBiasPrelu4 (W (Proc.devRef .tc main_v92)) (W (Proc.devRef .tc main_arg6)) (W (Proc.devRef .tc main_arg7)) := by
  simp (disch := decide) only [after_cons, after_nil, ↓select_main_v101', nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

set_option maxHeartbeats 400000 in
/-- The aggregated features this part computes, over the edge rows as it finds them joined with the self-loops. -/
theorem seg5_v141_raw :
    after seg5 W (Proc.devRef .tc main_v141)
      = Cert.Gcn.aggregate2 (F := Ideal) (Cert.Gcn.joinEdges (F := Ideal) (W (Proc.devRef .tc main_v1)) (iotaInDim S100000 32 0)) (Cert.Gcn.joinEdges (F := Ideal) (W (Proc.devRef .tc main_v3)) (iotaInDim S100000 32 0))
          (Cert.Gcn.weightColumn (Cert.Gcn.edgeWeight (Cert.Gcn.joinEdges (F := Ideal) (W (Proc.devRef .tc main_v1)) (iotaInDim S100000 32 0)) (Cert.Gcn.joinEdges (F := Ideal) (W (Proc.devRef .tc main_v3)) (iotaInDim S100000 32 0))))
          (Host.dotGeneral (F := Ideal) (φ₁ := .f32) (φ₂ := .f32) dot_S100000x4_S4x2_S100000x2_1_0_0_1_n_n none (W (Proc.devRef .tc main_v101)) (W (Proc.devRef .tc main_arg8)) : (⟨S100000x2, .f32⟩ : BufTy).Contents (Elt Ideal)) := by
  simp (disch := decide) only [after_cons, after_nil, ↓join_main_v104', ↓join_main_v105', ↓where4_id', ↓where4_bcast', ↓where4_select', nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

/-- When the two buffers of edge rows hold the rows of the edge list `ei`, the aggregated features are the
    neighbourhood aggregation over the graph of `ei` of this layer's matrix product. -/
theorem seg5_v141 (ei : (⟨S2x3200000, .i32⟩ : BufTy).Contents (Elt Ideal)) (h1 : W (Proc.devRef .tc main_v1) = edgeRow0 ei) (h3 : W (Proc.devRef .tc main_v3) = edgeRow1 ei) :
    after seg5 W (Proc.devRef .tc main_v141)
      = Cert.Gcn.aggregate2 (F := Ideal) (Cert.Gcn.srcs ei) (Cert.Gcn.dsts ei) (Cert.Gcn.norm ei)
          (Host.dotGeneral (F := Ideal) (φ₁ := .f32) (φ₂ := .f32) dot_S100000x4_S4x2_S100000x2_1_0_0_1_n_n none (W (Proc.devRef .tc main_v101)) (W (Proc.devRef .tc main_arg8)) : (⟨S100000x2, .f32⟩ : BufTy).Contents (Elt Ideal)) := by
  rw [seg5_v141_raw, h1, h3]
  rfl

set_option maxHeartbeats 400000 in
/-- Part 6: bias and PReLU of the aggregated features it finds, with the bias and the slope it finds. -/
theorem seg6_v150 :
    after seg6 W (Proc.devRef .tc main_v150) = hostBiasPrelu2 (W (Proc.devRef .tc main_v141)) (W (Proc.devRef .tc main_arg9)) (W (Proc.devRef .tc main_arg10)) := by
  simp (disch := decide) only [after_cons, after_nil, ↓select_main_v150', nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

/-- The last part: the dense layer with bias of the features it finds. -/
theorem seg7_v154 :
    after seg7 W (Proc.devRef .tc main_v154) = hostDenseBias (W (Proc.devRef .tc main_v150)) (W (Proc.devRef .tc main_arg11)) (W (Proc.devRef .tc main_arg12)) := by
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

end SegValues

/-! ## The network as the reference computes it, as functions of the arguments

The same shape as the network's own definition, with the dense steps still spelt as host operations: a matrix product is
the host's contraction, and bias with PReLU is the host's chain of broadcasts, sum, comparison, product and selection. -/

section Closed

variable (x : (⟨S100000x128, .f32⟩ : BufTy).Contents (Elt Ideal)) (ei : (⟨S2x3200000, .i32⟩ : BufTy).Contents (Elt Ideal))
  (w1 : (⟨S128x4, .f32⟩ : BufTy).Contents (Elt Ideal)) (b1 a1 : (⟨S4, .f32⟩ : BufTy).Contents (Elt Ideal))
  (w2 : (⟨S4x4, .f32⟩ : BufTy).Contents (Elt Ideal)) (b2 a2 : (⟨S4, .f32⟩ : BufTy).Contents (Elt Ideal))
  (w3 : (⟨S4x2, .f32⟩ : BufTy).Contents (Elt Ideal)) (b3 a3 : (⟨S2, .f32⟩ : BufTy).Contents (Elt Ideal))
  (wl : (⟨S2x2, .f32⟩ : BufTy).Contents (Elt Ideal)) (bl : (⟨S2, .f32⟩ : BufTy).Contents (Elt Ideal))

/-- The first layer's aggregated features. -/
def refAgg1 : (⟨S100000x4, .f32⟩ : BufTy).Contents (Elt Ideal) :=
  Cert.Gcn.aggregate4 (F := Ideal) (Cert.Gcn.srcs ei) (Cert.Gcn.dsts ei) (Cert.Gcn.norm ei)
    (Host.dotGeneral (F := Ideal) (φ₁ := .f32) (φ₂ := .f32) dot_S100000x128_S128x4_S100000x4_1_0_0_1_n_n none x w1 : (⟨S100000x4, .f32⟩ : BufTy).Contents (Elt Ideal))
/-- The first layer's output. -/
def refLayer1 : (⟨S100000x4, .f32⟩ : BufTy).Contents (Elt Ideal) := hostBiasPrelu4 (refAgg1 x ei w1) b1 a1
/-- The second layer's aggregated features. -/
def refAgg2 : (⟨S100000x4, .f32⟩ : BufTy).Contents (Elt Ideal) :=
  Cert.Gcn.aggregate4 (F := Ideal) (Cert.Gcn.srcs ei) (Cert.Gcn.dsts ei) (Cert.Gcn.norm ei)
    (Host.dotGeneral (F := Ideal) (φ₁ := .f32) (φ₂ := .f32) dot_S100000x4_S4x4_S100000x4_1_0_0_1_n_n none (refLayer1 x ei w1 b1 a1) w2 : (⟨S100000x4, .f32⟩ : BufTy).Contents (Elt Ideal))
/-- The second layer's output. -/
def refLayer2 : (⟨S100000x4, .f32⟩ : BufTy).Contents (Elt Ideal) := hostBiasPrelu4 (refAgg2 x ei w1 b1 a1 w2) b2 a2
/-- The third layer's aggregated features. -/
def refAgg3 : (⟨S100000x2, .f32⟩ : BufTy).Contents (Elt Ideal) :=
  Cert.Gcn.aggregate2 (F := Ideal) (Cert.Gcn.srcs ei) (Cert.Gcn.dsts ei) (Cert.Gcn.norm ei)
    (Host.dotGeneral (F := Ideal) (φ₁ := .f32) (φ₂ := .f32) dot_S100000x4_S4x2_S100000x2_1_0_0_1_n_n none (refLayer2 x ei w1 b1 a1 w2 b2 a2) w3 : (⟨S100000x2, .f32⟩ : BufTy).Contents (Elt Ideal))
/-- The third layer's output: the second result. -/
def refLayer3 : (⟨S100000x2, .f32⟩ : BufTy).Contents (Elt Ideal) := hostBiasPrelu2 (refAgg3 x ei w1 b1 a1 w2 b2 a2 w3) b3 a3
/-- The last dense layer: the first result. -/
def refOutput : (⟨S100000x2, .f32⟩ : BufTy).Contents (Elt Ideal) := hostDenseBias (refLayer3 x ei w1 b1 a1 w2 b2 a2 w3 b3 a3) wl bl

end Closed

/-! ## The contents at the boundaries, as functions of the arguments at launch -/

section Chain

variable (m : (ℓ : Loc nD τ sig) → Buf (Elt Ideal) ℓ) (c : Dev nD)

/-! ### No part writes an argument -/
/-- Argument 0 still holds its launch contents at boundary 1. -/
theorem U1_arg0 : U1 m c (Proc.devRef .tc main_arg0) = (m ((c.tc : Thread nD τ).loc main_arg0)) := seg1_keep (U0 m c) (by decide)
/-- Argument 1 still holds its launch contents at boundary 1. -/
theorem U1_arg1 : U1 m c (Proc.devRef .tc main_arg1) = (m ((c.tc : Thread nD τ).loc main_arg1)) := seg1_keep (U0 m c) (by decide)
/-- Argument 2 still holds its launch contents at boundary 1. -/
theorem U1_arg2 : U1 m c (Proc.devRef .tc main_arg2) = (m ((c.tc : Thread nD τ).loc main_arg2)) := seg1_keep (U0 m c) (by decide)
/-- Argument 3 still holds its launch contents at boundary 1. -/
theorem U1_arg3 : U1 m c (Proc.devRef .tc main_arg3) = (m ((c.tc : Thread nD τ).loc main_arg3)) := seg1_keep (U0 m c) (by decide)
/-- Argument 4 still holds its launch contents at boundary 1. -/
theorem U1_arg4 : U1 m c (Proc.devRef .tc main_arg4) = (m ((c.tc : Thread nD τ).loc main_arg4)) := seg1_keep (U0 m c) (by decide)
/-- Argument 5 still holds its launch contents at boundary 1. -/
theorem U1_arg5 : U1 m c (Proc.devRef .tc main_arg5) = (m ((c.tc : Thread nD τ).loc main_arg5)) := seg1_keep (U0 m c) (by decide)
/-- Argument 6 still holds its launch contents at boundary 1. -/
theorem U1_arg6 : U1 m c (Proc.devRef .tc main_arg6) = (m ((c.tc : Thread nD τ).loc main_arg6)) := seg1_keep (U0 m c) (by decide)
/-- Argument 7 still holds its launch contents at boundary 1. -/
theorem U1_arg7 : U1 m c (Proc.devRef .tc main_arg7) = (m ((c.tc : Thread nD τ).loc main_arg7)) := seg1_keep (U0 m c) (by decide)
/-- Argument 8 still holds its launch contents at boundary 1. -/
theorem U1_arg8 : U1 m c (Proc.devRef .tc main_arg8) = (m ((c.tc : Thread nD τ).loc main_arg8)) := seg1_keep (U0 m c) (by decide)
/-- Argument 9 still holds its launch contents at boundary 1. -/
theorem U1_arg9 : U1 m c (Proc.devRef .tc main_arg9) = (m ((c.tc : Thread nD τ).loc main_arg9)) := seg1_keep (U0 m c) (by decide)
/-- Argument 10 still holds its launch contents at boundary 1. -/
theorem U1_arg10 : U1 m c (Proc.devRef .tc main_arg10) = (m ((c.tc : Thread nD τ).loc main_arg10)) := seg1_keep (U0 m c) (by decide)
/-- Argument 11 still holds its launch contents at boundary 1. -/
theorem U1_arg11 : U1 m c (Proc.devRef .tc main_arg11) = (m ((c.tc : Thread nD τ).loc main_arg11)) := seg1_keep (U0 m c) (by decide)
/-- Argument 12 still holds its launch contents at boundary 1. -/
theorem U1_arg12 : U1 m c (Proc.devRef .tc main_arg12) = (m ((c.tc : Thread nD τ).loc main_arg12)) := seg1_keep (U0 m c) (by decide)
/-- Argument 0 still holds its launch contents at boundary 2. -/
theorem U2_arg0 : U2 m c (Proc.devRef .tc main_arg0) = (m ((c.tc : Thread nD τ).loc main_arg0)) := (seg2_keep (U1 m c) (by decide)).trans (U1_arg0 m c)
/-- Argument 1 still holds its launch contents at boundary 2. -/
theorem U2_arg1 : U2 m c (Proc.devRef .tc main_arg1) = (m ((c.tc : Thread nD τ).loc main_arg1)) := (seg2_keep (U1 m c) (by decide)).trans (U1_arg1 m c)
/-- Argument 2 still holds its launch contents at boundary 2. -/
theorem U2_arg2 : U2 m c (Proc.devRef .tc main_arg2) = (m ((c.tc : Thread nD τ).loc main_arg2)) := (seg2_keep (U1 m c) (by decide)).trans (U1_arg2 m c)
/-- Argument 3 still holds its launch contents at boundary 2. -/
theorem U2_arg3 : U2 m c (Proc.devRef .tc main_arg3) = (m ((c.tc : Thread nD τ).loc main_arg3)) := (seg2_keep (U1 m c) (by decide)).trans (U1_arg3 m c)
/-- Argument 4 still holds its launch contents at boundary 2. -/
theorem U2_arg4 : U2 m c (Proc.devRef .tc main_arg4) = (m ((c.tc : Thread nD τ).loc main_arg4)) := (seg2_keep (U1 m c) (by decide)).trans (U1_arg4 m c)
/-- Argument 5 still holds its launch contents at boundary 2. -/
theorem U2_arg5 : U2 m c (Proc.devRef .tc main_arg5) = (m ((c.tc : Thread nD τ).loc main_arg5)) := (seg2_keep (U1 m c) (by decide)).trans (U1_arg5 m c)
/-- Argument 6 still holds its launch contents at boundary 2. -/
theorem U2_arg6 : U2 m c (Proc.devRef .tc main_arg6) = (m ((c.tc : Thread nD τ).loc main_arg6)) := (seg2_keep (U1 m c) (by decide)).trans (U1_arg6 m c)
/-- Argument 7 still holds its launch contents at boundary 2. -/
theorem U2_arg7 : U2 m c (Proc.devRef .tc main_arg7) = (m ((c.tc : Thread nD τ).loc main_arg7)) := (seg2_keep (U1 m c) (by decide)).trans (U1_arg7 m c)
/-- Argument 8 still holds its launch contents at boundary 2. -/
theorem U2_arg8 : U2 m c (Proc.devRef .tc main_arg8) = (m ((c.tc : Thread nD τ).loc main_arg8)) := (seg2_keep (U1 m c) (by decide)).trans (U1_arg8 m c)
/-- Argument 9 still holds its launch contents at boundary 2. -/
theorem U2_arg9 : U2 m c (Proc.devRef .tc main_arg9) = (m ((c.tc : Thread nD τ).loc main_arg9)) := (seg2_keep (U1 m c) (by decide)).trans (U1_arg9 m c)
/-- Argument 10 still holds its launch contents at boundary 2. -/
theorem U2_arg10 : U2 m c (Proc.devRef .tc main_arg10) = (m ((c.tc : Thread nD τ).loc main_arg10)) := (seg2_keep (U1 m c) (by decide)).trans (U1_arg10 m c)
/-- Argument 11 still holds its launch contents at boundary 2. -/
theorem U2_arg11 : U2 m c (Proc.devRef .tc main_arg11) = (m ((c.tc : Thread nD τ).loc main_arg11)) := (seg2_keep (U1 m c) (by decide)).trans (U1_arg11 m c)
/-- Argument 12 still holds its launch contents at boundary 2. -/
theorem U2_arg12 : U2 m c (Proc.devRef .tc main_arg12) = (m ((c.tc : Thread nD τ).loc main_arg12)) := (seg2_keep (U1 m c) (by decide)).trans (U1_arg12 m c)
/-- Argument 0 still holds its launch contents at boundary 3. -/
theorem U3_arg0 : U3 m c (Proc.devRef .tc main_arg0) = (m ((c.tc : Thread nD τ).loc main_arg0)) := (seg3_keep (U2 m c) (by decide)).trans (U2_arg0 m c)
/-- Argument 1 still holds its launch contents at boundary 3. -/
theorem U3_arg1 : U3 m c (Proc.devRef .tc main_arg1) = (m ((c.tc : Thread nD τ).loc main_arg1)) := (seg3_keep (U2 m c) (by decide)).trans (U2_arg1 m c)
/-- Argument 2 still holds its launch contents at boundary 3. -/
theorem U3_arg2 : U3 m c (Proc.devRef .tc main_arg2) = (m ((c.tc : Thread nD τ).loc main_arg2)) := (seg3_keep (U2 m c) (by decide)).trans (U2_arg2 m c)
/-- Argument 3 still holds its launch contents at boundary 3. -/
theorem U3_arg3 : U3 m c (Proc.devRef .tc main_arg3) = (m ((c.tc : Thread nD τ).loc main_arg3)) := (seg3_keep (U2 m c) (by decide)).trans (U2_arg3 m c)
/-- Argument 4 still holds its launch contents at boundary 3. -/
theorem U3_arg4 : U3 m c (Proc.devRef .tc main_arg4) = (m ((c.tc : Thread nD τ).loc main_arg4)) := (seg3_keep (U2 m c) (by decide)).trans (U2_arg4 m c)
/-- Argument 5 still holds its launch contents at boundary 3. -/
theorem U3_arg5 : U3 m c (Proc.devRef .tc main_arg5) = (m ((c.tc : Thread nD τ).loc main_arg5)) := (seg3_keep (U2 m c) (by decide)).trans (U2_arg5 m c)
/-- Argument 6 still holds its launch contents at boundary 3. -/
theorem U3_arg6 : U3 m c (Proc.devRef .tc main_arg6) = (m ((c.tc : Thread nD τ).loc main_arg6)) := (seg3_keep (U2 m c) (by decide)).trans (U2_arg6 m c)
/-- Argument 7 still holds its launch contents at boundary 3. -/
theorem U3_arg7 : U3 m c (Proc.devRef .tc main_arg7) = (m ((c.tc : Thread nD τ).loc main_arg7)) := (seg3_keep (U2 m c) (by decide)).trans (U2_arg7 m c)
/-- Argument 8 still holds its launch contents at boundary 3. -/
theorem U3_arg8 : U3 m c (Proc.devRef .tc main_arg8) = (m ((c.tc : Thread nD τ).loc main_arg8)) := (seg3_keep (U2 m c) (by decide)).trans (U2_arg8 m c)
/-- Argument 9 still holds its launch contents at boundary 3. -/
theorem U3_arg9 : U3 m c (Proc.devRef .tc main_arg9) = (m ((c.tc : Thread nD τ).loc main_arg9)) := (seg3_keep (U2 m c) (by decide)).trans (U2_arg9 m c)
/-- Argument 10 still holds its launch contents at boundary 3. -/
theorem U3_arg10 : U3 m c (Proc.devRef .tc main_arg10) = (m ((c.tc : Thread nD τ).loc main_arg10)) := (seg3_keep (U2 m c) (by decide)).trans (U2_arg10 m c)
/-- Argument 11 still holds its launch contents at boundary 3. -/
theorem U3_arg11 : U3 m c (Proc.devRef .tc main_arg11) = (m ((c.tc : Thread nD τ).loc main_arg11)) := (seg3_keep (U2 m c) (by decide)).trans (U2_arg11 m c)
/-- Argument 12 still holds its launch contents at boundary 3. -/
theorem U3_arg12 : U3 m c (Proc.devRef .tc main_arg12) = (m ((c.tc : Thread nD τ).loc main_arg12)) := (seg3_keep (U2 m c) (by decide)).trans (U2_arg12 m c)
/-- Argument 0 still holds its launch contents at boundary 4. -/
theorem U4_arg0 : U4 m c (Proc.devRef .tc main_arg0) = (m ((c.tc : Thread nD τ).loc main_arg0)) := (seg4_keep (U3 m c) (by decide)).trans (U3_arg0 m c)
/-- Argument 1 still holds its launch contents at boundary 4. -/
theorem U4_arg1 : U4 m c (Proc.devRef .tc main_arg1) = (m ((c.tc : Thread nD τ).loc main_arg1)) := (seg4_keep (U3 m c) (by decide)).trans (U3_arg1 m c)
/-- Argument 2 still holds its launch contents at boundary 4. -/
theorem U4_arg2 : U4 m c (Proc.devRef .tc main_arg2) = (m ((c.tc : Thread nD τ).loc main_arg2)) := (seg4_keep (U3 m c) (by decide)).trans (U3_arg2 m c)
/-- Argument 3 still holds its launch contents at boundary 4. -/
theorem U4_arg3 : U4 m c (Proc.devRef .tc main_arg3) = (m ((c.tc : Thread nD τ).loc main_arg3)) := (seg4_keep (U3 m c) (by decide)).trans (U3_arg3 m c)
/-- Argument 4 still holds its launch contents at boundary 4. -/
theorem U4_arg4 : U4 m c (Proc.devRef .tc main_arg4) = (m ((c.tc : Thread nD τ).loc main_arg4)) := (seg4_keep (U3 m c) (by decide)).trans (U3_arg4 m c)
/-- Argument 5 still holds its launch contents at boundary 4. -/
theorem U4_arg5 : U4 m c (Proc.devRef .tc main_arg5) = (m ((c.tc : Thread nD τ).loc main_arg5)) := (seg4_keep (U3 m c) (by decide)).trans (U3_arg5 m c)
/-- Argument 6 still holds its launch contents at boundary 4. -/
theorem U4_arg6 : U4 m c (Proc.devRef .tc main_arg6) = (m ((c.tc : Thread nD τ).loc main_arg6)) := (seg4_keep (U3 m c) (by decide)).trans (U3_arg6 m c)
/-- Argument 7 still holds its launch contents at boundary 4. -/
theorem U4_arg7 : U4 m c (Proc.devRef .tc main_arg7) = (m ((c.tc : Thread nD τ).loc main_arg7)) := (seg4_keep (U3 m c) (by decide)).trans (U3_arg7 m c)
/-- Argument 8 still holds its launch contents at boundary 4. -/
theorem U4_arg8 : U4 m c (Proc.devRef .tc main_arg8) = (m ((c.tc : Thread nD τ).loc main_arg8)) := (seg4_keep (U3 m c) (by decide)).trans (U3_arg8 m c)
/-- Argument 9 still holds its launch contents at boundary 4. -/
theorem U4_arg9 : U4 m c (Proc.devRef .tc main_arg9) = (m ((c.tc : Thread nD τ).loc main_arg9)) := (seg4_keep (U3 m c) (by decide)).trans (U3_arg9 m c)
/-- Argument 10 still holds its launch contents at boundary 4. -/
theorem U4_arg10 : U4 m c (Proc.devRef .tc main_arg10) = (m ((c.tc : Thread nD τ).loc main_arg10)) := (seg4_keep (U3 m c) (by decide)).trans (U3_arg10 m c)
/-- Argument 11 still holds its launch contents at boundary 4. -/
theorem U4_arg11 : U4 m c (Proc.devRef .tc main_arg11) = (m ((c.tc : Thread nD τ).loc main_arg11)) := (seg4_keep (U3 m c) (by decide)).trans (U3_arg11 m c)
/-- Argument 12 still holds its launch contents at boundary 4. -/
theorem U4_arg12 : U4 m c (Proc.devRef .tc main_arg12) = (m ((c.tc : Thread nD τ).loc main_arg12)) := (seg4_keep (U3 m c) (by decide)).trans (U3_arg12 m c)
/-- Argument 0 still holds its launch contents at boundary 5. -/
theorem U5_arg0 : U5 m c (Proc.devRef .tc main_arg0) = (m ((c.tc : Thread nD τ).loc main_arg0)) := (seg5_keep (U4 m c) (by decide)).trans (U4_arg0 m c)
/-- Argument 1 still holds its launch contents at boundary 5. -/
theorem U5_arg1 : U5 m c (Proc.devRef .tc main_arg1) = (m ((c.tc : Thread nD τ).loc main_arg1)) := (seg5_keep (U4 m c) (by decide)).trans (U4_arg1 m c)
/-- Argument 2 still holds its launch contents at boundary 5. -/
theorem U5_arg2 : U5 m c (Proc.devRef .tc main_arg2) = (m ((c.tc : Thread nD τ).loc main_arg2)) := (seg5_keep (U4 m c) (by decide)).trans (U4_arg2 m c)
/-- Argument 3 still holds its launch contents at boundary 5. -/
theorem U5_arg3 : U5 m c (Proc.devRef .tc main_arg3) = (m ((c.tc : Thread nD τ).loc main_arg3)) := (seg5_keep (U4 m c) (by decide)).trans (U4_arg3 m c)
/-- Argument 4 still holds its launch contents at boundary 5. -/
theorem U5_arg4 : U5 m c (Proc.devRef .tc main_arg4) = (m ((c.tc : Thread nD τ).loc main_arg4)) := (seg5_keep (U4 m c) (by decide)).trans (U4_arg4 m c)
/-- Argument 5 still holds its launch contents at boundary 5. -/
theorem U5_arg5 : U5 m c (Proc.devRef .tc main_arg5) = (m ((c.tc : Thread nD τ).loc main_arg5)) := (seg5_keep (U4 m c) (by decide)).trans (U4_arg5 m c)
/-- Argument 6 still holds its launch contents at boundary 5. -/
theorem U5_arg6 : U5 m c (Proc.devRef .tc main_arg6) = (m ((c.tc : Thread nD τ).loc main_arg6)) := (seg5_keep (U4 m c) (by decide)).trans (U4_arg6 m c)
/-- Argument 7 still holds its launch contents at boundary 5. -/
theorem U5_arg7 : U5 m c (Proc.devRef .tc main_arg7) = (m ((c.tc : Thread nD τ).loc main_arg7)) := (seg5_keep (U4 m c) (by decide)).trans (U4_arg7 m c)
/-- Argument 8 still holds its launch contents at boundary 5. -/
theorem U5_arg8 : U5 m c (Proc.devRef .tc main_arg8) = (m ((c.tc : Thread nD τ).loc main_arg8)) := (seg5_keep (U4 m c) (by decide)).trans (U4_arg8 m c)
/-- Argument 9 still holds its launch contents at boundary 5. -/
theorem U5_arg9 : U5 m c (Proc.devRef .tc main_arg9) = (m ((c.tc : Thread nD τ).loc main_arg9)) := (seg5_keep (U4 m c) (by decide)).trans (U4_arg9 m c)
/-- Argument 10 still holds its launch contents at boundary 5. -/
theorem U5_arg10 : U5 m c (Proc.devRef .tc main_arg10) = (m ((c.tc : Thread nD τ).loc main_arg10)) := (seg5_keep (U4 m c) (by decide)).trans (U4_arg10 m c)
/-- Argument 11 still holds its launch contents at boundary 5. -/
theorem U5_arg11 : U5 m c (Proc.devRef .tc main_arg11) = (m ((c.tc : Thread nD τ).loc main_arg11)) := (seg5_keep (U4 m c) (by decide)).trans (U4_arg11 m c)
/-- Argument 12 still holds its launch contents at boundary 5. -/
theorem U5_arg12 : U5 m c (Proc.devRef .tc main_arg12) = (m ((c.tc : Thread nD τ).loc main_arg12)) := (seg5_keep (U4 m c) (by decide)).trans (U4_arg12 m c)
/-- Argument 0 still holds its launch contents at boundary 6. -/
theorem U6_arg0 : U6 m c (Proc.devRef .tc main_arg0) = (m ((c.tc : Thread nD τ).loc main_arg0)) := (seg6_keep (U5 m c) (by decide)).trans (U5_arg0 m c)
/-- Argument 1 still holds its launch contents at boundary 6. -/
theorem U6_arg1 : U6 m c (Proc.devRef .tc main_arg1) = (m ((c.tc : Thread nD τ).loc main_arg1)) := (seg6_keep (U5 m c) (by decide)).trans (U5_arg1 m c)
/-- Argument 2 still holds its launch contents at boundary 6. -/
theorem U6_arg2 : U6 m c (Proc.devRef .tc main_arg2) = (m ((c.tc : Thread nD τ).loc main_arg2)) := (seg6_keep (U5 m c) (by decide)).trans (U5_arg2 m c)
/-- Argument 3 still holds its launch contents at boundary 6. -/
theorem U6_arg3 : U6 m c (Proc.devRef .tc main_arg3) = (m ((c.tc : Thread nD τ).loc main_arg3)) := (seg6_keep (U5 m c) (by decide)).trans (U5_arg3 m c)
/-- Argument 4 still holds its launch contents at boundary 6. -/
theorem U6_arg4 : U6 m c (Proc.devRef .tc main_arg4) = (m ((c.tc : Thread nD τ).loc main_arg4)) := (seg6_keep (U5 m c) (by decide)).trans (U5_arg4 m c)
/-- Argument 5 still holds its launch contents at boundary 6. -/
theorem U6_arg5 : U6 m c (Proc.devRef .tc main_arg5) = (m ((c.tc : Thread nD τ).loc main_arg5)) := (seg6_keep (U5 m c) (by decide)).trans (U5_arg5 m c)
/-- Argument 6 still holds its launch contents at boundary 6. -/
theorem U6_arg6 : U6 m c (Proc.devRef .tc main_arg6) = (m ((c.tc : Thread nD τ).loc main_arg6)) := (seg6_keep (U5 m c) (by decide)).trans (U5_arg6 m c)
/-- Argument 7 still holds its launch contents at boundary 6. -/
theorem U6_arg7 : U6 m c (Proc.devRef .tc main_arg7) = (m ((c.tc : Thread nD τ).loc main_arg7)) := (seg6_keep (U5 m c) (by decide)).trans (U5_arg7 m c)
/-- Argument 8 still holds its launch contents at boundary 6. -/
theorem U6_arg8 : U6 m c (Proc.devRef .tc main_arg8) = (m ((c.tc : Thread nD τ).loc main_arg8)) := (seg6_keep (U5 m c) (by decide)).trans (U5_arg8 m c)
/-- Argument 9 still holds its launch contents at boundary 6. -/
theorem U6_arg9 : U6 m c (Proc.devRef .tc main_arg9) = (m ((c.tc : Thread nD τ).loc main_arg9)) := (seg6_keep (U5 m c) (by decide)).trans (U5_arg9 m c)
/-- Argument 10 still holds its launch contents at boundary 6. -/
theorem U6_arg10 : U6 m c (Proc.devRef .tc main_arg10) = (m ((c.tc : Thread nD τ).loc main_arg10)) := (seg6_keep (U5 m c) (by decide)).trans (U5_arg10 m c)
/-- Argument 11 still holds its launch contents at boundary 6. -/
theorem U6_arg11 : U6 m c (Proc.devRef .tc main_arg11) = (m ((c.tc : Thread nD τ).loc main_arg11)) := (seg6_keep (U5 m c) (by decide)).trans (U5_arg11 m c)
/-- Argument 12 still holds its launch contents at boundary 6. -/
theorem U6_arg12 : U6 m c (Proc.devRef .tc main_arg12) = (m ((c.tc : Thread nD τ).loc main_arg12)) := (seg6_keep (U5 m c) (by decide)).trans (U5_arg12 m c)
/-- Argument 0 still holds its launch contents at boundary 7. -/
theorem U7_arg0 : U7 m c (Proc.devRef .tc main_arg0) = (m ((c.tc : Thread nD τ).loc main_arg0)) := (seg7_keep (U6 m c) (by decide)).trans (U6_arg0 m c)
/-- Argument 1 still holds its launch contents at boundary 7. -/
theorem U7_arg1 : U7 m c (Proc.devRef .tc main_arg1) = (m ((c.tc : Thread nD τ).loc main_arg1)) := (seg7_keep (U6 m c) (by decide)).trans (U6_arg1 m c)
/-- Argument 2 still holds its launch contents at boundary 7. -/
theorem U7_arg2 : U7 m c (Proc.devRef .tc main_arg2) = (m ((c.tc : Thread nD τ).loc main_arg2)) := (seg7_keep (U6 m c) (by decide)).trans (U6_arg2 m c)
/-- Argument 3 still holds its launch contents at boundary 7. -/
theorem U7_arg3 : U7 m c (Proc.devRef .tc main_arg3) = (m ((c.tc : Thread nD τ).loc main_arg3)) := (seg7_keep (U6 m c) (by decide)).trans (U6_arg3 m c)
/-- Argument 4 still holds its launch contents at boundary 7. -/
theorem U7_arg4 : U7 m c (Proc.devRef .tc main_arg4) = (m ((c.tc : Thread nD τ).loc main_arg4)) := (seg7_keep (U6 m c) (by decide)).trans (U6_arg4 m c)
/-- Argument 5 still holds its launch contents at boundary 7. -/
theorem U7_arg5 : U7 m c (Proc.devRef .tc main_arg5) = (m ((c.tc : Thread nD τ).loc main_arg5)) := (seg7_keep (U6 m c) (by decide)).trans (U6_arg5 m c)
/-- Argument 6 still holds its launch contents at boundary 7. -/
theorem U7_arg6 : U7 m c (Proc.devRef .tc main_arg6) = (m ((c.tc : Thread nD τ).loc main_arg6)) := (seg7_keep (U6 m c) (by decide)).trans (U6_arg6 m c)
/-- Argument 7 still holds its launch contents at boundary 7. -/
theorem U7_arg7 : U7 m c (Proc.devRef .tc main_arg7) = (m ((c.tc : Thread nD τ).loc main_arg7)) := (seg7_keep (U6 m c) (by decide)).trans (U6_arg7 m c)
/-- Argument 8 still holds its launch contents at boundary 7. -/
theorem U7_arg8 : U7 m c (Proc.devRef .tc main_arg8) = (m ((c.tc : Thread nD τ).loc main_arg8)) := (seg7_keep (U6 m c) (by decide)).trans (U6_arg8 m c)
/-- Argument 9 still holds its launch contents at boundary 7. -/
theorem U7_arg9 : U7 m c (Proc.devRef .tc main_arg9) = (m ((c.tc : Thread nD τ).loc main_arg9)) := (seg7_keep (U6 m c) (by decide)).trans (U6_arg9 m c)
/-- Argument 10 still holds its launch contents at boundary 7. -/
theorem U7_arg10 : U7 m c (Proc.devRef .tc main_arg10) = (m ((c.tc : Thread nD τ).loc main_arg10)) := (seg7_keep (U6 m c) (by decide)).trans (U6_arg10 m c)
/-- Argument 11 still holds its launch contents at boundary 7. -/
theorem U7_arg11 : U7 m c (Proc.devRef .tc main_arg11) = (m ((c.tc : Thread nD τ).loc main_arg11)) := (seg7_keep (U6 m c) (by decide)).trans (U6_arg11 m c)
/-- Argument 12 still holds its launch contents at boundary 7. -/
theorem U7_arg12 : U7 m c (Proc.devRef .tc main_arg12) = (m ((c.tc : Thread nD τ).loc main_arg12)) := (seg7_keep (U6 m c) (by decide)).trans (U6_arg12 m c)

/-! ### The edge rows, written once and read by every sparse part -/

/-- At the first boundary `main_v1` holds row 0 of the edge list. -/
theorem U1_v1 : U1 m c (Proc.devRef .tc main_v1) = edgeRow0 (m ((c.tc : Thread nD τ).loc main_arg1)) := seg1_v1 (U0 m c)
/-- At the first boundary `main_v3` holds row 1 of the edge list. -/
theorem U1_v3 : U1 m c (Proc.devRef .tc main_v3) = edgeRow1 (m ((c.tc : Thread nD τ).loc main_arg1)) := seg1_v3 (U0 m c)
/-- The edge row in `main_v1` is still there at boundary 2. -/
theorem U2_v1 : U2 m c (Proc.devRef .tc main_v1) = edgeRow0 (m ((c.tc : Thread nD τ).loc main_arg1)) := (seg2_keep (U1 m c) (by decide)).trans (U1_v1 m c)
/-- The edge row in `main_v3` is still there at boundary 2. -/
theorem U2_v3 : U2 m c (Proc.devRef .tc main_v3) = edgeRow1 (m ((c.tc : Thread nD τ).loc main_arg1)) := (seg2_keep (U1 m c) (by decide)).trans (U1_v3 m c)
/-- The edge row in `main_v1` is still there at boundary 3. -/
theorem U3_v1 : U3 m c (Proc.devRef .tc main_v1) = edgeRow0 (m ((c.tc : Thread nD τ).loc main_arg1)) := (seg3_keep (U2 m c) (by decide)).trans (U2_v1 m c)
/-- The edge row in `main_v3` is still there at boundary 3. -/
theorem U3_v3 : U3 m c (Proc.devRef .tc main_v3) = edgeRow1 (m ((c.tc : Thread nD τ).loc main_arg1)) := (seg3_keep (U2 m c) (by decide)).trans (U2_v3 m c)
/-- The edge row in `main_v1` is still there at boundary 4. -/
theorem U4_v1 : U4 m c (Proc.devRef .tc main_v1) = edgeRow0 (m ((c.tc : Thread nD τ).loc main_arg1)) := (seg4_keep (U3 m c) (by decide)).trans (U3_v1 m c)
/-- The edge row in `main_v3` is still there at boundary 4. -/
theorem U4_v3 : U4 m c (Proc.devRef .tc main_v3) = edgeRow1 (m ((c.tc : Thread nD τ).loc main_arg1)) := (seg4_keep (U3 m c) (by decide)).trans (U3_v3 m c)

/-! ### The layers -/

/-- At the first boundary: the first layer's aggregated features. -/
theorem U1_v43 : U1 m c (Proc.devRef .tc main_v43) = refAgg1 (m ((c.tc : Thread nD τ).loc main_arg0)) (m ((c.tc : Thread nD τ).loc main_arg1)) (m ((c.tc : Thread nD τ).loc main_arg2)) :=
  seg1_v43 (U0 m c)

/-- At the second boundary: the first layer's output. -/
theorem U2_v52 : U2 m c (Proc.devRef .tc main_v52) = refLayer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (seg2_v52 (U1 m c)).trans ?_
  rw [U1_v43 m c, U1_arg3 m c, U1_arg4 m c]
  rfl

/-- At the third boundary: the second layer's aggregated features. -/
theorem U3_v92 : U3 m c (Proc.devRef .tc main_v92) = refAgg2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (seg3_v92 (U2 m c) (m ((c.tc : Thread nD τ).loc main_arg1)) (U2_v1 m c) (U2_v3 m c)).trans ?_
  rw [U2_v52 m c, U2_arg5 m c]
  rfl

/-- At the fourth boundary: the second layer's output. -/
theorem U4_v101 : U4 m c (Proc.devRef .tc main_v101) = refLayer2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (seg4_v101 (U3 m c)).trans ?_
  rw [U3_v92 m c, U3_arg6 m c, U3_arg7 m c]
  rfl

/-- At the fifth boundary: the third layer's aggregated features. -/
theorem U5_v141 : U5 m c (Proc.devRef .tc main_v141) = refAgg3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (seg5_v141 (U4 m c) (m ((c.tc : Thread nD τ).loc main_arg1)) (U4_v1 m c) (U4_v3 m c)).trans ?_
  rw [U4_v101 m c, U4_arg8 m c]
  rfl

/-- At the sixth boundary: the third layer's output. -/
theorem U6_v150 : U6 m c (Proc.devRef .tc main_v150) = refLayer3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (seg6_v150 (U5 m c)).trans ?_
  rw [U5_v141 m c, U5_arg9 m c, U5_arg10 m c]
  rfl

/-- At the end: the first result is the last dense layer of the third layer's output. -/
theorem U7_v154 : U7 m c (Proc.devRef .tc main_v154) = refOutput (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (seg7_v154 (U6 m c)).trans ?_
  rw [U6_v150 m c, U6_arg11 m c, U6_arg12 m c]
  rfl

/-- At the end: the second result is still the third layer's output. -/
theorem U7_v150 : U7 m c (Proc.devRef .tc main_v150) = refLayer3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (seg7_keep (U6 m c) (by decide)).trans (U6_v150 m c)

/-! ### The whole line of operations, read at the results and at the arguments -/

/-- After all 197 operations from the launch contents, the first result's buffer holds the network's output as the
    reference computes it. -/
theorem ops_v154 : after ops (launchContents m c) (Proc.devRef .tc main_v154) = refOutput (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (congrFun (after_ops m c) _).trans (U7_v154 m c)

/-- After all 197 operations from the launch contents, the second result's buffer holds the third layer's output. -/
theorem ops_v150 : after ops (launchContents m c) (Proc.devRef .tc main_v150) = refLayer3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (congrFun (after_ops m c) _).trans (U7_v150 m c)

/-- After all 197 operations argument 0 holds its launch contents. -/
theorem ops_arg0 : after ops (launchContents m c) (Proc.devRef .tc main_arg0) = (m ((c.tc : Thread nD τ).loc main_arg0)) :=
  (congrFun (after_ops m c) _).trans (U7_arg0 m c)
/-- After all 197 operations argument 1 holds its launch contents. -/
theorem ops_arg1 : after ops (launchContents m c) (Proc.devRef .tc main_arg1) = (m ((c.tc : Thread nD τ).loc main_arg1)) :=
  (congrFun (after_ops m c) _).trans (U7_arg1 m c)
/-- After all 197 operations argument 2 holds its launch contents. -/
theorem ops_arg2 : after ops (launchContents m c) (Proc.devRef .tc main_arg2) = (m ((c.tc : Thread nD τ).loc main_arg2)) :=
  (congrFun (after_ops m c) _).trans (U7_arg2 m c)
/-- After all 197 operations argument 3 holds its launch contents. -/
theorem ops_arg3 : after ops (launchContents m c) (Proc.devRef .tc main_arg3) = (m ((c.tc : Thread nD τ).loc main_arg3)) :=
  (congrFun (after_ops m c) _).trans (U7_arg3 m c)
/-- After all 197 operations argument 4 holds its launch contents. -/
theorem ops_arg4 : after ops (launchContents m c) (Proc.devRef .tc main_arg4) = (m ((c.tc : Thread nD τ).loc main_arg4)) :=
  (congrFun (after_ops m c) _).trans (U7_arg4 m c)
/-- After all 197 operations argument 5 holds its launch contents. -/
theorem ops_arg5 : after ops (launchContents m c) (Proc.devRef .tc main_arg5) = (m ((c.tc : Thread nD τ).loc main_arg5)) :=
  (congrFun (after_ops m c) _).trans (U7_arg5 m c)
/-- After all 197 operations argument 6 holds its launch contents. -/
theorem ops_arg6 : after ops (launchContents m c) (Proc.devRef .tc main_arg6) = (m ((c.tc : Thread nD τ).loc main_arg6)) :=
  (congrFun (after_ops m c) _).trans (U7_arg6 m c)
/-- After all 197 operations argument 7 holds its launch contents. -/
theorem ops_arg7 : after ops (launchContents m c) (Proc.devRef .tc main_arg7) = (m ((c.tc : Thread nD τ).loc main_arg7)) :=
  (congrFun (after_ops m c) _).trans (U7_arg7 m c)
/-- After all 197 operations argument 8 holds its launch contents. -/
theorem ops_arg8 : after ops (launchContents m c) (Proc.devRef .tc main_arg8) = (m ((c.tc : Thread nD τ).loc main_arg8)) :=
  (congrFun (after_ops m c) _).trans (U7_arg8 m c)
/-- After all 197 operations argument 9 holds its launch contents. -/
theorem ops_arg9 : after ops (launchContents m c) (Proc.devRef .tc main_arg9) = (m ((c.tc : Thread nD τ).loc main_arg9)) :=
  (congrFun (after_ops m c) _).trans (U7_arg9 m c)
/-- After all 197 operations argument 10 holds its launch contents. -/
theorem ops_arg10 : after ops (launchContents m c) (Proc.devRef .tc main_arg10) = (m ((c.tc : Thread nD τ).loc main_arg10)) :=
  (congrFun (after_ops m c) _).trans (U7_arg10 m c)
/-- After all 197 operations argument 11 holds its launch contents. -/
theorem ops_arg11 : after ops (launchContents m c) (Proc.devRef .tc main_arg11) = (m ((c.tc : Thread nD τ).loc main_arg11)) :=
  (congrFun (after_ops m c) _).trans (U7_arg11 m c)
/-- After all 197 operations argument 12 holds its launch contents. -/
theorem ops_arg12 : after ops (launchContents m c) (Proc.devRef .tc main_arg12) = (m ((c.tc : Thread nD τ).loc main_arg12)) :=
  (congrFun (after_ops m c) _).trans (U7_arg12 m c)

end Chain

end Cert.ReferenceIdeal.Stages

end
-- ==== Proof.RefDense.lean ====
import proofs.«109522_j30880814859094_1_alg».proof.Proof.Gen.ReferenceIdeal
import proofs.«109522_j30880814859094_1_alg».proof.Proof.Spec
import Idealize.ShloMosaic.Lib.ValueIdx
import Idealize.ShloMosaic.Lib.Pipeline.Value
import Idealize.ShloMosaic.PureOps.Ideal.Laws

noncomputable section

namespace Cert.ReferenceIdeal.DenseValue

open Cert.ReferenceIdeal Cert.ReferenceIdeal.Facts₀
open Idealize.ShloMosaic Idealize.ShloMosaic.TcCoe Idealize.SL.Sem Idealize.ShloMosaic.StableHlo
open Idealize.ShloMosaic.ValueIdx

/-! # The reference's dense steps, read index by index on the extended reals -/

/-! ## The product of a 100000x128 and a 128x4 array -/

/-- The left factor's row coordinate is the output's row. -/
theorem dense1_lhs_row (i : S100000x4.Idx) (q : dot_S100000x128_S128x4_S100000x4_1_0_0_1_n_n.contr.Idx) :
    (dot_S100000x128_S128x4_S100000x4_1_0_0_1_n_n.lhsIdx i q 0).val = (i 0).val := by
  unfold DotDims.lhsIdx
  rw [dif_neg (show ¬(0 : Fin S100000x128.rank) ∈ dot_S100000x128_S128x4_S100000x4_1_0_0_1_n_n.lhsBatch by decide), dif_pos (show (0 : Fin S100000x128.rank) ∈ dot_S100000x128_S128x4_S100000x4_1_0_0_1_n_n.lhsNonContracting by decide)]
  rfl
/-- The left factor's column coordinate is the summation index. -/
theorem dense1_lhs_col (i : S100000x4.Idx) (q : dot_S100000x128_S128x4_S100000x4_1_0_0_1_n_n.contr.Idx) :
    (dot_S100000x128_S128x4_S100000x4_1_0_0_1_n_n.lhsIdx i q 1).val = (q ⟨0, by decide⟩).val :=
  dot_S100000x128_S128x4_S100000x4_1_0_0_1_n_n.lhsIdx_val_of_single rfl i q
/-- The right factor's row coordinate is the summation index. -/
theorem dense1_rhs_row (i : S100000x4.Idx) (q : dot_S100000x128_S128x4_S100000x4_1_0_0_1_n_n.contr.Idx) :
    (dot_S100000x128_S128x4_S100000x4_1_0_0_1_n_n.rhsIdx i q 0).val = (q ⟨0, by decide⟩).val :=
  dot_S100000x128_S128x4_S100000x4_1_0_0_1_n_n.rhsIdx_val_of_single rfl i q
/-- The right factor's column coordinate is the output's column. -/
theorem dense1_rhs_col (i : S100000x4.Idx) (q : dot_S100000x128_S128x4_S100000x4_1_0_0_1_n_n.contr.Idx) :
    (dot_S100000x128_S128x4_S100000x4_1_0_0_1_n_n.rhsIdx i q 1).val = (i 1).val := by
  unfold DotDims.rhsIdx
  rw [dif_neg (show ¬(1 : Fin S128x4.rank) ∈ dot_S100000x128_S128x4_S100000x4_1_0_0_1_n_n.rhsBatch by decide), dif_pos (show (1 : Fin S128x4.rank) ∈ dot_S100000x128_S128x4_S100000x4_1_0_0_1_n_n.rhsNonContracting by decide)]
  rfl

/-- The host's product of any 100000x128 array and any 128x4 array is the index-by-index product: entry `(r, q)` is the
    sum over `k` of the first at `(r, k)` times the second at `(k, q)`. -/
theorem refDense1 (X : (⟨S100000x128, .f32⟩ : BufTy).Contents (Elt Ideal)) (Y : (⟨S128x4, .f32⟩ : BufTy).Contents (Elt Ideal)) :
    Host.dotGeneral (F := Ideal) (φ₁ := .f32) (φ₂ := .f32) dot_S100000x128_S128x4_S100000x4_1_0_0_1_n_n none X Y = Cert.Gcn.dense X Y := by
  funext i
  show Host.dotGeneral (F := Ideal) (φ₁ := .f32) (φ₂ := .f32) dot_S100000x128_S128x4_S100000x4_1_0_0_1_n_n none X Y i = ∑ k : Fin 128, X (ix2 (i 0) k) * Y (ix2 k (i 1))
  simp only [Host.dotGeneral]
  rw [Ideal.dotGeneral_apply, ← Equiv.sum_comp (contrEquiv1 dot_S100000x128_S128x4_S100000x4_1_0_0_1_n_n 128 rfl rfl).symm]
  refine Finset.sum_congr rfl fun k _ => ?_
  have hk := contrEquiv1_symm_val dot_S100000x128_S128x4_S100000x4_1_0_0_1_n_n 128 rfl rfl k
  have el : dot_S100000x128_S128x4_S100000x4_1_0_0_1_n_n.lhsIdx i ((contrEquiv1 dot_S100000x128_S128x4_S100000x4_1_0_0_1_n_n 128 rfl rfl).symm k) = ix2 (i 0) k := funext fun a => Fin.ext (by
    match a with
    | ⟨0, _⟩ => exact dense1_lhs_row _ _
    | ⟨1, _⟩ => exact (dense1_lhs_col _ _).trans hk)
  have er : dot_S100000x128_S128x4_S100000x4_1_0_0_1_n_n.rhsIdx i ((contrEquiv1 dot_S100000x128_S128x4_S100000x4_1_0_0_1_n_n 128 rfl rfl).symm k) = ix2 k (i 1) := funext fun a => Fin.ext (by
    match a with
    | ⟨0, _⟩ => exact (dense1_rhs_row _ _).trans hk
    | ⟨1, _⟩ => exact dense1_rhs_col _ _)
  exact congrArg₂ (fun x y : EReal => x * y) (congrArg X el) (congrArg Y er)

/-! ## The product of a 100000x4 and a 4x4 array -/

/-- The left factor's row coordinate is the output's row. -/
theorem dense2_lhs_row (i : S100000x4.Idx) (q : dot_S100000x4_S4x4_S100000x4_1_0_0_1_n_n.contr.Idx) :
    (dot_S100000x4_S4x4_S100000x4_1_0_0_1_n_n.lhsIdx i q 0).val = (i 0).val := by
  unfold DotDims.lhsIdx
  rw [dif_neg (show ¬(0 : Fin S100000x4.rank) ∈ dot_S100000x4_S4x4_S100000x4_1_0_0_1_n_n.lhsBatch by decide), dif_pos (show (0 : Fin S100000x4.rank) ∈ dot_S100000x4_S4x4_S100000x4_1_0_0_1_n_n.lhsNonContracting by decide)]
  rfl
/-- The left factor's column coordinate is the summation index. -/
theorem dense2_lhs_col (i : S100000x4.Idx) (q : dot_S100000x4_S4x4_S100000x4_1_0_0_1_n_n.contr.Idx) :
    (dot_S100000x4_S4x4_S100000x4_1_0_0_1_n_n.lhsIdx i q 1).val = (q ⟨0, by decide⟩).val :=
  dot_S100000x4_S4x4_S100000x4_1_0_0_1_n_n.lhsIdx_val_of_single rfl i q
/-- The right factor's row coordinate is the summation index. -/
theorem dense2_rhs_row (i : S100000x4.Idx) (q : dot_S100000x4_S4x4_S100000x4_1_0_0_1_n_n.contr.Idx) :
    (dot_S100000x4_S4x4_S100000x4_1_0_0_1_n_n.rhsIdx i q 0).val = (q ⟨0, by decide⟩).val :=
  dot_S100000x4_S4x4_S100000x4_1_0_0_1_n_n.rhsIdx_val_of_single rfl i q
/-- The right factor's column coordinate is the output's column. -/
theorem dense2_rhs_col (i : S100000x4.Idx) (q : dot_S100000x4_S4x4_S100000x4_1_0_0_1_n_n.contr.Idx) :
    (dot_S100000x4_S4x4_S100000x4_1_0_0_1_n_n.rhsIdx i q 1).val = (i 1).val := by
  unfold DotDims.rhsIdx
  rw [dif_neg (show ¬(1 : Fin S4x4.rank) ∈ dot_S100000x4_S4x4_S100000x4_1_0_0_1_n_n.rhsBatch by decide), dif_pos (show (1 : Fin S4x4.rank) ∈ dot_S100000x4_S4x4_S100000x4_1_0_0_1_n_n.rhsNonContracting by decide)]
  rfl

/-- The host's product of any 100000x4 array and any 4x4 array is the index-by-index product: entry `(r, q)` is the
    sum over `k` of the first at `(r, k)` times the second at `(k, q)`. -/
theorem refDense2 (X : (⟨S100000x4, .f32⟩ : BufTy).Contents (Elt Ideal)) (Y : (⟨S4x4, .f32⟩ : BufTy).Contents (Elt Ideal)) :
    Host.dotGeneral (F := Ideal) (φ₁ := .f32) (φ₂ := .f32) dot_S100000x4_S4x4_S100000x4_1_0_0_1_n_n none X Y = Cert.Gcn.dense X Y := by
  funext i
  show Host.dotGeneral (F := Ideal) (φ₁ := .f32) (φ₂ := .f32) dot_S100000x4_S4x4_S100000x4_1_0_0_1_n_n none X Y i = ∑ k : Fin 4, X (ix2 (i 0) k) * Y (ix2 k (i 1))
  simp only [Host.dotGeneral]
  rw [Ideal.dotGeneral_apply, ← Equiv.sum_comp (contrEquiv1 dot_S100000x4_S4x4_S100000x4_1_0_0_1_n_n 4 rfl rfl).symm]
  refine Finset.sum_congr rfl fun k _ => ?_
  have hk := contrEquiv1_symm_val dot_S100000x4_S4x4_S100000x4_1_0_0_1_n_n 4 rfl rfl k
  have el : dot_S100000x4_S4x4_S100000x4_1_0_0_1_n_n.lhsIdx i ((contrEquiv1 dot_S100000x4_S4x4_S100000x4_1_0_0_1_n_n 4 rfl rfl).symm k) = ix2 (i 0) k := funext fun a => Fin.ext (by
    match a with
    | ⟨0, _⟩ => exact dense2_lhs_row _ _
    | ⟨1, _⟩ => exact (dense2_lhs_col _ _).trans hk)
  have er : dot_S100000x4_S4x4_S100000x4_1_0_0_1_n_n.rhsIdx i ((contrEquiv1 dot_S100000x4_S4x4_S100000x4_1_0_0_1_n_n 4 rfl rfl).symm k) = ix2 k (i 1) := funext fun a => Fin.ext (by
    match a with
    | ⟨0, _⟩ => exact (dense2_rhs_row _ _).trans hk
    | ⟨1, _⟩ => exact dense2_rhs_col _ _)
  exact congrArg₂ (fun x y : EReal => x * y) (congrArg X el) (congrArg Y er)

/-! ## The product of a 100000x4 and a 4x2 array -/

/-- The left factor's row coordinate is the output's row. -/
theorem dense3_lhs_row (i : S100000x2.Idx) (q : dot_S100000x4_S4x2_S100000x2_1_0_0_1_n_n.contr.Idx) :
    (dot_S100000x4_S4x2_S100000x2_1_0_0_1_n_n.lhsIdx i q 0).val = (i 0).val := by
  unfold DotDims.lhsIdx
  rw [dif_neg (show ¬(0 : Fin S100000x4.rank) ∈ dot_S100000x4_S4x2_S100000x2_1_0_0_1_n_n.lhsBatch by decide), dif_pos (show (0 : Fin S100000x4.rank) ∈ dot_S100000x4_S4x2_S100000x2_1_0_0_1_n_n.lhsNonContracting by decide)]
  rfl
/-- The left factor's column coordinate is the summation index. -/
theorem dense3_lhs_col (i : S100000x2.Idx) (q : dot_S100000x4_S4x2_S100000x2_1_0_0_1_n_n.contr.Idx) :
    (dot_S100000x4_S4x2_S100000x2_1_0_0_1_n_n.lhsIdx i q 1).val = (q ⟨0, by decide⟩).val :=
  dot_S100000x4_S4x2_S100000x2_1_0_0_1_n_n.lhsIdx_val_of_single rfl i q
/-- The right factor's row coordinate is the summation index. -/
theorem dense3_rhs_row (i : S100000x2.Idx) (q : dot_S100000x4_S4x2_S100000x2_1_0_0_1_n_n.contr.Idx) :
    (dot_S100000x4_S4x2_S100000x2_1_0_0_1_n_n.rhsIdx i q 0).val = (q ⟨0, by decide⟩).val :=
  dot_S100000x4_S4x2_S100000x2_1_0_0_1_n_n.rhsIdx_val_of_single rfl i q
/-- The right factor's column coordinate is the output's column. -/
theorem dense3_rhs_col (i : S100000x2.Idx) (q : dot_S100000x4_S4x2_S100000x2_1_0_0_1_n_n.contr.Idx) :
    (dot_S100000x4_S4x2_S100000x2_1_0_0_1_n_n.rhsIdx i q 1).val = (i 1).val := by
  unfold DotDims.rhsIdx
  rw [dif_neg (show ¬(1 : Fin S4x2.rank) ∈ dot_S100000x4_S4x2_S100000x2_1_0_0_1_n_n.rhsBatch by decide), dif_pos (show (1 : Fin S4x2.rank) ∈ dot_S100000x4_S4x2_S100000x2_1_0_0_1_n_n.rhsNonContracting by decide)]
  rfl

/-- The host's product of any 100000x4 array and any 4x2 array is the index-by-index product: entry `(r, q)` is the
    sum over `k` of the first at `(r, k)` times the second at `(k, q)`. -/
theorem refDense3 (X : (⟨S100000x4, .f32⟩ : BufTy).Contents (Elt Ideal)) (Y : (⟨S4x2, .f32⟩ : BufTy).Contents (Elt Ideal)) :
    Host.dotGeneral (F := Ideal) (φ₁ := .f32) (φ₂ := .f32) dot_S100000x4_S4x2_S100000x2_1_0_0_1_n_n none X Y = Cert.Gcn.dense X Y := by
  funext i
  show Host.dotGeneral (F := Ideal) (φ₁ := .f32) (φ₂ := .f32) dot_S100000x4_S4x2_S100000x2_1_0_0_1_n_n none X Y i = ∑ k : Fin 4, X (ix2 (i 0) k) * Y (ix2 k (i 1))
  simp only [Host.dotGeneral]
  rw [Ideal.dotGeneral_apply, ← Equiv.sum_comp (contrEquiv1 dot_S100000x4_S4x2_S100000x2_1_0_0_1_n_n 4 rfl rfl).symm]
  refine Finset.sum_congr rfl fun k _ => ?_
  have hk := contrEquiv1_symm_val dot_S100000x4_S4x2_S100000x2_1_0_0_1_n_n 4 rfl rfl k
  have el : dot_S100000x4_S4x2_S100000x2_1_0_0_1_n_n.lhsIdx i ((contrEquiv1 dot_S100000x4_S4x2_S100000x2_1_0_0_1_n_n 4 rfl rfl).symm k) = ix2 (i 0) k := funext fun a => Fin.ext (by
    match a with
    | ⟨0, _⟩ => exact dense3_lhs_row _ _
    | ⟨1, _⟩ => exact (dense3_lhs_col _ _).trans hk)
  have er : dot_S100000x4_S4x2_S100000x2_1_0_0_1_n_n.rhsIdx i ((contrEquiv1 dot_S100000x4_S4x2_S100000x2_1_0_0_1_n_n 4 rfl rfl).symm k) = ix2 k (i 1) := funext fun a => Fin.ext (by
    match a with
    | ⟨0, _⟩ => exact (dense3_rhs_row _ _).trans hk
    | ⟨1, _⟩ => exact dense3_rhs_col _ _)
  exact congrArg₂ (fun x y : EReal => x * y) (congrArg X el) (congrArg Y er)

/-! ## The product of a 100000x2 and a 2x2 array -/

/-- The left factor's row coordinate is the output's row. -/
theorem dense4_lhs_row (i : S100000x2.Idx) (q : dot_S100000x2_S2x2_S100000x2_1_0_0_1_n_n.contr.Idx) :
    (dot_S100000x2_S2x2_S100000x2_1_0_0_1_n_n.lhsIdx i q 0).val = (i 0).val := by
  unfold DotDims.lhsIdx
  rw [dif_neg (show ¬(0 : Fin S100000x2.rank) ∈ dot_S100000x2_S2x2_S100000x2_1_0_0_1_n_n.lhsBatch by decide), dif_pos (show (0 : Fin S100000x2.rank) ∈ dot_S100000x2_S2x2_S100000x2_1_0_0_1_n_n.lhsNonContracting by decide)]
  rfl
/-- The left factor's column coordinate is the summation index. -/
theorem dense4_lhs_col (i : S100000x2.Idx) (q : dot_S100000x2_S2x2_S100000x2_1_0_0_1_n_n.contr.Idx) :
    (dot_S100000x2_S2x2_S100000x2_1_0_0_1_n_n.lhsIdx i q 1).val = (q ⟨0, by decide⟩).val :=
  dot_S100000x2_S2x2_S100000x2_1_0_0_1_n_n.lhsIdx_val_of_single rfl i q
/-- The right factor's row coordinate is the summation index. -/
theorem dense4_rhs_row (i : S100000x2.Idx) (q : dot_S100000x2_S2x2_S100000x2_1_0_0_1_n_n.contr.Idx) :
    (dot_S100000x2_S2x2_S100000x2_1_0_0_1_n_n.rhsIdx i q 0).val = (q ⟨0, by decide⟩).val :=
  dot_S100000x2_S2x2_S100000x2_1_0_0_1_n_n.rhsIdx_val_of_single rfl i q
/-- The right factor's column coordinate is the output's column. -/
theorem dense4_rhs_col (i : S100000x2.Idx) (q : dot_S100000x2_S2x2_S100000x2_1_0_0_1_n_n.contr.Idx) :
    (dot_S100000x2_S2x2_S100000x2_1_0_0_1_n_n.rhsIdx i q 1).val = (i 1).val := by
  unfold DotDims.rhsIdx
  rw [dif_neg (show ¬(1 : Fin S2x2.rank) ∈ dot_S100000x2_S2x2_S100000x2_1_0_0_1_n_n.rhsBatch by decide), dif_pos (show (1 : Fin S2x2.rank) ∈ dot_S100000x2_S2x2_S100000x2_1_0_0_1_n_n.rhsNonContracting by decide)]
  rfl

/-- The host's product of any 100000x2 array and any 2x2 array is the index-by-index product: entry `(r, q)` is the
    sum over `k` of the first at `(r, k)` times the second at `(k, q)`. -/
theorem refDense4 (X : (⟨S100000x2, .f32⟩ : BufTy).Contents (Elt Ideal)) (Y : (⟨S2x2, .f32⟩ : BufTy).Contents (Elt Ideal)) :
    Host.dotGeneral (F := Ideal) (φ₁ := .f32) (φ₂ := .f32) dot_S100000x2_S2x2_S100000x2_1_0_0_1_n_n none X Y = Cert.Gcn.dense X Y := by
  funext i
  show Host.dotGeneral (F := Ideal) (φ₁ := .f32) (φ₂ := .f32) dot_S100000x2_S2x2_S100000x2_1_0_0_1_n_n none X Y i = ∑ k : Fin 2, X (ix2 (i 0) k) * Y (ix2 k (i 1))
  simp only [Host.dotGeneral]
  rw [Ideal.dotGeneral_apply, ← Equiv.sum_comp (contrEquiv1 dot_S100000x2_S2x2_S100000x2_1_0_0_1_n_n 2 rfl rfl).symm]
  refine Finset.sum_congr rfl fun k _ => ?_
  have hk := contrEquiv1_symm_val dot_S100000x2_S2x2_S100000x2_1_0_0_1_n_n 2 rfl rfl k
  have el : dot_S100000x2_S2x2_S100000x2_1_0_0_1_n_n.lhsIdx i ((contrEquiv1 dot_S100000x2_S2x2_S100000x2_1_0_0_1_n_n 2 rfl rfl).symm k) = ix2 (i 0) k := funext fun a => Fin.ext (by
    match a with
    | ⟨0, _⟩ => exact dense4_lhs_row _ _
    | ⟨1, _⟩ => exact (dense4_lhs_col _ _).trans hk)
  have er : dot_S100000x2_S2x2_S100000x2_1_0_0_1_n_n.rhsIdx i ((contrEquiv1 dot_S100000x2_S2x2_S100000x2_1_0_0_1_n_n 2 rfl rfl).symm k) = ix2 k (i 1) := funext fun a => Fin.ext (by
    match a with
    | ⟨0, _⟩ => exact (dense4_rhs_row _ _).trans hk
    | ⟨1, _⟩ => exact dense4_rhs_col _ _)
  exact congrArg₂ (fun x y : EReal => x * y) (congrArg X el) (congrArg Y er)

/-! ## A length-4 vector spread over the rows of a [100000,4] array, the zero spread over it, and bias + PReLU -/

/-- A length-4 vector made a row and repeated down the 100000 rows reads, at `(r, q)`, the vector at `q`. -/
theorem spreadRow4_apply (v : (⟨S4, .f32⟩ : BufTy).Contents (Elt Ideal)) (i : S100000x4.Idx) :
    (broadcastInDim S100000x4 ![0, 1] bcast_S1x4_S100000x4_0_1 (broadcastInDim S1x4 ![1] bcast_S4_S1x4_1 v)) i = v (ix1 (i 1)) := by
  refine (broadcastInDim_apply _ bcast_S1x4_S100000x4_0_1 (broadcastInDim S1x4 ![1] bcast_S4_S1x4_1 v) i (ix2 (0 : Fin 1) (i 1)) (fun a => match a with
    | ⟨0, _⟩ => by show 0 = if (1 : Nat) = 1 then 0 else (i 0).val; rw [if_pos rfl]
    | ⟨1, _⟩ => by show (i 1).val = if (4 : Nat) = 1 then 0 else (i 1).val; rw [if_neg (by decide)])).trans ?_
  exact broadcastInDim_apply _ bcast_S4_S1x4_1 v (ix2 (0 : Fin 1) (i 1)) (ix1 (i 1)) (fun a => match a with
    | ⟨0, _⟩ => by show (i 1).val = if (4 : Nat) = 1 then 0 else (i 1).val; rw [if_neg (by decide)])

/-- The scalar zero spread over the array reads zero at every index. -/
theorem spreadZero4_apply (i : S100000x4.Idx) :
    (broadcastInDim S100000x4 ![] bcast_S_S100000x4 (constant (F := Ideal) S_ .f32 0x00000000#32)) i = FloatOps.ofBits (F := Ideal) .f32 0x00000000#32 :=
  broadcastInDim_apply _ bcast_S_S100000x4 (constant (F := Ideal) S_ .f32 0x00000000#32) i (fun a => a.elim0) (fun a => a.elim0)

/-- The host's bias + PReLU on any [100000,4] array `g` with bias `b` and slopes `a`: at `(r, q)`, with `t = g (r, q) + b q`, it is
    `t` where `t ≥ 0` and `a q · t` elsewhere. -/
theorem refBiasPrelu4 (g : (⟨S100000x4, .f32⟩ : BufTy).Contents (Elt Ideal)) (b a : (⟨S4, .f32⟩ : BufTy).Contents (Elt Ideal)) :
    select (cmpf (F := Ideal) (φ := .f32) .oge (addf (F := Ideal) (φ := .f32) g (broadcastInDim S100000x4 ![0, 1] bcast_S1x4_S100000x4_0_1 (broadcastInDim S1x4 ![1] bcast_S4_S1x4_1 b))) (broadcastInDim S100000x4 ![] bcast_S_S100000x4 (constant (F := Ideal) S_ .f32 0x00000000#32)))
        (addf (F := Ideal) (φ := .f32) g (broadcastInDim S100000x4 ![0, 1] bcast_S1x4_S100000x4_0_1 (broadcastInDim S1x4 ![1] bcast_S4_S1x4_1 b)))
        (mulf (F := Ideal) (φ := .f32) (broadcastInDim S100000x4 ![0, 1] bcast_S1x4_S100000x4_0_1 (broadcastInDim S1x4 ![1] bcast_S4_S1x4_1 a)) (addf (F := Ideal) (φ := .f32) g (broadcastInDim S100000x4 ![0, 1] bcast_S1x4_S100000x4_0_1 (broadcastInDim S1x4 ![1] bcast_S4_S1x4_1 b))))
      = Cert.Gcn.biasPrelu g b a := by
  funext i
  show Scalar.select (FloatOps.cmpf (F := Ideal) (φ := .f32) .oge (FloatOps.addf (F := Ideal) (φ := .f32) (g i) ((broadcastInDim S100000x4 ![0, 1] bcast_S1x4_S100000x4_0_1 (broadcastInDim S1x4 ![1] bcast_S4_S1x4_1 b)) i)) ((broadcastInDim S100000x4 ![] bcast_S_S100000x4 (constant (F := Ideal) S_ .f32 0x00000000#32)) i))
      (FloatOps.addf (F := Ideal) (φ := .f32) (g i) ((broadcastInDim S100000x4 ![0, 1] bcast_S1x4_S100000x4_0_1 (broadcastInDim S1x4 ![1] bcast_S4_S1x4_1 b)) i))
      (FloatOps.mulf (F := Ideal) (φ := .f32) ((broadcastInDim S100000x4 ![0, 1] bcast_S1x4_S100000x4_0_1 (broadcastInDim S1x4 ![1] bcast_S4_S1x4_1 a)) i) (FloatOps.addf (F := Ideal) (φ := .f32) (g i) ((broadcastInDim S100000x4 ![0, 1] bcast_S1x4_S100000x4_0_1 (broadcastInDim S1x4 ![1] bcast_S4_S1x4_1 b)) i)))
    = Cert.Gcn.prelu (FloatOps.addf (F := Ideal) (φ := FTy.f32) (g i) (b (ix1 (i 1)))) (a (ix1 (i 1)))
  rw [spreadRow4_apply b i, spreadRow4_apply a i, spreadZero4_apply i]
  rfl

/-! ## A length-2 vector spread over the rows of a [100000,2] array, the zero spread over it, and bias + PReLU -/

/-- A length-2 vector made a row and repeated down the 100000 rows reads, at `(r, q)`, the vector at `q`. -/
theorem spreadRow2_apply (v : (⟨S2, .f32⟩ : BufTy).Contents (Elt Ideal)) (i : S100000x2.Idx) :
    (broadcastInDim S100000x2 ![0, 1] bcast_S1x2_S100000x2_0_1 (broadcastInDim S1x2 ![1] bcast_S2_S1x2_1 v)) i = v (ix1 (i 1)) := by
  refine (broadcastInDim_apply _ bcast_S1x2_S100000x2_0_1 (broadcastInDim S1x2 ![1] bcast_S2_S1x2_1 v) i (ix2 (0 : Fin 1) (i 1)) (fun a => match a with
    | ⟨0, _⟩ => by show 0 = if (1 : Nat) = 1 then 0 else (i 0).val; rw [if_pos rfl]
    | ⟨1, _⟩ => by show (i 1).val = if (2 : Nat) = 1 then 0 else (i 1).val; rw [if_neg (by decide)])).trans ?_
  exact broadcastInDim_apply _ bcast_S2_S1x2_1 v (ix2 (0 : Fin 1) (i 1)) (ix1 (i 1)) (fun a => match a with
    | ⟨0, _⟩ => by show (i 1).val = if (2 : Nat) = 1 then 0 else (i 1).val; rw [if_neg (by decide)])

/-- The scalar zero spread over the array reads zero at every index. -/
theorem spreadZero2_apply (i : S100000x2.Idx) :
    (broadcastInDim S100000x2 ![] bcast_S_S100000x2 (constant (F := Ideal) S_ .f32 0x00000000#32)) i = FloatOps.ofBits (F := Ideal) .f32 0x00000000#32 :=
  broadcastInDim_apply _ bcast_S_S100000x2 (constant (F := Ideal) S_ .f32 0x00000000#32) i (fun a => a.elim0) (fun a => a.elim0)

/-- The host's bias + PReLU on any [100000,2] array `g` with bias `b` and slopes `a`: at `(r, q)`, with `t = g (r, q) + b q`, it is
    `t` where `t ≥ 0` and `a q · t` elsewhere. -/
theorem refBiasPrelu2 (g : (⟨S100000x2, .f32⟩ : BufTy).Contents (Elt Ideal)) (b a : (⟨S2, .f32⟩ : BufTy).Contents (Elt Ideal)) :
    select (cmpf (F := Ideal) (φ := .f32) .oge (addf (F := Ideal) (φ := .f32) g (broadcastInDim S100000x2 ![0, 1] bcast_S1x2_S100000x2_0_1 (broadcastInDim S1x2 ![1] bcast_S2_S1x2_1 b))) (broadcastInDim S100000x2 ![] bcast_S_S100000x2 (constant (F := Ideal) S_ .f32 0x00000000#32)))
        (addf (F := Ideal) (φ := .f32) g (broadcastInDim S100000x2 ![0, 1] bcast_S1x2_S100000x2_0_1 (broadcastInDim S1x2 ![1] bcast_S2_S1x2_1 b)))
        (mulf (F := Ideal) (φ := .f32) (broadcastInDim S100000x2 ![0, 1] bcast_S1x2_S100000x2_0_1 (broadcastInDim S1x2 ![1] bcast_S2_S1x2_1 a)) (addf (F := Ideal) (φ := .f32) g (broadcastInDim S100000x2 ![0, 1] bcast_S1x2_S100000x2_0_1 (broadcastInDim S1x2 ![1] bcast_S2_S1x2_1 b))))
      = Cert.Gcn.biasPrelu g b a := by
  funext i
  show Scalar.select (FloatOps.cmpf (F := Ideal) (φ := .f32) .oge (FloatOps.addf (F := Ideal) (φ := .f32) (g i) ((broadcastInDim S100000x2 ![0, 1] bcast_S1x2_S100000x2_0_1 (broadcastInDim S1x2 ![1] bcast_S2_S1x2_1 b)) i)) ((broadcastInDim S100000x2 ![] bcast_S_S100000x2 (constant (F := Ideal) S_ .f32 0x00000000#32)) i))
      (FloatOps.addf (F := Ideal) (φ := .f32) (g i) ((broadcastInDim S100000x2 ![0, 1] bcast_S1x2_S100000x2_0_1 (broadcastInDim S1x2 ![1] bcast_S2_S1x2_1 b)) i))
      (FloatOps.mulf (F := Ideal) (φ := .f32) ((broadcastInDim S100000x2 ![0, 1] bcast_S1x2_S100000x2_0_1 (broadcastInDim S1x2 ![1] bcast_S2_S1x2_1 a)) i) (FloatOps.addf (F := Ideal) (φ := .f32) (g i) ((broadcastInDim S100000x2 ![0, 1] bcast_S1x2_S100000x2_0_1 (broadcastInDim S1x2 ![1] bcast_S2_S1x2_1 b)) i)))
    = Cert.Gcn.prelu (FloatOps.addf (F := Ideal) (φ := FTy.f32) (g i) (b (ix1 (i 1)))) (a (ix1 (i 1)))
  rw [spreadRow2_apply b i, spreadRow2_apply a i, spreadZero2_apply i]
  rfl

/-! ## The last layer: the product plus the bias row -/

/-- The host's last dense layer on any [100000,2] array `h`, [2,2] weights `w` and length-2 bias `b`: at `(r, q)` the sum over `k`
    of `h (r, k) · w (k, q)`, plus `b q`. -/
theorem refDenseBias (h : (⟨S100000x2, .f32⟩ : BufTy).Contents (Elt Ideal)) (w : (⟨S2x2, .f32⟩ : BufTy).Contents (Elt Ideal)) (b : (⟨S2, .f32⟩ : BufTy).Contents (Elt Ideal)) :
    addf (Host.dotGeneral (F := Ideal) (φ₁ := .f32) (φ₂ := .f32) dot_S100000x2_S2x2_S100000x2_1_0_0_1_n_n none h w) (broadcastInDim S100000x2 ![0, 1] bcast_S1x2_S100000x2_0_1 (broadcastInDim S1x2 ![1] bcast_S2_S1x2_1 b))
      = Cert.Gcn.denseBias h w b := by
  funext i
  show Host.dotGeneral (F := Ideal) (φ₁ := .f32) (φ₂ := .f32) dot_S100000x2_S2x2_S100000x2_1_0_0_1_n_n none h w i + (broadcastInDim S100000x2 ![0, 1] bcast_S1x2_S100000x2_0_1 (broadcastInDim S1x2 ![1] bcast_S2_S1x2_1 b)) i
    = Cert.Gcn.dense h w i + b (ix1 (i 1))
  rw [refDense4 h w, spreadRow2_apply b i]

end Cert.ReferenceIdeal.DenseValue

end
-- ==== Proof.RefValue.lean ====
/-
  The idealized reference's two results are the network's.

  Stage by stage the reference computes, with host operations, a matrix product, the aggregation over the edges, and
  bias + PReLU; the aggregation is the network's own function of its operand, and index by index the host's
  `dot_general` is the sum of products `Cert.Gcn.dense`, the host's add / compare / multiply / select chain is
  `Cert.Gcn.biasPrelu`, and the last product with its bias is `Cert.Gcn.denseBias`.  Substituting these into the
  stages' closed terms, innermost first, gives `Cert.Gcn.layer1`, `layer2`, `layer3` and `output`.
-/
import proofs.«109522_j30880814859094_1_alg».proof.Proof.RefStages
import proofs.«109522_j30880814859094_1_alg».proof.Proof.RefDense
import proofs.«109522_j30880814859094_1_alg».proof.Proof.Spec

set_option maxRecDepth 16384

noncomputable section

namespace Cert.ReferenceIdeal.RValue

open Cert.ReferenceIdeal Cert.ReferenceIdeal.Gen Cert.ReferenceIdeal.Stages Cert.ReferenceIdeal.DenseValue
open Idealize.ShloMosaic Idealize.ShloMosaic.TcCoe Idealize.SL.Sem Idealize.ShloMosaic.StableHlo

variable (x : (⟨S100000x128, .f32⟩ : BufTy).Contents (Elt Ideal)) (ei : (⟨S2x3200000, .i32⟩ : BufTy).Contents (Elt Ideal))
  (w1 : (⟨S128x4, .f32⟩ : BufTy).Contents (Elt Ideal)) (b1 a1 : (⟨S4, .f32⟩ : BufTy).Contents (Elt Ideal))
  (w2 : (⟨S4x4, .f32⟩ : BufTy).Contents (Elt Ideal)) (b2 a2 : (⟨S4, .f32⟩ : BufTy).Contents (Elt Ideal))
  (w3 : (⟨S4x2, .f32⟩ : BufTy).Contents (Elt Ideal)) (b3 a3 : (⟨S2, .f32⟩ : BufTy).Contents (Elt Ideal))
  (wl : (⟨S2x2, .f32⟩ : BufTy).Contents (Elt Ideal)) (bl : (⟨S2, .f32⟩ : BufTy).Contents (Elt Ideal))

/-- The host's bias + PReLU chain on four-wide features is the network's, index by index. -/
theorem hostBiasPrelu4_eq (g : (⟨S100000x4, .f32⟩ : BufTy).Contents (Elt Ideal)) (b a : (⟨S4, .f32⟩ : BufTy).Contents (Elt Ideal)) :
    hostBiasPrelu4 g b a = Cert.Gcn.biasPrelu g b a := refBiasPrelu4 g b a

/-- The same on two-wide features. -/
theorem hostBiasPrelu2_eq (g : (⟨S100000x2, .f32⟩ : BufTy).Contents (Elt Ideal)) (b a : (⟨S2, .f32⟩ : BufTy).Contents (Elt Ideal)) :
    hostBiasPrelu2 g b a = Cert.Gcn.biasPrelu g b a := refBiasPrelu2 g b a

/-- The host's last product with its bias row is the network's dense layer with bias. -/
theorem hostDenseBias_eq (h : (⟨S100000x2, .f32⟩ : BufTy).Contents (Elt Ideal)) (w : (⟨S2x2, .f32⟩ : BufTy).Contents (Elt Ideal))
    (b : (⟨S2, .f32⟩ : BufTy).Contents (Elt Ideal)) : hostDenseBias h w b = Cert.Gcn.denseBias h w b := refDenseBias h w b

/-- The reference's first layer is the network's. -/
theorem refLayer1_eq : refLayer1 x ei w1 b1 a1 = Cert.Gcn.layer1 x ei w1 b1 a1 := by
  unfold refLayer1 refAgg1 Cert.Gcn.layer1
  rw [hostBiasPrelu4_eq, refDense1]

/-- The reference's second layer is the network's. -/
theorem refLayer2_eq : refLayer2 x ei w1 b1 a1 w2 b2 a2 = Cert.Gcn.layer2 x ei w1 b1 a1 w2 b2 a2 := by
  unfold refLayer2 refAgg2 Cert.Gcn.layer2
  rw [hostBiasPrelu4_eq, refLayer1_eq, refDense2]

/-- The reference's third layer, its second result, is the network's. -/
theorem refLayer3_eq : refLayer3 x ei w1 b1 a1 w2 b2 a2 w3 b3 a3 = Cert.Gcn.layer3 x ei w1 b1 a1 w2 b2 a2 w3 b3 a3 := by
  unfold refLayer3 refAgg3 Cert.Gcn.layer3
  rw [hostBiasPrelu2_eq, refLayer2_eq, refDense3]

/-- The reference's last dense layer, its first result, is the network's. -/
theorem refOutput_eq : refOutput x ei w1 b1 a1 w2 b2 a2 w3 b3 a3 wl bl = Cert.Gcn.output x ei w1 b1 a1 w2 b2 a2 w3 b3 a3 wl bl := by
  unfold refOutput Cert.Gcn.output
  rw [hostDenseBias_eq, refLayer3_eq]

end Cert.ReferenceIdeal.RValue

end
-- ==== Proof.lean ====
/-
  The proof of `Cert.Claim`: the three frames, `preserves` (the ideal pass rewrote nothing: `True`) and the
  equivalence of the idealized kernel and the idealized reference on the extended reals.

  Both programs compute a three-layer graph-convolution network (Proof/Spec.lean).  Their sparse steps — the edge
  lists with self-loops, the degrees, the edge weights, every gather and scatter-add — are the same host operations
  applied to the same arguments, so nothing about them is opened.  The dense steps differ: the kernel computes each
  matrix product and each bias + PReLU in a pallas_call over ten blocks of 10000 rows, with a product into a zero
  accumulator after a change of float format that is the identity on the extended reals; the reference computes
  them by one `dot_general` and a few pointwise host operations.  Index by index both are the same sum of products
  and the same `t ↦ t` or `a · t` of `t = g + b` (Proof/Linear*.lean, BiasPrelu*.lean for the kernel,
  Proof/RefDense.lean for the reference).  A sum over the extended reals does not depend on the order or grouping of
  its terms, and no law that needs finiteness is used: the precondition is never opened.

  The kernel's values are read off its run boundary by boundary (Proof/KernelRun.lean, KernelValue.lean), the
  reference's off its list of host operations stage by stage (Proof/RefOps.lean, RefStages.lean, RefValue.lean); both
  end at `Cert.Gcn.output` and `Cert.Gcn.layer3` of the arguments.
-/
import proofs.«109522_j30880814859094_1_alg».proof.Defs
import proofs.«109522_j30880814859094_1_alg».proof.Proof.Gen.Kernel
import proofs.«109522_j30880814859094_1_alg».proof.Proof.Gen.Kernel.Frame
import proofs.«109522_j30880814859094_1_alg».proof.Proof.Gen.KernelIdeal
import proofs.«109522_j30880814859094_1_alg».proof.Proof.Gen.KernelIdeal.Frame
import proofs.«109522_j30880814859094_1_alg».proof.Proof.Gen.ReferenceIdeal
import proofs.«109522_j30880814859094_1_alg».proof.Proof.Gen.Pre_finite_inputs
import proofs.«109522_j30880814859094_1_alg».proof.Proof.Spec
import proofs.«109522_j30880814859094_1_alg».proof.Proof.KernelRun
import proofs.«109522_j30880814859094_1_alg».proof.Proof.KernelValue
import proofs.«109522_j30880814859094_1_alg».proof.Proof.RefStages
import proofs.«109522_j30880814859094_1_alg».proof.Proof.RefValue
import Idealize.ShloMosaic.Adequacy
import Idealize.ShloMosaic.Init

set_option maxRecDepth 16384

noncomputable section

namespace Cert.Proof

open Idealize.ShloMosaic Idealize.SL.Sem

/-- The word-level kernel runs and leaves its arguments as launched: the generated frame of its seven regions. -/
theorem frame_kernel : Cert.frame_Kernel := fun m ρ _ => Cert.Kernel.Gen.frame m ρ

/-- The same for the idealized kernel. -/
theorem frame_kernelIdeal : Cert.frame_KernelIdeal := fun m ρ _ => Cert.KernelIdeal.Gen.frame m ρ

/-- The idealized reference, a straight line of host operations, runs and writes no argument. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.Stages.ops_arg0 m c),
     (h c Cert.ReferenceIdeal.main_arg1).trans (Cert.ReferenceIdeal.Stages.ops_arg1 m c),
     (h c Cert.ReferenceIdeal.main_arg2).trans (Cert.ReferenceIdeal.Stages.ops_arg2 m c),
     (h c Cert.ReferenceIdeal.main_arg3).trans (Cert.ReferenceIdeal.Stages.ops_arg3 m c),
     (h c Cert.ReferenceIdeal.main_arg4).trans (Cert.ReferenceIdeal.Stages.ops_arg4 m c),
     (h c Cert.ReferenceIdeal.main_arg5).trans (Cert.ReferenceIdeal.Stages.ops_arg5 m c),
     (h c Cert.ReferenceIdeal.main_arg6).trans (Cert.ReferenceIdeal.Stages.ops_arg6 m c),
     (h c Cert.ReferenceIdeal.main_arg7).trans (Cert.ReferenceIdeal.Stages.ops_arg7 m c),
     (h c Cert.ReferenceIdeal.main_arg8).trans (Cert.ReferenceIdeal.Stages.ops_arg8 m c),
     (h c Cert.ReferenceIdeal.main_arg9).trans (Cert.ReferenceIdeal.Stages.ops_arg9 m c),
     (h c Cert.ReferenceIdeal.main_arg10).trans (Cert.ReferenceIdeal.Stages.ops_arg10 m c),
     (h c Cert.ReferenceIdeal.main_arg11).trans (Cert.ReferenceIdeal.Stages.ops_arg11 m c),
     (h c Cert.ReferenceIdeal.main_arg12).trans (Cert.ReferenceIdeal.Stages.ops_arg12 m c)⟩)
    (Cert.ReferenceIdeal.Stages.run_all (F := Ideal) m ρ)

/-- The ideal pass rewrote no operation. -/
theorem preserves : Cert.preserves_Kernel_KernelIdeal := trivial

/-- From memories agreeing on the thirteen arguments both idealized programs end with the network's `output` as
    first result and its `layer3` as second, of those arguments; no argument is written. -/
theorem algebraic : Cert.algebraic_KernelIdeal_ReferenceIdeal := by
  intro m g m' g' _ hagree
  refine ⟨fun c => Cert.Gcn.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), fun c => Cert.Gcn.layer3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run (Cert.KernelIdeal.defs (F := Ideal)) _ _).mono
      (fun r h c => ⟨(h c).1.trans (Cert.KernelIdeal.KValue.at14_v80 m g c), (h c).2.1.trans (Cert.KernelIdeal.KValue.at14_v78 m g c), (h c).2.2⟩)
      (Cert.KernelIdeal.RunAll.run_results m g)
  · refine (θ_run (Cert.ReferenceIdeal.defs (F := Ideal)) _ _).mono (fun r h c => ?_) (Cert.ReferenceIdeal.Stages.run_all (F := Ideal) m' g')
    obtain ⟨e0, e1, e2, e3, e4, e5, e6, e7, e8, e9, e10, e11, e12⟩ := hagree c
    refine ⟨?_, ?_, (h c Cert.ReferenceIdeal.main_arg0).trans (Cert.ReferenceIdeal.Stages.ops_arg0 m' c),
      (h c Cert.ReferenceIdeal.main_arg1).trans (Cert.ReferenceIdeal.Stages.ops_arg1 m' c),
      (h c Cert.ReferenceIdeal.main_arg2).trans (Cert.ReferenceIdeal.Stages.ops_arg2 m' c),
      (h c Cert.ReferenceIdeal.main_arg3).trans (Cert.ReferenceIdeal.Stages.ops_arg3 m' c),
      (h c Cert.ReferenceIdeal.main_arg4).trans (Cert.ReferenceIdeal.Stages.ops_arg4 m' c),
      (h c Cert.ReferenceIdeal.main_arg5).trans (Cert.ReferenceIdeal.Stages.ops_arg5 m' c),
      (h c Cert.ReferenceIdeal.main_arg6).trans (Cert.ReferenceIdeal.Stages.ops_arg6 m' c),
      (h c Cert.ReferenceIdeal.main_arg7).trans (Cert.ReferenceIdeal.Stages.ops_arg7 m' c),
      (h c Cert.ReferenceIdeal.main_arg8).trans (Cert.ReferenceIdeal.Stages.ops_arg8 m' c),
      (h c Cert.ReferenceIdeal.main_arg9).trans (Cert.ReferenceIdeal.Stages.ops_arg9 m' c),
      (h c Cert.ReferenceIdeal.main_arg10).trans (Cert.ReferenceIdeal.Stages.ops_arg10 m' c),
      (h c Cert.ReferenceIdeal.main_arg11).trans (Cert.ReferenceIdeal.Stages.ops_arg11 m' c),
      (h c Cert.ReferenceIdeal.main_arg12).trans (Cert.ReferenceIdeal.Stages.ops_arg12 m' c)⟩
    · rw [h c Cert.ReferenceIdeal.main_v154, Cert.ReferenceIdeal.Stages.ops_v154, Cert.ReferenceIdeal.RValue.refOutput_eq,
        e0, e1, e2, e3, e4, e5, e6, e7, e8, e9, e10, e11, e12]
    · rw [h c Cert.ReferenceIdeal.main_v150, Cert.ReferenceIdeal.Stages.ops_v150, Cert.ReferenceIdeal.RValue.refLayer3_eq,
        e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
